-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64x64 .f32) (main_arg9 : FVec F S64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S64 .f32) (main_arg6 : FVec F S64x64 .f32) (main_arg7 : FVec F S64 .f32) (main_arg8 : FVec F S64x64 .f32) (main_arg9 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1200000 32) (main_arg2 : FVec F S64x64 .f32) (main_arg3 : FVec F S64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S1x1200000 : Shape := ⟨2, ![1, 1200000]⟩
abbrev S1200000 : Shape := ⟨1, ![1200000]⟩
abbrev S100000 : Shape := ⟨1, ![100000]⟩
abbrev S1300000 : Shape := ⟨1, ![1300000]⟩
abbrev S_ : Shape := ⟨0, ![]⟩
abbrev S1300000x1 : Shape := ⟨2, ![1300000, 1]⟩
abbrev S20000x64 : Shape := ⟨2, ![20000, 64]⟩
abbrev S1300000x64 : Shape := ⟨2, ![1300000, 64]⟩
abbrev S1x64 : Shape := ⟨2, ![1, 64]⟩

abbrev nBuf : Space → Nat
  | .hbm => 91
  | .vmem => 36
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S1x1200000, .i32⟩
  | .hbm, ⟨11, _⟩ => ⟨S1200000, .i32⟩
  | .hbm, ⟨12, _⟩ => ⟨S1x1200000, .i32⟩
  | .hbm, ⟨13, _⟩ => ⟨S1200000, .i32⟩
  | .hbm, ⟨14, _⟩ => ⟨S100000, .i32⟩
  | .hbm, ⟨15, _⟩ => ⟨S1300000, .i32⟩
  | .hbm, ⟨16, _⟩ => ⟨S1300000, .i32⟩
  | .hbm, ⟨17, _⟩ => ⟨S_, .f32⟩
  | .hbm, ⟨18, _⟩ => ⟨S1300000, .f32⟩
  | .hbm, ⟨19, _⟩ => ⟨S_, .f32⟩
  | .hbm, ⟨20, _⟩ => ⟨S100000, .f32⟩
  | .hbm, ⟨21, _⟩ => ⟨S1300000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1300000, .i32⟩
  | .hbm, ⟨32, _⟩ => ⟨S1300000, .i1⟩
  | .hbm, ⟨33, _⟩ => ⟨S_, .i32⟩
  | .hbm, ⟨34, _⟩ => ⟨S1300000, .i32⟩
  | .hbm, ⟨35, _⟩ => ⟨S1300000, .i32⟩
  | .hbm, ⟨36, _⟩ => ⟨S1300000, .i32⟩
  | .hbm, ⟨37, _⟩ => ⟨S1300000x1, .i32⟩
  | .hbm, ⟨38, _⟩ => ⟨S1300000, .f32⟩
  | .hbm, ⟨39, _⟩ => ⟨S_, .i32⟩
  | .hbm, ⟨40, _⟩ => ⟨S1300000, .i32⟩
  | .hbm, ⟨41, _⟩ => ⟨S1300000, .i1⟩
  | .hbm, ⟨42, _⟩ => ⟨S_, .i32⟩
  | .hbm, ⟨43, _⟩ => ⟨S1300000, .i32⟩
  | .hbm, ⟨44, _⟩ => ⟨S1300000, .i32⟩
  | .hbm, ⟨45, _⟩ => ⟨S1300000, .i32⟩
  | .hbm, ⟨46, _⟩ => ⟨S1300000x1, .i32⟩
  | .hbm, ⟨47, _⟩ => ⟨S1300000, .f32⟩
  | .hbm, ⟨48, _⟩ => ⟨S1300000, .f32⟩
  | .hbm, ⟨49, _⟩ => ⟨S100000x64, .f32⟩
  | .hbm, ⟨50, _⟩ => ⟨S_, .i32⟩
  | .hbm, ⟨51, _⟩ => ⟨S1300000, .i32⟩
  | .hbm, ⟨52, _⟩ => ⟨S1300000, .i1⟩
  | .hbm, ⟨53, _⟩ => ⟨S_, .i32⟩
  | .hbm, ⟨54, _⟩ => ⟨S1300000, .i32⟩
  | .hbm, ⟨55, _⟩ => ⟨S1300000, .i32⟩
  | .hbm, ⟨56, _⟩ => ⟨S1300000, .i32⟩
  | .hbm, ⟨57, _⟩ => ⟨S1300000x1, .i32⟩
  | .hbm, ⟨58, _⟩ => ⟨S1300000x64, .f32⟩
  | .hbm, ⟨59, _⟩ => ⟨S1300000x1, .f32⟩
  | .hbm, ⟨60, _⟩ => ⟨S1300000x64, .f32⟩
  | .hbm, ⟨61, _⟩ => ⟨S1300000x64, .f32⟩
  | .hbm, ⟨62, _⟩ => ⟨S_, .f32⟩
  | .hbm, ⟨63, _⟩ => ⟨S100000x64, .f32⟩
  | .hbm, ⟨64, _⟩ => ⟨S1300000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .i32⟩
  | .hbm, ⟨70, _⟩ => ⟨S1300000, .i32⟩
  | .hbm, ⟨71, _⟩ => ⟨S1300000, .i1⟩
  | .hbm, ⟨72, _⟩ => ⟨S_, .i32⟩
  | .hbm, ⟨73, _⟩ => ⟨S1300000, .i32⟩
  | .hbm, ⟨74, _⟩ => ⟨S1300000, .i32⟩
  | .hbm, ⟨75, _⟩ => ⟨S1300000, .i32⟩
  | .hbm, ⟨76, _⟩ => ⟨S1300000x1, .i32⟩
  | .hbm, ⟨77, _⟩ => ⟨S1300000x64, .f32⟩
  | .hbm, ⟨78, _⟩ => ⟨S1300000x1, .f32⟩
  | .hbm, ⟨79, _⟩ => ⟨S1300000x64, .f32⟩
  | .hbm, ⟨80, _⟩ => ⟨S1300000x64, .f32⟩
  | .hbm, ⟨81, _⟩ => ⟨S_, .f32⟩
  | .hbm, ⟨82, _⟩ => ⟨S100000x64, .f32⟩
  | .hbm, ⟨83, _⟩ => ⟨S1300000x1, .i32⟩
  | .hbm, ⟨84, _⟩ => ⟨S100000x64, .f32⟩
  | .hbm, ⟨85, _⟩ => ⟨S1x64, .f32⟩
  | .hbm, ⟨86, _⟩ => ⟨S100000x64, .f32⟩
  | .hbm, ⟨87, _⟩ => ⟨S1x64, .f32⟩
  | .hbm, ⟨88, _⟩ => ⟨S100000x64, .f32⟩
  | .hbm, ⟨89, _⟩ => ⟨S1x64, .f32⟩
  | .hbm, ⟨90, _⟩ => ⟨S100000x64, .f32⟩
  | .local _ .vmem, ⟨0, _⟩ => ⟨S20000x64, .f32⟩
  | .local _ .vmem, ⟨1, _⟩ => ⟨S20000x64, .f32⟩
  | .local _ .vmem, ⟨2, _⟩ => ⟨S64x64, .f32⟩
  | .local _ .vmem, ⟨3, _⟩ => ⟨S20000x64, .f32⟩
  | .local _ .vmem, ⟨4, _⟩ => ⟨S20000x64, .f32⟩
  | .local _ .vmem, ⟨5, _⟩ => ⟨S20000x64, .f32⟩
  | .local _ .vmem, ⟨6, _⟩ => ⟨S20000x64, .f32⟩
  | .local _ .vmem, ⟨7, _⟩ => ⟨S1x64, .f32⟩
  | .local _ .vmem, ⟨8, _⟩ => ⟨S20000x64, .f32⟩
  | .local _ .vmem, ⟨9, _⟩ => ⟨S20000x64, .f32⟩
  | .local _ .vmem, ⟨10, _⟩ => ⟨S20000x64, .f32⟩
  | .local _ .vmem, ⟨11, _⟩ => ⟨S20000x64, .f32⟩
  | .local _ .vmem, ⟨12, _⟩ => ⟨S64x64, .f32⟩
  | .local _ .vmem, ⟨13, _⟩ => ⟨S20000x64, .f32⟩
  | .local _ .vmem, ⟨14, _⟩ => ⟨S20000x64, .f32⟩
  | .local _ .vmem, ⟨15, _⟩ => ⟨S20000x64, .f32⟩
  | .local _ .vmem, ⟨16, _⟩ => ⟨S20000x64, .f32⟩
  | .local _ .vmem, ⟨17, _⟩ => ⟨S1x64, .f32⟩
  | .local _ .vmem, ⟨18, _⟩ => ⟨S20000x64, .f32⟩
  | .local _ .vmem, ⟨19, _⟩ => ⟨S20000x64, .f32⟩
  | .local _ .vmem, ⟨20, _⟩ => ⟨S20000x64, .f32⟩
  | .local _ .vmem, ⟨21, _⟩ => ⟨S20000x64, .f32⟩
  | .local _ .vmem, ⟨22, _⟩ => ⟨S20000x64, .f32⟩
  | .local _ .vmem, ⟨23, _⟩ => ⟨S20000x64, .f32⟩
  | .local _ .vmem, ⟨24, _⟩ => ⟨S64x64, .f32⟩
  | .local _ .vmem, ⟨25, _⟩ => ⟨S1x64, .f32⟩
  | .local _ .vmem, ⟨26, _⟩ => ⟨S20000x64, .f32⟩
  | .local _ .vmem, ⟨27, _⟩ => ⟨S20000x64, .f32⟩
  | .local _ .vmem, ⟨28, _⟩ => ⟨S20000x64, .f32⟩
  | .local _ .vmem, ⟨29, _⟩ => ⟨S20000x64, .f32⟩
  | .local _ .vmem, ⟨30, _⟩ => ⟨S64x64, .f32⟩
  | .local _ .vmem, ⟨31, _⟩ => ⟨S1x64, .f32⟩
  | .local _ .vmem, ⟨32, _⟩ => ⟨S20000x64, .f32⟩
  | .local _ .vmem, ⟨33, _⟩ => ⟨S20000x64, .f32⟩
  | .local _ .vmem, ⟨34, _⟩ => ⟨S20000x64, .f32⟩
  | .local _ .vmem, ⟨35, _⟩ => ⟨S20000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg3_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg3_0 : Ref sig .tc := ⟨.vmem, 32, rfl⟩
abbrev cc5_stg3_1 : Ref sig .tc := ⟨.vmem, 33, rfl⟩
abbrev cc5_stg4_0 : Ref sig .tc := ⟨.vmem, 34, rfl⟩
abbrev cc5_stg4_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc4_sem3_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem3_0 : DmaSem sig := 32
abbrev cc5_sem3_1 : DmaSem sig := 33
abbrev cc5_sem4_0 : DmaSem sig := 34
abbrev cc5_sem4_1 : DmaSem sig := 35

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S20000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S20000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S20000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S20000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S20000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S20000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S20000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S20000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S20000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S20000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S20000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  concatenates_S1200000_S100000_S1300000_d0 : Shape.Concatenates [S1200000, S100000] S1300000 0
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  inb_S20000x64_S20000x64_0_0 : ∀ a, (![0, 0] : Fin 2 → Nat) a + S20000x64.size a ≤ S20000x64.size a
  h_S20000x64 : 0 < S20000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  shapeCasts_S64_S1x64 : S64.ShapeCasts S1x64
  shapeCasts_S20000x64_S20000x64 : S20000x64.ShapeCasts S20000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S20000x64 : S1x64.Broadcasts S20000x64
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S20000x64_S64x64_S20000x64_1_0_0_1_n_n_wf : DotDims.WF S20000x64 S64x64 S20000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x64.size a ≤ S100000x64.size a
  hwx0_0 : ∀ i : grid0.Coords, EltTy.bits .f32 = 32 ∨ (Rect.block (s := S100000x64) S20000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S20000x64.size a ≤ S100000x64.size a
  hwx0_2 : ∀ i : grid0.Coords, EltTy.bits .f32 = 32 ∨ (Rect.block (s := S100000x64) S20000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x64.size a ≤ S100000x64.size a
  hwx1_0 : ∀ i : grid1.Coords, EltTy.bits .f32 = 32 ∨ (Rect.block (s := S100000x64) S20000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S20000x64.size a ≤ S100000x64.size a
  hwx1_2 : ∀ i : grid1.Coords, EltTy.bits .f32 = 32 ∨ (Rect.block (s := S100000x64) S20000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x64.size a ≤ S100000x64.size a
  hwx2_0 : ∀ i : grid2.Coords, EltTy.bits .f32 = 32 ∨ (Rect.block (s := S100000x64) S20000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S20000x64.size a ≤ S100000x64.size a
  hwx2_2 : ∀ i : grid2.Coords, EltTy.bits .f32 = 32 ∨ (Rect.block (s := S100000x64) S20000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S20000x64.size a ≤ S100000x64.size a
  hwx3_0 : ∀ i : grid3.Coords, EltTy.bits .f32 = 32 ∨ (Rect.block (s := S100000x64) S20000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S20000x64.size a ≤ S100000x64.size a
  hwx3_2 : ∀ i : grid3.Coords, EltTy.bits .f32 = 32 ∨ (Rect.block (s := S100000x64) S20000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S20000x64.size a ≤ S100000x64.size a
  hwx3_3 : ∀ i : grid3.Coords, EltTy.bits .f32 = 32 ∨ (Rect.block (s := S100000x64) S20000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S20000x64.size a ≤ S100000x64.size a
  hwx4_0 : ∀ i : grid4.Coords, EltTy.bits .f32 = 32 ∨ (Rect.block (s := S100000x64) S20000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S20000x64.size a ≤ S100000x64.size a
  hwx4_3 : ∀ i : grid4.Coords, EltTy.bits .f32 = 32 ∨ (Rect.block (s := S100000x64) S20000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S20000x64.size a ≤ S100000x64.size a
  hwx5_0 : ∀ i : grid5.Coords, EltTy.bits .f32 = 32 ∨ (Rect.block (s := S100000x64) S20000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S20000x64.size a ≤ S100000x64.size a
  hwx5_3 : ∀ i : grid5.Coords, EltTy.bits .f32 = 32 ∨ (Rect.block (s := S100000x64) S20000x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S20000x64.size a ≤ S100000x64.size a
  hwx5_4 : ∀ i : grid5.Coords, EltTy.bits .f32 = 32 ∨ (Rect.block (s := S100000x64) S20000x64.size (cc5_transform_4 i) (hinb5_4 i)).WholeWords (EltTy.packing .f32)

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf

abbrev win0_0 : Pipeline.Window sig grid0 :=
  Pipeline.Window.ofSpec (Memref.whole main_arg0) S20000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S20000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S20000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S20000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S20000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S20000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S20000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v46) S20000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v62) S20000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v62) S20000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v64) S20000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v64) S20000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg8) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v65) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v62) S20000x64.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v66) S20000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S1x1200000 : Shape := ⟨2, ![1, 1200000]⟩
abbrev S1200000 : Shape := ⟨1, ![1200000]⟩
abbrev S100000 : Shape := ⟨1, ![100000]⟩
abbrev S1300000 : Shape := ⟨1, ![1300000]⟩
abbrev S_ : Shape := ⟨0, ![]⟩
abbrev S1300000x1 : Shape := ⟨2, ![1300000, 1]⟩
abbrev S1300000x64 : Shape := ⟨2, ![1300000, 64]⟩
abbrev S1x64 : Shape := ⟨2, ![1, 64]⟩

abbrev nBuf : Space → Nat
  | .hbm => 166
  | .vmem => 0
  | .smem => 0
  | _ => 0

abbrev hbmTy0_0 (i : Nat) : BufTy := match i % 128 with
  | 0 => ⟨S100000x64, .f32⟩
  | 1 => ⟨S2x1200000, .i32⟩
  | 2 => ⟨S64x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S1x1200000, .i32⟩
  | 11 => ⟨S1200000, .i32⟩
  | 12 => ⟨S1x1200000, .i32⟩
  | 13 => ⟨S1200000, .i32⟩
  | 14 => ⟨S100000, .i32⟩
  | 15 => ⟨S1300000, .i32⟩
  | 16 => ⟨S1300000, .i32⟩
  | 17 => ⟨S_, .f32⟩
  | 18 => ⟨S1300000, .f32⟩
  | 19 => ⟨S_, .f32⟩
  | 20 => ⟨S100000, .f32⟩
  | 21 => ⟨S1300000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S100000, .f32⟩
  | 29 => ⟨S100000, .f32⟩
  | 30 => ⟨S_, .i32⟩
  | 31 => ⟨S1300000, .i32⟩
  | 32 => ⟨S1300000, .i1⟩
  | 33 => ⟨S_, .i32⟩
  | 34 => ⟨S1300000, .i32⟩
  | 35 => ⟨S1300000, .i32⟩
  | 36 => ⟨S1300000, .i32⟩
  | 37 => ⟨S1300000x1, .i32⟩
  | 38 => ⟨S1300000, .f32⟩
  | 39 => ⟨S_, .i32⟩
  | 40 => ⟨S1300000, .i32⟩
  | 41 => ⟨S1300000, .i1⟩
  | 42 => ⟨S_, .i32⟩
  | 43 => ⟨S1300000, .i32⟩
  | 44 => ⟨S1300000, .i32⟩
  | 45 => ⟨S1300000, .i32⟩
  | 46 => ⟨S1300000x1, .i32⟩
  | 47 => ⟨S1300000, .f32⟩
  | 48 => ⟨S1300000, .f32⟩
  | 49 => ⟨S100000x64, .f32⟩
  | 50 => ⟨S_, .i32⟩
  | 51 => ⟨S1300000, .i32⟩
  | 52 => ⟨S1300000, .i1⟩
  | 53 => ⟨S_, .i32⟩
  | 54 => ⟨S1300000, .i32⟩
  | 55 => ⟨S1300000, .i32⟩
  | 56 => ⟨S1300000, .i32⟩
  | 57 => ⟨S1300000x1, .i32⟩
  | 58 => ⟨S1300000x64, .f32⟩
  | 59 => ⟨S1300000x1, .f32⟩
  | 60 => ⟨S1300000x64, .f32⟩
  | 61 => ⟨S1300000x64, .f32⟩
  | 62 => ⟨S_, .f32⟩
  | 63 => ⟨S100000x64, .f32⟩
  | 64 => ⟨S1300000x1, .i32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S_, .f32⟩
  | 71 => ⟨S100000x64, .f32⟩
  | 72 => ⟨S100000x64, .i1⟩
  | 73 => ⟨S_, .f32⟩
  | 74 => ⟨S100000x64, .f32⟩
  | 75 => ⟨S100000x64, .f32⟩
  | 76 => ⟨S100000x64, .f32⟩
  | 77 => ⟨S100000, .i32⟩
  | 78 => ⟨S1300000, .i32⟩
  | 79 => ⟨S1300000, .i32⟩
  | 80 => ⟨S_, .f32⟩
  | 81 => ⟨S1300000, .f32⟩
  | 82 => ⟨S_, .f32⟩
  | 83 => ⟨S100000, .f32⟩
  | 84 => ⟨S1300000x1, .i32⟩
  | 85 => ⟨S100000, .f32⟩
  | 86 => ⟨S_, .f32⟩
  | 87 => ⟨S100000, .f32⟩
  | 88 => ⟨S100000, .i1⟩
  | 89 => ⟨S100000, .f32⟩
  | 90 => ⟨S_, .f32⟩
  | 91 => ⟨S100000, .f32⟩
  | 92 => ⟨S100000, .f32⟩
  | 93 => ⟨S_, .i32⟩
  | 94 => ⟨S1300000, .i32⟩
  | 95 => ⟨S1300000, .i1⟩
  | 96 => ⟨S_, .i32⟩
  | 97 => ⟨S1300000, .i32⟩
  | 98 => ⟨S1300000, .i32⟩
  | 99 => ⟨S1300000, .i32⟩
  | 100 => ⟨S1300000x1, .i32⟩
  | 101 => ⟨S1300000, .f32⟩
  | 102 => ⟨S_, .i32⟩
  | 103 => ⟨S1300000, .i32⟩
  | 104 => ⟨S1300000, .i1⟩
  | 105 => ⟨S_, .i32⟩
  | 106 => ⟨S1300000, .i32⟩
  | 107 => ⟨S1300000, .i32⟩
  | 108 => ⟨S1300000, .i32⟩
  | 109 => ⟨S1300000x1, .i32⟩
  | 110 => ⟨S1300000, .f32⟩
  | 111 => ⟨S1300000, .f32⟩
  | 112 => ⟨S100000x64, .f32⟩
  | 113 => ⟨S_, .i32⟩
  | 114 => ⟨S1300000, .i32⟩
  | 115 => ⟨S1300000, .i1⟩
  | 116 => ⟨S_, .i32⟩
  | 117 => ⟨S1300000, .i32⟩
  | 118 => ⟨S1300000, .i32⟩
  | 119 => ⟨S1300000, .i32⟩
  | 120 => ⟨S1300000x1, .i32⟩
  | 121 => ⟨S1300000x64, .f32⟩
  | 122 => ⟨S1300000x1, .f32⟩
  | 123 => ⟨S1300000x64, .f32⟩
  | 124 => ⟨S1300000x64, .f32⟩
  | 125 => ⟨S_, .f32⟩
  | 126 => ⟨S100000x64, .f32⟩
  | 127 => ⟨S1300000x1, .i32⟩
  | _ => ⟨S100000x64, .f32⟩

abbrev hbmTy0_1 (i : Nat) : BufTy := match i % 128 with
  | 0 => ⟨S100000x64, .f32⟩
  | 1 => ⟨S1x64, .f32⟩
  | 2 => ⟨S100000x64, .f32⟩
  | 3 => ⟨S100000x64, .f32⟩
  | 4 => ⟨S100000x64, .f32⟩
  | 5 => ⟨S_, .f32⟩
  | 6 => ⟨S_, .f32⟩
  | 7 => ⟨S100000x64, .f32⟩
  | 8 => ⟨S100000x64, .i1⟩
  | 9 => ⟨S_, .f32⟩
  | 10 => ⟨S100000x64, .f32⟩
  | 11 => ⟨S100000x64, .f32⟩
  | 12 => ⟨S100000x64, .f32⟩
  | 13 => ⟨S100000x64, .f32⟩
  | 14 => ⟨S1x64, .f32⟩
  | 15 => ⟨S100000x64, .f32⟩
  | 16 => ⟨S100000x64, .f32⟩
  | 17 => ⟨S_, .f32⟩
  | 18 => ⟨S_, .f32⟩
  | 19 => ⟨S100000x64, .f32⟩
  | 20 => ⟨S100000x64, .i1⟩
  | 21 => ⟨S_, .f32⟩
  | 22 => ⟨S100000x64, .f32⟩
  | 23 => ⟨S100000x64, .f32⟩
  | 24 => ⟨S100000x64, .f32⟩
  | 25 => ⟨S100000x64, .f32⟩
  | 26 => ⟨S1x64, .f32⟩
  | 27 => ⟨S100000x64, .f32⟩
  | 28 => ⟨S100000x64, .f32⟩
  | 29 => ⟨S100000x64, .f32⟩
  | 30 => ⟨S_, .f32⟩
  | 31 => ⟨S_, .f32⟩
  | 32 => ⟨S100000x64, .f32⟩
  | 33 => ⟨S100000x64, .i1⟩
  | 34 => ⟨S_, .f32⟩
  | 35 => ⟨S100000x64, .f32⟩
  | 36 => ⟨S100000x64, .f32⟩
  | 37 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_call1_cst : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_10 : Ref sig .tc := ⟨.hbm, 80, rfl⟩
abbrev main_v52 : Ref sig .tc := ⟨.hbm, 81, rfl⟩
abbrev main_cst_11 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_12 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_13 : Ref sig .tc := ⟨.hbm, 90, rfl⟩
abbrev main_v59 : Ref sig .tc := ⟨.hbm, 91, rfl⟩
abbrev main_v60 : Ref sig .tc := ⟨.hbm, 92, rfl⟩
abbrev main_c_14 : Ref sig .tc := ⟨.hbm, 93, rfl⟩
abbrev main_v61 : Ref sig .tc := ⟨.hbm, 94, rfl⟩
abbrev main_v62 : Ref sig .tc := ⟨.hbm, 95, rfl⟩
abbrev main_c_15 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_c_16 : Ref sig .tc := ⟨.hbm, 102, rfl⟩
abbrev main_v68 : Ref sig .tc := ⟨.hbm, 103, rfl⟩
abbrev main_v69 : Ref sig .tc := ⟨.hbm, 104, rfl⟩
abbrev main_c_17 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_c_18 : Ref sig .tc := ⟨.hbm, 113, rfl⟩
abbrev main_v77 : Ref sig .tc := ⟨.hbm, 114, rfl⟩
abbrev main_v78 : Ref sig .tc := ⟨.hbm, 115, rfl⟩
abbrev main_c_19 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_20 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_cst_21 : Ref sig .tc := ⟨.hbm, 133, rfl⟩
abbrev main_call3_cst : Ref sig .tc := ⟨.hbm, 134, rfl⟩
abbrev main_call3_v0 : Ref sig .tc := ⟨.hbm, 135, rfl⟩
abbrev main_call3_v1 : Ref sig .tc := ⟨.hbm, 136, rfl⟩
abbrev main_call3_v2 : Ref sig .tc := ⟨.hbm, 137, rfl⟩
abbrev main_call3_v3 : Ref sig .tc := ⟨.hbm, 138, rfl⟩
abbrev main_call3_v4 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_cst_22 : Ref sig .tc := ⟨.hbm, 145, rfl⟩
abbrev main_call4_cst : Ref sig .tc := ⟨.hbm, 146, rfl⟩
abbrev main_call4_v0 : Ref sig .tc := ⟨.hbm, 147, rfl⟩
abbrev main_call4_v1 : Ref sig .tc := ⟨.hbm, 148, rfl⟩
abbrev main_call4_v2 : Ref sig .tc := ⟨.hbm, 149, rfl⟩
abbrev main_call4_v3 : Ref sig .tc := ⟨.hbm, 150, rfl⟩
abbrev main_call4_v4 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_cst_23 : Ref sig .tc := ⟨.hbm, 158, rfl⟩
abbrev main_call5_cst : Ref sig .tc := ⟨.hbm, 159, rfl⟩
abbrev main_call5_v0 : Ref sig .tc := ⟨.hbm, 160, rfl⟩
abbrev main_call5_v1 : Ref sig .tc := ⟨.hbm, 161, rfl⟩
abbrev main_call5_v2 : Ref sig .tc := ⟨.hbm, 162, rfl⟩
abbrev main_call5_v3 : Ref sig .tc := ⟨.hbm, 163, rfl⟩
abbrev main_call5_v4 : Ref sig .tc := ⟨.hbm, 164, rfl⟩
abbrev main_v105 : Ref sig .tc := ⟨.hbm, 165, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  concatenates_S1200000_S100000_S1300000_d0 : Shape.Concatenates [S1200000, S100000] S1300000 0
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S100000x64_S64x64_S100000x64_1_0_0_1_n_n_wf : DotDims.WF S100000x64 S64x64 S100000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf

class Facts : Prop extends Facts₀ where

variable [Facts]
-- ==== Proof.KRun.lean ====
/-
  The tiled program's run with its result named.

  The program alternates stretches of whole-array host operations with six tiled regions. Its run is carried by the
  contents of every buffer at each boundary between two segments: a host stretch takes the contents to what its
  operations compute from them, a region takes its arrays to what its blocks' write-backs leave and keeps every
  other buffer. Every weakly fair execution terminates, nothing faulting, in a state where every unscoped buffer
  holds the last boundary's contents; read at the result buffer this names the result, and read at the arguments
  it says they are unchanged.
-/
import proofs.«131320_j68771016343679_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting, with the result buffer at the last
    boundary's contents and every argument array as launched. -/
theorem run_named : θ_run defs (onTc (τ := τ) (main (F := F))) ⟨m, fun _ => 0, ρ⟩ (fun r => ∀ c : Dev nD,
      r.2.mem ((c.tc : Thread nD τ).loc main_v66) = W13 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v66 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c)⟩)

end Cert.KernelIdeal.Named

end
-- ==== Proof.KFold.lean ====
/-
  Buffers carried unchanged through the tiled program's run.

  The run's boundary contents are a fold: a host stretch changes only the buffers its operations write, a region
  changes only its output arrays. So an argument array holds its launch contents at every boundary, and an
  intermediate result, once written, holds its value until the end: here, for each buffer a later segment reads,
  the chain of boundaries it crosses.
-/
import proofs.«131320_j68771016343679_1_alg».proof.Proof.KRun
import Idealize.ShloMosaic.Lib.StableHlo.Run

set_option maxRecDepth 16384

noncomputable section

namespace Cert.KernelIdeal.Named

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- A buffer that no operation of a host stretch writes holds after the stretch what it held before. -/
macro "unwritten" : tactic => `(tactic| (
  refine StableHlo.after_of_forall_not_mem _ _ (List.forall_iff_forall_mem.mp ?_)
  simp only [hostOps0, hostOps0_1, hostOps0_2, hostOps1, hostOps3, hostOps4, hostOps5, List.flatten_cons, List.flatten_nil,
    List.append_nil, List.cons_append, List.nil_append, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

theorem W1_arg0 (c : Dev nD) : W1 m ρ c (Proc.devRef .tc main_arg0) = W0 m ρ c (Proc.devRef .tc main_arg0) := by unwritten
theorem W2_arg0 (c : Dev nD) : W2 m ρ c (Proc.devRef .tc main_arg0) = W1 m ρ c (Proc.devRef .tc main_arg0) := by unwritten
theorem W3_arg0 (c : Dev nD) : W3 m ρ c (Proc.devRef .tc main_arg0) = W2 m ρ c (Proc.devRef .tc main_arg0) := by unwritten
theorem W1_arg0_from0 (c : Dev nD) : W1 m ρ c (Proc.devRef .tc main_arg0) = m ((c.tc : Thread nD τ).loc main_arg0) :=
  (W1_arg0 m ρ c).trans rfl
theorem W2_arg0_from0 (c : Dev nD) : W2 m ρ c (Proc.devRef .tc main_arg0) = m ((c.tc : Thread nD τ).loc main_arg0) :=
  (W2_arg0 m ρ c).trans (W1_arg0_from0 m ρ c)
theorem W3_arg0_from0 (c : Dev nD) : W3 m ρ c (Proc.devRef .tc main_arg0) = m ((c.tc : Thread nD τ).loc main_arg0) :=
  (W3_arg0 m ρ c).trans (W2_arg0_from0 m ρ c)
theorem W1_arg2 (c : Dev nD) : W1 m ρ c (Proc.devRef .tc main_arg2) = W0 m ρ c (Proc.devRef .tc main_arg2) := by unwritten
theorem W2_arg2 (c : Dev nD) : W2 m ρ c (Proc.devRef .tc main_arg2) = W1 m ρ c (Proc.devRef .tc main_arg2) := by unwritten
theorem W3_arg2 (c : Dev nD) : W3 m ρ c (Proc.devRef .tc main_arg2) = W2 m ρ c (Proc.devRef .tc main_arg2) := by unwritten
theorem W1_arg2_from0 (c : Dev nD) : W1 m ρ c (Proc.devRef .tc main_arg2) = m ((c.tc : Thread nD τ).loc main_arg2) :=
  (W1_arg2 m ρ c).trans rfl
theorem W2_arg2_from0 (c : Dev nD) : W2 m ρ c (Proc.devRef .tc main_arg2) = m ((c.tc : Thread nD τ).loc main_arg2) :=
  (W2_arg2 m ρ c).trans (W1_arg2_from0 m ρ c)
theorem W3_arg2_from0 (c : Dev nD) : W3 m ρ c (Proc.devRef .tc main_arg2) = m ((c.tc : Thread nD τ).loc main_arg2) :=
  (W3_arg2 m ρ c).trans (W2_arg2_from0 m ρ c)
theorem W1_arg3 (c : Dev nD) : W1 m ρ c (Proc.devRef .tc main_arg3) = W0 m ρ c (Proc.devRef .tc main_arg3) := by unwritten
theorem W2_arg3 (c : Dev nD) : W2 m ρ c (Proc.devRef .tc main_arg3) = W1 m ρ c (Proc.devRef .tc main_arg3) := by unwritten
theorem W3_arg3 (c : Dev nD) : W3 m ρ c (Proc.devRef .tc main_arg3) = W2 m ρ c (Proc.devRef .tc main_arg3) := by unwritten
theorem W4_arg3 (c : Dev nD) : W4 m ρ c (Proc.devRef .tc main_arg3) = W3 m ρ c (Proc.devRef .tc main_arg3) :=
  W4_of_ne m ρ c main_arg3 (by decide)
theorem W1_arg3_from0 (c : Dev nD) : W1 m ρ c (Proc.devRef .tc main_arg3) = m ((c.tc : Thread nD τ).loc main_arg3) :=
  (W1_arg3 m ρ c).trans rfl
theorem W2_arg3_from0 (c : Dev nD) : W2 m ρ c (Proc.devRef .tc main_arg3) = m ((c.tc : Thread nD τ).loc main_arg3) :=
  (W2_arg3 m ρ c).trans (W1_arg3_from0 m ρ c)
theorem W3_arg3_from0 (c : Dev nD) : W3 m ρ c (Proc.devRef .tc main_arg3) = m ((c.tc : Thread nD τ).loc main_arg3) :=
  (W3_arg3 m ρ c).trans (W2_arg3_from0 m ρ c)
theorem W4_arg3_from0 (c : Dev nD) : W4 m ρ c (Proc.devRef .tc main_arg3) = m ((c.tc : Thread nD τ).loc main_arg3) :=
  (W4_arg3 m ρ c).trans (W3_arg3_from0 m ρ c)
theorem W1_arg4 (c : Dev nD) : W1 m ρ c (Proc.devRef .tc main_arg4) = W0 m ρ c (Proc.devRef .tc main_arg4) := by unwritten
theorem W2_arg4 (c : Dev nD) : W2 m ρ c (Proc.devRef .tc main_arg4) = W1 m ρ c (Proc.devRef .tc main_arg4) := by unwritten
theorem W3_arg4 (c : Dev nD) : W3 m ρ c (Proc.devRef .tc main_arg4) = W2 m ρ c (Proc.devRef .tc main_arg4) := by unwritten
theorem W4_arg4 (c : Dev nD) : W4 m ρ c (Proc.devRef .tc main_arg4) = W3 m ρ c (Proc.devRef .tc main_arg4) :=
  W4_of_ne m ρ c main_arg4 (by decide)
theorem W5_arg4 (c : Dev nD) : W5 m ρ c (Proc.devRef .tc main_arg4) = W4 m ρ c (Proc.devRef .tc main_arg4) := by unwritten
theorem W6_arg4 (c : Dev nD) : W6 m ρ c (Proc.devRef .tc main_arg4) = W5 m ρ c (Proc.devRef .tc main_arg4) :=
  W6_of_ne m ρ c main_arg4 (by decide)
theorem W1_arg4_from0 (c : Dev nD) : W1 m ρ c (Proc.devRef .tc main_arg4) = m ((c.tc : Thread nD τ).loc main_arg4) :=
  (W1_arg4 m ρ c).trans rfl
theorem W2_arg4_from0 (c : Dev nD) : W2 m ρ c (Proc.devRef .tc main_arg4) = m ((c.tc : Thread nD τ).loc main_arg4) :=
  (W2_arg4 m ρ c).trans (W1_arg4_from0 m ρ c)
theorem W3_arg4_from0 (c : Dev nD) : W3 m ρ c (Proc.devRef .tc main_arg4) = m ((c.tc : Thread nD τ).loc main_arg4) :=
  (W3_arg4 m ρ c).trans (W2_arg4_from0 m ρ c)
theorem W4_arg4_from0 (c : Dev nD) : W4 m ρ c (Proc.devRef .tc main_arg4) = m ((c.tc : Thread nD τ).loc main_arg4) :=
  (W4_arg4 m ρ c).trans (W3_arg4_from0 m ρ c)
theorem W5_arg4_from0 (c : Dev nD) : W5 m ρ c (Proc.devRef .tc main_arg4) = m ((c.tc : Thread nD τ).loc main_arg4) :=
  (W5_arg4 m ρ c).trans (W4_arg4_from0 m ρ c)
theorem W6_arg4_from0 (c : Dev nD) : W6 m ρ c (Proc.devRef .tc main_arg4) = m ((c.tc : Thread nD τ).loc main_arg4) :=
  (W6_arg4 m ρ c).trans (W5_arg4_from0 m ρ c)
theorem W1_arg5 (c : Dev nD) : W1 m ρ c (Proc.devRef .tc main_arg5) = W0 m ρ c (Proc.devRef .tc main_arg5) := by unwritten
theorem W2_arg5 (c : Dev nD) : W2 m ρ c (Proc.devRef .tc main_arg5) = W1 m ρ c (Proc.devRef .tc main_arg5) := by unwritten
theorem W3_arg5 (c : Dev nD) : W3 m ρ c (Proc.devRef .tc main_arg5) = W2 m ρ c (Proc.devRef .tc main_arg5) := by unwritten
theorem W4_arg5 (c : Dev nD) : W4 m ρ c (Proc.devRef .tc main_arg5) = W3 m ρ c (Proc.devRef .tc main_arg5) :=
  W4_of_ne m ρ c main_arg5 (by decide)
theorem W5_arg5 (c : Dev nD) : W5 m ρ c (Proc.devRef .tc main_arg5) = W4 m ρ c (Proc.devRef .tc main_arg5) := by unwritten
theorem W6_arg5 (c : Dev nD) : W6 m ρ c (Proc.devRef .tc main_arg5) = W5 m ρ c (Proc.devRef .tc main_arg5) :=
  W6_of_ne m ρ c main_arg5 (by decide)
theorem W7_arg5 (c : Dev nD) : W7 m ρ c (Proc.devRef .tc main_arg5) = W6 m ρ c (Proc.devRef .tc main_arg5) :=
  W7_of_ne m ρ c main_arg5 (by decide)
theorem W1_arg5_from0 (c : Dev nD) : W1 m ρ c (Proc.devRef .tc main_arg5) = m ((c.tc : Thread nD τ).loc main_arg5) :=
  (W1_arg5 m ρ c).trans rfl
theorem W2_arg5_from0 (c : Dev nD) : W2 m ρ c (Proc.devRef .tc main_arg5) = m ((c.tc : Thread nD τ).loc main_arg5) :=
  (W2_arg5 m ρ c).trans (W1_arg5_from0 m ρ c)
theorem W3_arg5_from0 (c : Dev nD) : W3 m ρ c (Proc.devRef .tc main_arg5) = m ((c.tc : Thread nD τ).loc main_arg5) :=
  (W3_arg5 m ρ c).trans (W2_arg5_from0 m ρ c)
theorem W4_arg5_from0 (c : Dev nD) : W4 m ρ c (Proc.devRef .tc main_arg5) = m ((c.tc : Thread nD τ).loc main_arg5) :=
  (W4_arg5 m ρ c).trans (W3_arg5_from0 m ρ c)
theorem W5_arg5_from0 (c : Dev nD) : W5 m ρ c (Proc.devRef .tc main_arg5) = m ((c.tc : Thread nD τ).loc main_arg5) :=
  (W5_arg5 m ρ c).trans (W4_arg5_from0 m ρ c)
theorem W6_arg5_from0 (c : Dev nD) : W6 m ρ c (Proc.devRef .tc main_arg5) = m ((c.tc : Thread nD τ).loc main_arg5) :=
  (W6_arg5 m ρ c).trans (W5_arg5_from0 m ρ c)
theorem W7_arg5_from0 (c : Dev nD) : W7 m ρ c (Proc.devRef .tc main_arg5) = m ((c.tc : Thread nD τ).loc main_arg5) :=
  (W7_arg5 m ρ c).trans (W6_arg5_from0 m ρ c)
theorem W1_arg6 (c : Dev nD) : W1 m ρ c (Proc.devRef .tc main_arg6) = W0 m ρ c (Proc.devRef .tc main_arg6) := by unwritten
theorem W2_arg6 (c : Dev nD) : W2 m ρ c (Proc.devRef .tc main_arg6) = W1 m ρ c (Proc.devRef .tc main_arg6) := by unwritten
theorem W3_arg6 (c : Dev nD) : W3 m ρ c (Proc.devRef .tc main_arg6) = W2 m ρ c (Proc.devRef .tc main_arg6) := by unwritten
theorem W4_arg6 (c : Dev nD) : W4 m ρ c (Proc.devRef .tc main_arg6) = W3 m ρ c (Proc.devRef .tc main_arg6) :=
  W4_of_ne m ρ c main_arg6 (by decide)
theorem W5_arg6 (c : Dev nD) : W5 m ρ c (Proc.devRef .tc main_arg6) = W4 m ρ c (Proc.devRef .tc main_arg6) := by unwritten
theorem W6_arg6 (c : Dev nD) : W6 m ρ c (Proc.devRef .tc main_arg6) = W5 m ρ c (Proc.devRef .tc main_arg6) :=
  W6_of_ne m ρ c main_arg6 (by decide)
theorem W7_arg6 (c : Dev nD) : W7 m ρ c (Proc.devRef .tc main_arg6) = W6 m ρ c (Proc.devRef .tc main_arg6) :=
  W7_of_ne m ρ c main_arg6 (by decide)
theorem W8_arg6 (c : Dev nD) : W8 m ρ c (Proc.devRef .tc main_arg6) = W7 m ρ c (Proc.devRef .tc main_arg6) := by unwritten
theorem W9_arg6 (c : Dev nD) : W9 m ρ c (Proc.devRef .tc main_arg6) = W8 m ρ c (Proc.devRef .tc main_arg6) :=
  W9_of_ne m ρ c main_arg6 (by decide)
theorem W10_arg6 (c : Dev nD) : W10 m ρ c (Proc.devRef .tc main_arg6) = W9 m ρ c (Proc.devRef .tc main_arg6) := by unwritten
theorem W1_arg6_from0 (c : Dev nD) : W1 m ρ c (Proc.devRef .tc main_arg6) = m ((c.tc : Thread nD τ).loc main_arg6) :=
  (W1_arg6 m ρ c).trans rfl
theorem W2_arg6_from0 (c : Dev nD) : W2 m ρ c (Proc.devRef .tc main_arg6) = m ((c.tc : Thread nD τ).loc main_arg6) :=
  (W2_arg6 m ρ c).trans (W1_arg6_from0 m ρ c)
theorem W3_arg6_from0 (c : Dev nD) : W3 m ρ c (Proc.devRef .tc main_arg6) = m ((c.tc : Thread nD τ).loc main_arg6) :=
  (W3_arg6 m ρ c).trans (W2_arg6_from0 m ρ c)
theorem W4_arg6_from0 (c : Dev nD) : W4 m ρ c (Proc.devRef .tc main_arg6) = m ((c.tc : Thread nD τ).loc main_arg6) :=
  (W4_arg6 m ρ c).trans (W3_arg6_from0 m ρ c)
theorem W5_arg6_from0 (c : Dev nD) : W5 m ρ c (Proc.devRef .tc main_arg6) = m ((c.tc : Thread nD τ).loc main_arg6) :=
  (W5_arg6 m ρ c).trans (W4_arg6_from0 m ρ c)
theorem W6_arg6_from0 (c : Dev nD) : W6 m ρ c (Proc.devRef .tc main_arg6) = m ((c.tc : Thread nD τ).loc main_arg6) :=
  (W6_arg6 m ρ c).trans (W5_arg6_from0 m ρ c)
theorem W7_arg6_from0 (c : Dev nD) : W7 m ρ c (Proc.devRef .tc main_arg6) = m ((c.tc : Thread nD τ).loc main_arg6) :=
  (W7_arg6 m ρ c).trans (W6_arg6_from0 m ρ c)
theorem W8_arg6_from0 (c : Dev nD) : W8 m ρ c (Proc.devRef .tc main_arg6) = m ((c.tc : Thread nD τ).loc main_arg6) :=
  (W8_arg6 m ρ c).trans (W7_arg6_from0 m ρ c)
theorem W9_arg6_from0 (c : Dev nD) : W9 m ρ c (Proc.devRef .tc main_arg6) = m ((c.tc : Thread nD τ).loc main_arg6) :=
  (W9_arg6 m ρ c).trans (W8_arg6_from0 m ρ c)
theorem W10_arg6_from0 (c : Dev nD) : W10 m ρ c (Proc.devRef .tc main_arg6) = m ((c.tc : Thread nD τ).loc main_arg6) :=
  (W10_arg6 m ρ c).trans (W9_arg6_from0 m ρ c)
theorem W1_arg7 (c : Dev nD) : W1 m ρ c (Proc.devRef .tc main_arg7) = W0 m ρ c (Proc.devRef .tc main_arg7) := by unwritten
theorem W2_arg7 (c : Dev nD) : W2 m ρ c (Proc.devRef .tc main_arg7) = W1 m ρ c (Proc.devRef .tc main_arg7) := by unwritten
theorem W3_arg7 (c : Dev nD) : W3 m ρ c (Proc.devRef .tc main_arg7) = W2 m ρ c (Proc.devRef .tc main_arg7) := by unwritten
theorem W4_arg7 (c : Dev nD) : W4 m ρ c (Proc.devRef .tc main_arg7) = W3 m ρ c (Proc.devRef .tc main_arg7) :=
  W4_of_ne m ρ c main_arg7 (by decide)
theorem W5_arg7 (c : Dev nD) : W5 m ρ c (Proc.devRef .tc main_arg7) = W4 m ρ c (Proc.devRef .tc main_arg7) := by unwritten
theorem W6_arg7 (c : Dev nD) : W6 m ρ c (Proc.devRef .tc main_arg7) = W5 m ρ c (Proc.devRef .tc main_arg7) :=
  W6_of_ne m ρ c main_arg7 (by decide)
theorem W7_arg7 (c : Dev nD) : W7 m ρ c (Proc.devRef .tc main_arg7) = W6 m ρ c (Proc.devRef .tc main_arg7) :=
  W7_of_ne m ρ c main_arg7 (by decide)
theorem W8_arg7 (c : Dev nD) : W8 m ρ c (Proc.devRef .tc main_arg7) = W7 m ρ c (Proc.devRef .tc main_arg7) := by unwritten
theorem W9_arg7 (c : Dev nD) : W9 m ρ c (Proc.devRef .tc main_arg7) = W8 m ρ c (Proc.devRef .tc main_arg7) :=
  W9_of_ne m ρ c main_arg7 (by decide)
theorem W1_arg7_from0 (c : Dev nD) : W1 m ρ c (Proc.devRef .tc main_arg7) = m ((c.tc : Thread nD τ).loc main_arg7) :=
  (W1_arg7 m ρ c).trans rfl
theorem W2_arg7_from0 (c : Dev nD) : W2 m ρ c (Proc.devRef .tc main_arg7) = m ((c.tc : Thread nD τ).loc main_arg7) :=
  (W2_arg7 m ρ c).trans (W1_arg7_from0 m ρ c)
theorem W3_arg7_from0 (c : Dev nD) : W3 m ρ c (Proc.devRef .tc main_arg7) = m ((c.tc : Thread nD τ).loc main_arg7) :=
  (W3_arg7 m ρ c).trans (W2_arg7_from0 m ρ c)
theorem W4_arg7_from0 (c : Dev nD) : W4 m ρ c (Proc.devRef .tc main_arg7) = m ((c.tc : Thread nD τ).loc main_arg7) :=
  (W4_arg7 m ρ c).trans (W3_arg7_from0 m ρ c)
theorem W5_arg7_from0 (c : Dev nD) : W5 m ρ c (Proc.devRef .tc main_arg7) = m ((c.tc : Thread nD τ).loc main_arg7) :=
  (W5_arg7 m ρ c).trans (W4_arg7_from0 m ρ c)
theorem W6_arg7_from0 (c : Dev nD) : W6 m ρ c (Proc.devRef .tc main_arg7) = m ((c.tc : Thread nD τ).loc main_arg7) :=
  (W6_arg7 m ρ c).trans (W5_arg7_from0 m ρ c)
theorem W7_arg7_from0 (c : Dev nD) : W7 m ρ c (Proc.devRef .tc main_arg7) = m ((c.tc : Thread nD τ).loc main_arg7) :=
  (W7_arg7 m ρ c).trans (W6_arg7_from0 m ρ c)
theorem W8_arg7_from0 (c : Dev nD) : W8 m ρ c (Proc.devRef .tc main_arg7) = m ((c.tc : Thread nD τ).loc main_arg7) :=
  (W8_arg7 m ρ c).trans (W7_arg7_from0 m ρ c)
theorem W9_arg7_from0 (c : Dev nD) : W9 m ρ c (Proc.devRef .tc main_arg7) = m ((c.tc : Thread nD τ).loc main_arg7) :=
  (W9_arg7 m ρ c).trans (W8_arg7_from0 m ρ c)
theorem W1_arg8 (c : Dev nD) : W1 m ρ c (Proc.devRef .tc main_arg8) = W0 m ρ c (Proc.devRef .tc main_arg8) := by unwritten
theorem W2_arg8 (c : Dev nD) : W2 m ρ c (Proc.devRef .tc main_arg8) = W1 m ρ c (Proc.devRef .tc main_arg8) := by unwritten
theorem W3_arg8 (c : Dev nD) : W3 m ρ c (Proc.devRef .tc main_arg8) = W2 m ρ c (Proc.devRef .tc main_arg8) := by unwritten
theorem W4_arg8 (c : Dev nD) : W4 m ρ c (Proc.devRef .tc main_arg8) = W3 m ρ c (Proc.devRef .tc main_arg8) :=
  W4_of_ne m ρ c main_arg8 (by decide)
theorem W5_arg8 (c : Dev nD) : W5 m ρ c (Proc.devRef .tc main_arg8) = W4 m ρ c (Proc.devRef .tc main_arg8) := by unwritten
theorem W6_arg8 (c : Dev nD) : W6 m ρ c (Proc.devRef .tc main_arg8) = W5 m ρ c (Proc.devRef .tc main_arg8) :=
  W6_of_ne m ρ c main_arg8 (by decide)
theorem W7_arg8 (c : Dev nD) : W7 m ρ c (Proc.devRef .tc main_arg8) = W6 m ρ c (Proc.devRef .tc main_arg8) :=
  W7_of_ne m ρ c main_arg8 (by decide)
theorem W8_arg8 (c : Dev nD) : W8 m ρ c (Proc.devRef .tc main_arg8) = W7 m ρ c (Proc.devRef .tc main_arg8) := by unwritten
theorem W9_arg8 (c : Dev nD) : W9 m ρ c (Proc.devRef .tc main_arg8) = W8 m ρ c (Proc.devRef .tc main_arg8) :=
  W9_of_ne m ρ c main_arg8 (by decide)
theorem W10_arg8 (c : Dev nD) : W10 m ρ c (Proc.devRef .tc main_arg8) = W9 m ρ c (Proc.devRef .tc main_arg8) := by unwritten
theorem W11_arg8 (c : Dev nD) : W11 m ρ c (Proc.devRef .tc main_arg8) = W10 m ρ c (Proc.devRef .tc main_arg8) :=
  W11_of_ne m ρ c main_arg8 (by decide)
theorem W12_arg8 (c : Dev nD) : W12 m ρ c (Proc.devRef .tc main_arg8) = W11 m ρ c (Proc.devRef .tc main_arg8) := by unwritten
theorem W1_arg8_from0 (c : Dev nD) : W1 m ρ c (Proc.devRef .tc main_arg8) = m ((c.tc : Thread nD τ).loc main_arg8) :=
  (W1_arg8 m ρ c).trans rfl
theorem W2_arg8_from0 (c : Dev nD) : W2 m ρ c (Proc.devRef .tc main_arg8) = m ((c.tc : Thread nD τ).loc main_arg8) :=
  (W2_arg8 m ρ c).trans (W1_arg8_from0 m ρ c)
theorem W3_arg8_from0 (c : Dev nD) : W3 m ρ c (Proc.devRef .tc main_arg8) = m ((c.tc : Thread nD τ).loc main_arg8) :=
  (W3_arg8 m ρ c).trans (W2_arg8_from0 m ρ c)
theorem W4_arg8_from0 (c : Dev nD) : W4 m ρ c (Proc.devRef .tc main_arg8) = m ((c.tc : Thread nD τ).loc main_arg8) :=
  (W4_arg8 m ρ c).trans (W3_arg8_from0 m ρ c)
theorem W5_arg8_from0 (c : Dev nD) : W5 m ρ c (Proc.devRef .tc main_arg8) = m ((c.tc : Thread nD τ).loc main_arg8) :=
  (W5_arg8 m ρ c).trans (W4_arg8_from0 m ρ c)
theorem W6_arg8_from0 (c : Dev nD) : W6 m ρ c (Proc.devRef .tc main_arg8) = m ((c.tc : Thread nD τ).loc main_arg8) :=
  (W6_arg8 m ρ c).trans (W5_arg8_from0 m ρ c)
theorem W7_arg8_from0 (c : Dev nD) : W7 m ρ c (Proc.devRef .tc main_arg8) = m ((c.tc : Thread nD τ).loc main_arg8) :=
  (W7_arg8 m ρ c).trans (W6_arg8_from0 m ρ c)
theorem W8_arg8_from0 (c : Dev nD) : W8 m ρ c (Proc.devRef .tc main_arg8) = m ((c.tc : Thread nD τ).loc main_arg8) :=
  (W8_arg8 m ρ c).trans (W7_arg8_from0 m ρ c)
theorem W9_arg8_from0 (c : Dev nD) : W9 m ρ c (Proc.devRef .tc main_arg8) = m ((c.tc : Thread nD τ).loc main_arg8) :=
  (W9_arg8 m ρ c).trans (W8_arg8_from0 m ρ c)
theorem W10_arg8_from0 (c : Dev nD) : W10 m ρ c (Proc.devRef .tc main_arg8) = m ((c.tc : Thread nD τ).loc main_arg8) :=
  (W10_arg8 m ρ c).trans (W9_arg8_from0 m ρ c)
theorem W11_arg8_from0 (c : Dev nD) : W11 m ρ c (Proc.devRef .tc main_arg8) = m ((c.tc : Thread nD τ).loc main_arg8) :=
  (W11_arg8 m ρ c).trans (W10_arg8_from0 m ρ c)
theorem W12_arg8_from0 (c : Dev nD) : W12 m ρ c (Proc.devRef .tc main_arg8) = m ((c.tc : Thread nD τ).loc main_arg8) :=
  (W12_arg8 m ρ c).trans (W11_arg8_from0 m ρ c)
theorem W1_arg9 (c : Dev nD) : W1 m ρ c (Proc.devRef .tc main_arg9) = W0 m ρ c (Proc.devRef .tc main_arg9) := by unwritten
theorem W2_arg9 (c : Dev nD) : W2 m ρ c (Proc.devRef .tc main_arg9) = W1 m ρ c (Proc.devRef .tc main_arg9) := by unwritten
theorem W3_arg9 (c : Dev nD) : W3 m ρ c (Proc.devRef .tc main_arg9) = W2 m ρ c (Proc.devRef .tc main_arg9) := by unwritten
theorem W4_arg9 (c : Dev nD) : W4 m ρ c (Proc.devRef .tc main_arg9) = W3 m ρ c (Proc.devRef .tc main_arg9) :=
  W4_of_ne m ρ c main_arg9 (by decide)
theorem W5_arg9 (c : Dev nD) : W5 m ρ c (Proc.devRef .tc main_arg9) = W4 m ρ c (Proc.devRef .tc main_arg9) := by unwritten
theorem W6_arg9 (c : Dev nD) : W6 m ρ c (Proc.devRef .tc main_arg9) = W5 m ρ c (Proc.devRef .tc main_arg9) :=
  W6_of_ne m ρ c main_arg9 (by decide)
theorem W7_arg9 (c : Dev nD) : W7 m ρ c (Proc.devRef .tc main_arg9) = W6 m ρ c (Proc.devRef .tc main_arg9) :=
  W7_of_ne m ρ c main_arg9 (by decide)
theorem W8_arg9 (c : Dev nD) : W8 m ρ c (Proc.devRef .tc main_arg9) = W7 m ρ c (Proc.devRef .tc main_arg9) := by unwritten
theorem W9_arg9 (c : Dev nD) : W9 m ρ c (Proc.devRef .tc main_arg9) = W8 m ρ c (Proc.devRef .tc main_arg9) :=
  W9_of_ne m ρ c main_arg9 (by decide)
theorem W10_arg9 (c : Dev nD) : W10 m ρ c (Proc.devRef .tc main_arg9) = W9 m ρ c (Proc.devRef .tc main_arg9) := by unwritten
theorem W11_arg9 (c : Dev nD) : W11 m ρ c (Proc.devRef .tc main_arg9) = W10 m ρ c (Proc.devRef .tc main_arg9) :=
  W11_of_ne m ρ c main_arg9 (by decide)
theorem W1_arg9_from0 (c : Dev nD) : W1 m ρ c (Proc.devRef .tc main_arg9) = m ((c.tc : Thread nD τ).loc main_arg9) :=
  (W1_arg9 m ρ c).trans rfl
theorem W2_arg9_from0 (c : Dev nD) : W2 m ρ c (Proc.devRef .tc main_arg9) = m ((c.tc : Thread nD τ).loc main_arg9) :=
  (W2_arg9 m ρ c).trans (W1_arg9_from0 m ρ c)
theorem W3_arg9_from0 (c : Dev nD) : W3 m ρ c (Proc.devRef .tc main_arg9) = m ((c.tc : Thread nD τ).loc main_arg9) :=
  (W3_arg9 m ρ c).trans (W2_arg9_from0 m ρ c)
theorem W4_arg9_from0 (c : Dev nD) : W4 m ρ c (Proc.devRef .tc main_arg9) = m ((c.tc : Thread nD τ).loc main_arg9) :=
  (W4_arg9 m ρ c).trans (W3_arg9_from0 m ρ c)
theorem W5_arg9_from0 (c : Dev nD) : W5 m ρ c (Proc.devRef .tc main_arg9) = m ((c.tc : Thread nD τ).loc main_arg9) :=
  (W5_arg9 m ρ c).trans (W4_arg9_from0 m ρ c)
theorem W6_arg9_from0 (c : Dev nD) : W6 m ρ c (Proc.devRef .tc main_arg9) = m ((c.tc : Thread nD τ).loc main_arg9) :=
  (W6_arg9 m ρ c).trans (W5_arg9_from0 m ρ c)
theorem W7_arg9_from0 (c : Dev nD) : W7 m ρ c (Proc.devRef .tc main_arg9) = m ((c.tc : Thread nD τ).loc main_arg9) :=
  (W7_arg9 m ρ c).trans (W6_arg9_from0 m ρ c)
theorem W8_arg9_from0 (c : Dev nD) : W8 m ρ c (Proc.devRef .tc main_arg9) = m ((c.tc : Thread nD τ).loc main_arg9) :=
  (W8_arg9 m ρ c).trans (W7_arg9_from0 m ρ c)
theorem W9_arg9_from0 (c : Dev nD) : W9 m ρ c (Proc.devRef .tc main_arg9) = m ((c.tc : Thread nD τ).loc main_arg9) :=
  (W9_arg9 m ρ c).trans (W8_arg9_from0 m ρ c)
theorem W10_arg9_from0 (c : Dev nD) : W10 m ρ c (Proc.devRef .tc main_arg9) = m ((c.tc : Thread nD τ).loc main_arg9) :=
  (W10_arg9 m ρ c).trans (W9_arg9_from0 m ρ c)
theorem W11_arg9_from0 (c : Dev nD) : W11 m ρ c (Proc.devRef .tc main_arg9) = m ((c.tc : Thread nD τ).loc main_arg9) :=
  (W11_arg9 m ρ c).trans (W10_arg9_from0 m ρ c)
theorem W2_v5 (c : Dev nD) : W2 m ρ c (Proc.devRef .tc main_v5) = W1 m ρ c (Proc.devRef .tc main_v5) := by unwritten
theorem W3_v5 (c : Dev nD) : W3 m ρ c (Proc.devRef .tc main_v5) = W2 m ρ c (Proc.devRef .tc main_v5) := by unwritten
theorem W4_v5 (c : Dev nD) : W4 m ρ c (Proc.devRef .tc main_v5) = W3 m ρ c (Proc.devRef .tc main_v5) :=
  W4_of_ne m ρ c main_v5 (by decide)
theorem W5_v5 (c : Dev nD) : W5 m ρ c (Proc.devRef .tc main_v5) = W4 m ρ c (Proc.devRef .tc main_v5) := by unwritten
theorem W6_v5 (c : Dev nD) : W6 m ρ c (Proc.devRef .tc main_v5) = W5 m ρ c (Proc.devRef .tc main_v5) :=
  W6_of_ne m ρ c main_v5 (by decide)
theorem W7_v5 (c : Dev nD) : W7 m ρ c (Proc.devRef .tc main_v5) = W6 m ρ c (Proc.devRef .tc main_v5) :=
  W7_of_ne m ρ c main_v5 (by decide)
theorem W2_v5_from1 (c : Dev nD) : W2 m ρ c (Proc.devRef .tc main_v5) = W1 m ρ c (Proc.devRef .tc main_v5) :=
  W2_v5 m ρ c
theorem W3_v5_from1 (c : Dev nD) : W3 m ρ c (Proc.devRef .tc main_v5) = W1 m ρ c (Proc.devRef .tc main_v5) :=
  (W3_v5 m ρ c).trans (W2_v5_from1 m ρ c)
theorem W4_v5_from1 (c : Dev nD) : W4 m ρ c (Proc.devRef .tc main_v5) = W1 m ρ c (Proc.devRef .tc main_v5) :=
  (W4_v5 m ρ c).trans (W3_v5_from1 m ρ c)
theorem W5_v5_from1 (c : Dev nD) : W5 m ρ c (Proc.devRef .tc main_v5) = W1 m ρ c (Proc.devRef .tc main_v5) :=
  (W5_v5 m ρ c).trans (W4_v5_from1 m ρ c)
theorem W6_v5_from1 (c : Dev nD) : W6 m ρ c (Proc.devRef .tc main_v5) = W1 m ρ c (Proc.devRef .tc main_v5) :=
  (W6_v5 m ρ c).trans (W5_v5_from1 m ρ c)
theorem W7_v5_from1 (c : Dev nD) : W7 m ρ c (Proc.devRef .tc main_v5) = W1 m ρ c (Proc.devRef .tc main_v5) :=
  (W7_v5 m ρ c).trans (W6_v5_from1 m ρ c)
theorem W2_v6 (c : Dev nD) : W2 m ρ c (Proc.devRef .tc main_v6) = W1 m ρ c (Proc.devRef .tc main_v6) := by unwritten
theorem W3_v6 (c : Dev nD) : W3 m ρ c (Proc.devRef .tc main_v6) = W2 m ρ c (Proc.devRef .tc main_v6) := by unwritten
theorem W4_v6 (c : Dev nD) : W4 m ρ c (Proc.devRef .tc main_v6) = W3 m ρ c (Proc.devRef .tc main_v6) :=
  W4_of_ne m ρ c main_v6 (by decide)
theorem W5_v6 (c : Dev nD) : W5 m ρ c (Proc.devRef .tc main_v6) = W4 m ρ c (Proc.devRef .tc main_v6) := by unwritten
theorem W6_v6 (c : Dev nD) : W6 m ρ c (Proc.devRef .tc main_v6) = W5 m ρ c (Proc.devRef .tc main_v6) :=
  W6_of_ne m ρ c main_v6 (by decide)
theorem W7_v6 (c : Dev nD) : W7 m ρ c (Proc.devRef .tc main_v6) = W6 m ρ c (Proc.devRef .tc main_v6) :=
  W7_of_ne m ρ c main_v6 (by decide)
theorem W2_v6_from1 (c : Dev nD) : W2 m ρ c (Proc.devRef .tc main_v6) = W1 m ρ c (Proc.devRef .tc main_v6) :=
  W2_v6 m ρ c
theorem W3_v6_from1 (c : Dev nD) : W3 m ρ c (Proc.devRef .tc main_v6) = W1 m ρ c (Proc.devRef .tc main_v6) :=
  (W3_v6 m ρ c).trans (W2_v6_from1 m ρ c)
theorem W4_v6_from1 (c : Dev nD) : W4 m ρ c (Proc.devRef .tc main_v6) = W1 m ρ c (Proc.devRef .tc main_v6) :=
  (W4_v6 m ρ c).trans (W3_v6_from1 m ρ c)
theorem W5_v6_from1 (c : Dev nD) : W5 m ρ c (Proc.devRef .tc main_v6) = W1 m ρ c (Proc.devRef .tc main_v6) :=
  (W5_v6 m ρ c).trans (W4_v6_from1 m ρ c)
theorem W6_v6_from1 (c : Dev nD) : W6 m ρ c (Proc.devRef .tc main_v6) = W1 m ρ c (Proc.devRef .tc main_v6) :=
  (W6_v6 m ρ c).trans (W5_v6_from1 m ρ c)
theorem W7_v6_from1 (c : Dev nD) : W7 m ρ c (Proc.devRef .tc main_v6) = W1 m ρ c (Proc.devRef .tc main_v6) :=
  (W7_v6 m ρ c).trans (W6_v6_from1 m ρ c)
theorem W4_v30 (c : Dev nD) : W4 m ρ c (Proc.devRef .tc main_v30) = W3 m ρ c (Proc.devRef .tc main_v30) :=
  W4_of_ne m ρ c main_v30 (by decide)
theorem W5_v30 (c : Dev nD) : W5 m ρ c (Proc.devRef .tc main_v30) = W4 m ρ c (Proc.devRef .tc main_v30) := by unwritten
theorem W6_v30 (c : Dev nD) : W6 m ρ c (Proc.devRef .tc main_v30) = W5 m ρ c (Proc.devRef .tc main_v30) :=
  W6_of_ne m ρ c main_v30 (by decide)
theorem W7_v30 (c : Dev nD) : W7 m ρ c (Proc.devRef .tc main_v30) = W6 m ρ c (Proc.devRef .tc main_v30) :=
  W7_of_ne m ρ c main_v30 (by decide)
theorem W4_v30_from3 (c : Dev nD) : W4 m ρ c (Proc.devRef .tc main_v30) = W3 m ρ c (Proc.devRef .tc main_v30) :=
  W4_v30 m ρ c
theorem W5_v30_from3 (c : Dev nD) : W5 m ρ c (Proc.devRef .tc main_v30) = W3 m ρ c (Proc.devRef .tc main_v30) :=
  (W5_v30 m ρ c).trans (W4_v30_from3 m ρ c)
theorem W6_v30_from3 (c : Dev nD) : W6 m ρ c (Proc.devRef .tc main_v30) = W3 m ρ c (Proc.devRef .tc main_v30) :=
  (W6_v30 m ρ c).trans (W5_v30_from3 m ρ c)
theorem W7_v30_from3 (c : Dev nD) : W7 m ρ c (Proc.devRef .tc main_v30) = W3 m ρ c (Proc.devRef .tc main_v30) :=
  (W7_v30 m ρ c).trans (W6_v30_from3 m ρ c)
theorem W7_v46 (c : Dev nD) : W7 m ρ c (Proc.devRef .tc main_v46) = W6 m ρ c (Proc.devRef .tc main_v46) :=
  (W7_arr m ρ c 0).trans (((dat2 (V6 m ρ) c).arrAt_in 0 rfl _).trans (A_eq2 (V6 m ρ) c 0))
theorem W8_v46 (c : Dev nD) : W8 m ρ c (Proc.devRef .tc main_v46) = W7 m ρ c (Proc.devRef .tc main_v46) := by unwritten
theorem W7_v46_from6 (c : Dev nD) : W7 m ρ c (Proc.devRef .tc main_v46) = W6 m ρ c (Proc.devRef .tc main_v46) :=
  W7_v46 m ρ c
theorem W8_v46_from6 (c : Dev nD) : W8 m ρ c (Proc.devRef .tc main_v46) = W6 m ρ c (Proc.devRef .tc main_v46) :=
  (W8_v46 m ρ c).trans (W7_v46_from6 m ρ c)
theorem W10_v62 (c : Dev nD) : W10 m ρ c (Proc.devRef .tc main_v62) = W9 m ρ c (Proc.devRef .tc main_v62) := by unwritten
theorem W11_v62 (c : Dev nD) : W11 m ρ c (Proc.devRef .tc main_v62) = W10 m ρ c (Proc.devRef .tc main_v62) :=
  (W11_arr m ρ c 0).trans (((dat4 (V10 m ρ) c).arrAt_in 0 rfl _).trans (A_eq4 (V10 m ρ) c 0))
theorem W12_v62 (c : Dev nD) : W12 m ρ c (Proc.devRef .tc main_v62) = W11 m ρ c (Proc.devRef .tc main_v62) := by unwritten
theorem W10_v62_from9 (c : Dev nD) : W10 m ρ c (Proc.devRef .tc main_v62) = W9 m ρ c (Proc.devRef .tc main_v62) :=
  W10_v62 m ρ c
theorem W11_v62_from9 (c : Dev nD) : W11 m ρ c (Proc.devRef .tc main_v62) = W9 m ρ c (Proc.devRef .tc main_v62) :=
  (W11_v62 m ρ c).trans (W10_v62_from9 m ρ c)
theorem W12_v62_from9 (c : Dev nD) : W12 m ρ c (Proc.devRef .tc main_v62) = W9 m ρ c (Proc.devRef .tc main_v62) :=
  (W12_v62 m ρ c).trans (W11_v62_from9 m ρ c)
theorem W12_v64 (c : Dev nD) : W12 m ρ c (Proc.devRef .tc main_v64) = W11 m ρ c (Proc.devRef .tc main_v64) := by unwritten
theorem W12_v64_from11 (c : Dev nD) : W12 m ρ c (Proc.devRef .tc main_v64) = W11 m ρ c (Proc.devRef .tc main_v64) :=
  W12_v64 m ρ c

end Cert.KernelIdeal.Named

end
-- ==== Proof.KGlue.lean ====
/-
  The host operations between the tiled stages, as named whole-array functions.

  From the edge list (two rows of 1200000 node numbers) the program forms the source and destination of every edge
  with one self loop per node appended (1300000 entries each); the degree of a node is the number of edges arriving
  at it; an edge's weight is the product of the inverse square roots of its two ends' degrees (zero where a degree is
  not positive). One aggregation gathers the rows of a node matrix at the edges' sources, scales row e by the weight
  of edge e, and adds row e into the row of edge e's destination, starting from zeros. A negative node number counts
  from the end (100000 is added to it) before a row is gathered. A bias vector of 64 entries is laid out as one row.
-/
import proofs.«131320_j68771016343679_1_alg».proof.KernelIdeal
import proofs.«131320_j68771016343679_1_alg».proof.Proof.Gen.KernelIdeal

noncomputable section

namespace Cert.KernelIdeal.Glue

open Cert.KernelIdeal Cert.KernelIdeal.Facts₀ Idealize.ShloMosaic

variable {F : FTy → Type} [FloatOps F]

/-- Row 0 of the edge list, with the nodes' own numbers appended: the source of every edge and self loop. -/
def src (ei : (⟨S2x1200000, .i32⟩ : BufTy).Contents (Elt F)) : (⟨S1300000, .i32⟩ : BufTy).Contents (Elt F) :=
  concatenate S1300000 0
    [⟨S1200000, fun i => shapeCast S1200000
        (extractStridedSlice S1x1200000 ![0, 0] ei slices_S2x1200000_S1x1200000_0_0) shapeCasts_S1x1200000_S1200000 i⟩,
      ⟨S100000, iotaInDim S100000 32 0⟩]
    concatenates_S1200000_S100000_S1300000_d0

/-- Row 1 of the edge list, with the nodes' own numbers appended: the destination of every edge and self loop. -/
def dst (ei : (⟨S2x1200000, .i32⟩ : BufTy).Contents (Elt F)) : (⟨S1300000, .i32⟩ : BufTy).Contents (Elt F) :=
  concatenate S1300000 0
    [⟨S1200000, fun i => shapeCast S1200000
        (extractStridedSlice S1x1200000 ![1, 0] ei slices_S2x1200000_S1x1200000_1_0) shapeCasts_S1x1200000_S1200000 i⟩,
      ⟨S100000, iotaInDim S100000 32 0⟩]
    concatenates_S1200000_S100000_S1300000_d0

/-- A node number read from the end when negative. -/
def wrap (i : (⟨S1300000, .i32⟩ : BufTy).Contents (Elt F)) : (⟨S1300000, .i32⟩ : BufTy).Contents (Elt F) :=
  select (cmpi .slt i (broadcastInDim S1300000 ![] bcast_S_S1300000 (constantI S_ 32 0#32)))
    (addi i (broadcastInDim S1300000 ![] bcast_S_S1300000 (constantI S_ 32 100000#32))) i

/-- The number of edges (self loop included) arriving at each node. -/
def deg (d : (⟨S1300000, .i32⟩ : BufTy).Contents (Elt F)) : (⟨S100000, .f32⟩ : BufTy).Contents (Elt F) :=
  Host.scatterAdd scatter_S100000_S1300000x1_S1300000_n_0_0_1
    (broadcastInDim S100000 ![] bcast_S_S100000 (constant S_ .f32 0x00000000#32))
    (broadcastInDim S1300000x1 ![0] bcast_S1300000_S1300000x1_0 d)
    (broadcastInDim S1300000 ![] bcast_S_S1300000 (constant S_ .f32 0x3F800000#32))

/-- The inverse square root of the degree, zero where the degree is not positive. -/
def dinv (d : (⟨S1300000, .i32⟩ : BufTy).Contents (Elt F)) : (⟨S100000, .f32⟩ : BufTy).Contents (Elt F) :=
  select (cmpf .ogt (deg d) (broadcastInDim S100000 ![] bcast_S_S100000 (constant S_ .f32 0x00000000#32)))
    (Host.rsqrt (deg d)) (broadcastInDim S100000 ![] bcast_S_S100000 (constant S_ .f32 0x00000000#32))

/-- The weight of every edge: the product of its two ends' inverse square root degrees. -/
def norm (s d : (⟨S1300000, .i32⟩ : BufTy).Contents (Elt F)) : (⟨S1300000, .f32⟩ : BufTy).Contents (Elt F) :=
  mulf
    (Host.gather gather_S100000_S1300000x1_S1300000_n_0_n_n_0_1_1 (dinv d)
      (broadcastInDim S1300000x1 ![0] bcast_S1300000_S1300000x1_0 (wrap s)))
    (Host.gather gather_S100000_S1300000x1_S1300000_n_0_n_n_0_1_1 (dinv d)
      (broadcastInDim S1300000x1 ![0] bcast_S1300000_S1300000x1_0 (wrap d)))

/-- One aggregation: the rows of h at the edges' sources, each scaled by its edge's weight, added at the edges'
    destinations into zeros. -/
def agg (s d : (⟨S1300000, .i32⟩ : BufTy).Contents (Elt F)) (n : (⟨S1300000, .f32⟩ : BufTy).Contents (Elt F))
    (h : (⟨S100000x64, .f32⟩ : BufTy).Contents (Elt F)) : (⟨S100000x64, .f32⟩ : BufTy).Contents (Elt F) :=
  Host.scatterAdd scatter_S100000x64_S1300000x1_S1300000x64_1_0_0_1
    (broadcastInDim S100000x64 ![] bcast_S_S100000x64 (constant S_ .f32 0x00000000#32))
    (broadcastInDim S1300000x1 ![0] bcast_S1300000_S1300000x1_0 d)
    (mulf
      (Host.gather gather_S100000x64_S1300000x1_S1300000x64_1_0_n_n_0_1_164 h
        (broadcastInDim S1300000x1 ![0] bcast_S1300000_S1300000x1_0 (wrap s)))
      (broadcastInDim S1300000x64 ![0, 1] bcast_S1300000x1_S1300000x64_0_1
        (broadcastInDim S1300000x1 ![0] bcast_S1300000_S1300000x1_0 n)))

/-- A bias vector as a one-row matrix. -/
def row (b : (⟨S64, .f32⟩ : BufTy).Contents (Elt F)) : (⟨S1x64, .f32⟩ : BufTy).Contents (Elt F) :=
  fun i => shapeCast S1x64 b shapeCasts_S64_S1x64 i

end Cert.KernelIdeal.Glue

end
-- ==== Proof.KHost.lean ====
/-
  What the host stretches of the tiled program compute, read at the buffers the tiled stages take in.

  Each stretch is a list of whole-array operations; the value of a buffer after the stretch is the composition of the
  operations that lead to it, applied to the contents before the stretch. Here: the edges' sources and destinations
  and their weights from the edge list; the two aggregations; the four bias vectors laid out as rows.
-/
import proofs.«131320_j68771016343679_1_alg».proof.Proof.KFold
import proofs.«131320_j68771016343679_1_alg».proof.Proof.KGlue

set_option maxRecDepth 16384

noncomputable section

namespace Cert.KernelIdeal.Named

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- Rewrites what is left of a stretch's fold after the one-pass reading: an operation's result at its own buffer is
    its function's value, at any other buffer what was there. -/
macro "results_rw" : tactic =>
  `(tactic| (repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide))))

set_option maxHeartbeats 4000000 in
/-- The edges' sources. -/
theorem W1_v5_val (c : Dev nD) :
    W1 m ρ c (Proc.devRef .tc main_v5) = Glue.src (m ((c.tc : Thread nD τ).loc main_arg1)) := by
  dsimp only [W1, hostOps0]; after_results_simp; results_rw; rfl

set_option maxHeartbeats 4000000 in
/-- The edges' destinations. -/
theorem W1_v6_val (c : Dev nD) :
    W1 m ρ c (Proc.devRef .tc main_v6) = Glue.dst (m ((c.tc : Thread nD τ).loc main_arg1)) := by
  dsimp only [W1, hostOps0]; after_results_simp; results_rw; rfl

set_option maxHeartbeats 8000000 in
/-- The edges' weights. -/
theorem W3_v30_val (c : Dev nD) :
    W3 m ρ c (Proc.devRef .tc main_v30)
      = Glue.norm (Glue.src (m ((c.tc : Thread nD τ).loc main_arg1))) (Glue.dst (m ((c.tc : Thread nD τ).loc main_arg1))) := by
  dsimp only [W3, W2, W1, hostOps0, hostOps0_1, hostOps0_2]; after_results_simp; results_rw; rfl

set_option maxHeartbeats 4000000 in
/-- The first aggregation, of the first dense layer's result. -/
theorem W5_v44_val (c : Dev nD) :
    W5 m ρ c (Proc.devRef .tc main_v44)
      = Glue.agg (W4 m ρ c (Proc.devRef .tc main_v5)) (W4 m ρ c (Proc.devRef .tc main_v6))
          (W4 m ρ c (Proc.devRef .tc main_v30)) (W4 m ρ c (Proc.devRef .tc main_v31)) := by
  dsimp only [W5, hostOps1]; after_results_simp; results_rw; rfl

set_option maxHeartbeats 4000000 in
theorem W5_v45_val (c : Dev nD) :
    W5 m ρ c (Proc.devRef .tc main_v45) = Glue.row (W4 m ρ c (Proc.devRef .tc main_arg3)) := by
  dsimp only [W5, hostOps1]; after_results_simp; results_rw; rfl

set_option maxHeartbeats 4000000 in
/-- The second aggregation, of the second dense layer's result. -/
theorem W8_v60_val (c : Dev nD) :
    W8 m ρ c (Proc.devRef .tc main_v60)
      = Glue.agg (W7 m ρ c (Proc.devRef .tc main_v5)) (W7 m ρ c (Proc.devRef .tc main_v6))
          (W7 m ρ c (Proc.devRef .tc main_v30)) (W7 m ρ c (Proc.devRef .tc main_v47)) := by
  dsimp only [W8, hostOps3]; after_results_simp; results_rw; rfl

set_option maxHeartbeats 4000000 in
theorem W8_v61_val (c : Dev nD) :
    W8 m ρ c (Proc.devRef .tc main_v61) = Glue.row (W7 m ρ c (Proc.devRef .tc main_arg5)) := by
  dsimp only [W8, hostOps3]; after_results_simp; results_rw; rfl

theorem W10_v63_val (c : Dev nD) :
    W10 m ρ c (Proc.devRef .tc main_v63) = Glue.row (W9 m ρ c (Proc.devRef .tc main_arg7)) := by
  dsimp only [W10, hostOps4]; after_results_simp; results_rw; rfl

theorem W12_v65_val (c : Dev nD) :
    W12 m ρ c (Proc.devRef .tc main_v65) = Glue.row (W11 m ρ c (Proc.devRef .tc main_arg9)) := by
  dsimp only [W12, hostOps5]; after_results_simp; results_rw; rfl

end Cert.KernelIdeal.Named

end
-- ==== Proof.Spec.lean ====
/-
  What each of the six tiled stages of the network computes, as one function of whole arrays, entry by entry, at exact
  (extended real) values.

  The network has 100000 nodes with 64 features. A dense layer takes the node matrix x and a 64 by 64 weight W to the
  matrix whose entry (p, q) is the sum over k < 64 of x[p, k] · W[k, q]. A bias is one row of 64 entries added to every
  node's row. The activation is the leaky rectifier lr: v where v ≥ 0 and 0.01 · v elsewhere, the slope being the
  single-precision pattern of 0.01. The stages are: a dense layer alone; bias then lr; bias, a residual matrix added
  after the bias, then lr; and the dense layer followed by either of the last two.
-/
import Idealize.ShloMosaic.PureOps.Ideal.Laws
import Idealize.ShloMosaic.Lib.ValueIdx

noncomputable section

namespace Cert.Gcn

open Idealize.ShloMosaic Idealize.ShloMosaic.ValueIdx

/-- The node matrix, a weight matrix, a bias laid out as one row. -/
abbrev Nodes : Shape := ⟨2, ![100000, 64]⟩
abbrev Weight : Shape := ⟨2, ![64, 64]⟩
abbrev Row : Shape := ⟨2, ![1, 64]⟩

/-- The leaky rectifier on one value: v where v ≥ 0, and 0.01 · v elsewhere (0.01 as its single-precision pattern). -/
def lr (v : EReal) : EReal :=
  Scalar.select (FloatOps.cmpf (F := Ideal) (φ := .f32) .oge v (Ideal.ofBits .f32 0x00000000#32)) v
    (Ideal.ofBits .f32 0x3C23D70A#32 * v)

/-- A dense layer: entry (p, q) is the sum over k of x[p, k] · W[k, q]. -/
def dense (x : Nodes.Idx → EReal) (W : Weight.Idx → EReal) : Nodes.Idx → EReal :=
  fun i => ∑ k : Fin 64, x (ix2 (i 0 : Fin 100000) k) * W (ix2 k (i 1 : Fin 64))

/-- Bias then activation: entry (p, q) is lr (a[p, q] + b[0, q]). -/
def biasAct (a : Nodes.Idx → EReal) (b : Row.Idx → EReal) : Nodes.Idx → EReal :=
  fun i => lr (a i + b (ix2 (0 : Fin 1) (i 1 : Fin 64)))

/-- Bias, then the residual, then activation: entry (p, q) is lr ((a[p, q] + b[0, q]) + r[p, q]). -/
def biasResidAct (a : Nodes.Idx → EReal) (b : Row.Idx → EReal) (r : Nodes.Idx → EReal) : Nodes.Idx → EReal :=
  fun i => lr ((a i + b (ix2 (0 : Fin 1) (i 1 : Fin 64))) + r i)

theorem dense_apply (x : Nodes.Idx → EReal) (W : Weight.Idx → EReal) (p : Fin 100000) (q : Fin 64) :
    dense x W (ix2 p q) = ∑ k : Fin 64, x (ix2 p k) * W (ix2 k q) := rfl

theorem biasAct_apply (a : Nodes.Idx → EReal) (b : Row.Idx → EReal) (p : Fin 100000) (q : Fin 64) :
    biasAct a b (ix2 p q) = lr (a (ix2 p q) + b (ix2 (0 : Fin 1) q)) := rfl

theorem biasResidAct_apply (a : Nodes.Idx → EReal) (b : Row.Idx → EReal) (r : Nodes.Idx → EReal) (p : Fin 100000)
    (q : Fin 64) : biasResidAct a b r (ix2 p q) = lr ((a (ix2 p q) + b (ix2 (0 : Fin 1) q)) + r (ix2 p q)) := rfl

end Cert.Gcn

end
-- ==== Proof.LibPlainContract.lean ====
/-
  A plain matrix contraction read at one entry.

  For the dimension numbers of an [M, K] by [K, N] product (contract the left operand's axis 1 with the right operand's
  axis 0, no batch axis), the sum over the contraction index that the exact matrix product takes at result entry (p, q)
  is the textbook sum over k < K of l[p, k] · r[k, q]. Stated for the sum itself, for a matrix unit's product into a
  zero accumulator, and for a host dot product, all at the exact (extended real) reading of floats.
-/
import Idealize.ShloMosaic.PureOps.Ideal.Laws
import Idealize.ShloMosaic.Lib.ValueIdx

noncomputable section

namespace Cert.LibPlainContract

open Idealize.ShloMosaic Idealize.ShloMosaic.ValueIdx

/-- The contraction index of a plain product has one axis, of extent K. -/
theorem plain_rank (M K N : Nat) : (DotDims.plain M K N).contr.rank = 1 := rfl
theorem plain_size (M K N : Nat) : (DotDims.plain M K N).contr.size ⟨0, Nat.one_pos⟩ = K := rfl

/-- At result entry (p, q) and contraction position k the left operand is read at (p, k) … -/
theorem plain_lhsIdx (M K N : Nat) (p : Fin M) (q : Fin N) (k : Fin K) :
    (DotDims.plain M K N).lhsIdx (ix2 p q) ((contrEquiv1 (DotDims.plain M K N) K rfl rfl).symm k) = ix2 p k :=
  funext fun a => Fin.ext (by
    have hk := contrEquiv1_symm_val (DotDims.plain M K N) K rfl rfl k
    match a with
    | ⟨0, _⟩ => rfl
    | ⟨1, _⟩ => exact ((DotDims.plain M K N).lhsIdx_val_of_single rfl _ _).trans hk)

/-- … and the right operand at (k, q). -/
theorem plain_rhsIdx (M K N : Nat) (p : Fin M) (q : Fin N) (k : Fin K) :
    (DotDims.plain M K N).rhsIdx (ix2 p q) ((contrEquiv1 (DotDims.plain M K N) K rfl rfl).symm k) = ix2 k q :=
  funext fun a => Fin.ext (by
    have hk := contrEquiv1_symm_val (DotDims.plain M K N) K rfl rfl k
    match a with
    | ⟨0, _⟩ => exact ((DotDims.plain M K N).rhsIdx_val_of_single rfl _ _).trans hk
    | ⟨1, _⟩ => rfl)

/-- The contraction sum at entry (p, q) is the sum over k of l[p, k] · r[k, q]. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  rw [plain_lhsIdx, plain_rhsIdx]

/-- A matrix unit's product into the zero accumulator, at entry (p, q). -/
theorem matmul_plain_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_sum M K N l r p q)

/-- A host dot product, at entry (p, q). -/
theorem dotGeneral_plain_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_sum M K N l r p q)

end Cert.LibPlainContract

end
-- ==== Proof.Stage0.lean ====
/-
  The first dense layer, as one function of whole arrays.

  The node matrix x has 100000 rows of 64 features and is cut into five blocks of 20000 rows; the weight W is one 64 by
  64 block seen whole at every grid point. At grid point t the body multiplies rows 20000·t … 20000·t + 19999 of x by
  all of W, so entry (p, q) of the block it writes back is the sum over k < 64 of x[20000·t + p, k] · W[k, q]: it depends
  on one row of x and on one column of W. The five blocks tile the result, which is therefore the dense layer of x and W.
-/
import proofs.«131320_j68771016343679_1_alg».proof.Proof.Gen.KernelIdeal.Frame
import proofs.«131320_j68771016343679_1_alg».proof.Proof.Spec
import proofs.«131320_j68771016343679_1_alg».proof.Proof.LibPlainContract
import Idealize.ShloMosaic.Lib.Pipeline.Value
import Idealize.ShloMosaic.Lib.ValueIdx
import Idealize.ShloMosaic.Lib.ValueLayout

noncomputable section

namespace Cert.KernelIdeal.Stage0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access. -/
theorem zero_offsets : (![0, 0] : Fin 2 → Nat) = fun _ => 0 := funext fun a => by fin_cases a <;> rfl

/-- One entry of the body's product: rounding to the narrower format is exact at extended reals, and the product into
    the zero accumulator is the sum over the 64 shared positions. -/
theorem product_entry (x0 : Vec Ideal S20000x64 .f32) (x1 : Vec Ideal S64x64 .f32) (p : Fin 20000) (q : Fin 64) :
    k0_pay1 x0 x1 (ix2 p q) = ∑ k : Fin 64, x0 (ix2 p k) * x1 (ix2 k q) := by
  unfold k0_pay1
  exact Cert.LibPlainContract.matmul_plain_apply 20000 64 64 none x0 x1 p q

/-- The printed index maps, decided once over the five grid points: the block of x and the block of the result at point
    t are block (t, 0); the weight's block is block (0, 0) at every point. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of the block of x at point t is x[20000·t + p, k]: a block's coordinate is the block index times the
    block size plus the coordinate inside the block. -/
theorem x_block_apply (c : Dev nD) (t : Fin cfg0.N) (y : S20000x64.Idx) (i : S100000x64.Idx)
    (h0 : (i 0).val = 20000 * t.val + (y 0).val) (h1 : (i 1).val = (y 1).val) :
    (iblk0 V c 0 t : Vec Ideal S20000x64 .f32) y = (V c (Pipeline.arrRef spec0 0) : S100000x64.Idx → EReal) i := by
  obtain ⟨e0, e1, -⟩ := index_maps t
  unfold iblk0
  rw [View.read_apply]
  refine congrArg (V c (Pipeline.arrRef spec0 0) : S100000x64.Idx → EReal) ?_
  funext a
  apply Fin.ext
  match a with
  | ⟨0, _⟩ => show win0_0.index t (0 : Fin 2) * 20000 + 1 * (y 0).val = (i 0).val; rw [e0, h0]; omega
  | ⟨1, _⟩ => show win0_0.index t (1 : Fin 2) * 64 + 1 * (y 1).val = (i 1).val; rw [e1, h1]; omega

/-- The block of the weight at every point is the whole weight. -/
theorem w_block_apply (c : Dev nD) (t : Fin cfg0.N) (y : S64x64.Idx) :
    (iblk0 V c 1 t : Vec Ideal S64x64 .f32) y = (V c (Pipeline.arrRef spec0 1) : S64x64.Idx → EReal) y := by
  obtain ⟨-, -, e2, e3, -⟩ := index_maps t
  unfold iblk0
  rw [View.read_apply]
  refine congrArg (V c (Pipeline.arrRef spec0 1) : S64x64.Idx → EReal) ?_
  funext a
  apply Fin.ext
  match a with
  | ⟨0, _⟩ => show win0_1.index t (0 : Fin 2) * 64 + 1 * (y 0).val = (y 0).val; rw [e2]; omega
  | ⟨1, _⟩ => show win0_1.index t (1 : Fin 2) * 64 + 1 * (y 1).val = (y 1).val; rw [e3]; omega

/-- One entry of the block written at a point, from blocks x0 of x and x1 of W that are rows 20000·t … of X and all
    of W: the dense layer's entry at row 20000·t + p. -/
theorem block_entry (X : S100000x64.Idx → EReal) (W : S64x64.Idx → EReal) (x0 : Vec Ideal S20000x64 .f32)
    (x1 : Vec Ideal S64x64 .f32) (tv : Nat)
    (hx : ∀ (y : S20000x64.Idx) (i : S100000x64.Idx), (i 0).val = 20000 * tv + (y 0).val → (i 1).val = (y 1).val →
      x0 y = X i)
    (hw : ∀ y : S64x64.Idx, x1 y = W y)
    (j : S20000x64.Idx) (i : S100000x64.Idx) (hi0 : (i 0).val = 20000 * tv + (j 0).val) (hi1 : (i 1).val = (j 1).val) :
    k0_pay1 x0 x1 j = Cert.Gcn.dense X W i := by
  obtain ⟨p, q, rfl⟩ : ∃ (p : Fin 20000) (q : Fin 64), j = ix2 p q := ⟨j 0, j 1, eq_ix2 j⟩
  obtain ⟨r, s, rfl⟩ : ∃ (r : Fin 100000) (s : Fin 64), i = ix2 r s := ⟨i 0, i 1, eq_ix2 i⟩
  have hs : s = q := Fin.ext hi1
  subst hs
  rw [product_entry, Cert.Gcn.dense_apply]
  refine Finset.sum_congr rfl fun k _ => ?_
  rw [hx (ix2 p k) (ix2 r k) hi0 rfl, hw]

/-- What point t writes back is block t of the dense layer of the arrays as the region finds them. -/
theorem flushed_eq (c : Dev nD) (t : Fin cfg0.N) :
    (dat0 V c).flushed 2 t = ((cfg0.win 2).blk t).view.read (Elt Ideal)
      (Cert.Gcn.dense (V c (Pipeline.arrRef spec0 0)) (V c (Pipeline.arrRef spec0 1))) := by
  show (cfg0.win 2).cut (grid0.coords t) ((dat0 V c).after 2 t) = _
  rw [after0_2]
  unfold out0_2
  rw [View.canon_unit_zero zero_offsets]
  simp only [View.ld_unit_zero (S := S20000x64) zero_offsets, View.ld_unit_zero (S := S64x64) zero_offsets]
  obtain ⟨-, -, -, -, e4, e5⟩ := index_maps t
  funext j
  refine block_entry _ _ _ _ t.val (fun y i h0 h1 => x_block_apply V c t y i h0 h1) (fun y => w_block_apply V c t y) j _ ?_ ?_
  · show win0_2.index t (0 : Fin 2) * 20000 + 1 * (j 0).val = 20000 * t.val + (j 0).val
    rw [e4]; omega
  · show win0_2.index t (1 : Fin 2) * 64 + 1 * (j 1).val = (j 1).val
    rw [e5]; omega

/-- An index of the result is in point t's block iff each coordinate is in the block's range on its axis. -/
theorem mem_block (t : Fin cfg0.N) (i : S100000x64.Idx) :
    i ∈ ((cfg0.win 2).blk t).view.set ↔ ∀ a : Fin 2, win0_2.index t a * S20000x64.size a ≤ (i a).val
      ∧ (i a).val < win0_2.index t a * S20000x64.size a + S20000x64.size a := by
  show i ∈ ((View.whole main_v31).slice (win0_2.rect t)).set ↔ _
  rw [View.set_slice_whole, Rect.mem_set_unit]
  exact Iff.rfl

/-- The five blocks tile the result: row r is in the block of point r / 20000. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 5 := N_0
  have ht : (i 0).val / 20000 < cfg0.N := by show (i 0).val / 20000 < grid0.N; rw [hN]; omega
  refine ⟨⟨(i 0).val / 20000, ht⟩, flush0_2 _, ?_⟩
  rw [mem_block]
  obtain ⟨-, -, -, -, e4, e5⟩ := index_maps ⟨(i 0).val / 20000, ht⟩
  intro a
  match a with
  | ⟨0, _⟩ =>
    show win0_2.index ⟨(i 0).val / 20000, ht⟩ (0 : Fin 2) * 20000 ≤ (i 0).val
      ∧ (i 0).val < win0_2.index ⟨(i 0).val / 20000, ht⟩ (0 : Fin 2) * 20000 + 20000
    rw [e4]; show (i 0).val / 20000 * 20000 ≤ (i 0).val ∧ (i 0).val < (i 0).val / 20000 * 20000 + 20000; omega
  | ⟨1, _⟩ =>
    show win0_2.index ⟨(i 0).val / 20000, ht⟩ (1 : Fin 2) * 64 ≤ (i 1).val
      ∧ (i 1).val < win0_2.index ⟨(i 0).val / 20000, ht⟩ (1 : Fin 2) * 64 + 64
    rw [e5]; omega

/-- The result array after the region is the dense layer of the node matrix and the weight as the region finds them. -/
theorem final (c : Dev nD) :
    (dat0 (F := Ideal) V c).arrAt 2 cfg0.N
      = Cert.Gcn.dense (V c (Pipeline.arrRef spec0 0)) (V c (Pipeline.arrRef spec0 1)) :=
  (dat0 V c).arrAt_eq_of_cover 2 _ (fun t _ => flushed_eq V c t) cover

end Cert.KernelIdeal.Stage0

end
-- ==== Proof.LibLreluRows.lean ====
/-
  Single entries of a leaky rectifier and of a bias laid along the rows of a matrix, at exact (extended real) values.

  lrelu with slope 0.2 of one value (lr), and of a vector in the two spellings a tiled body and a host program give it
  (a comparison with a splat zero, a product with a splat 0.2 and a select — the constants scalars splat, or rank-0
  arrays broadcast), read at an index as lr of the entry, by computation. A bias vector of n entries laid along every
  row of an [m, n] matrix, read at entry (P, k) as entry k of the vector, in the two spellings: the vector broadcast
  along axis 1 of a one-row matrix and that row broadcast down the rows (biasRows_apply), and a one-row matrix, cast
  to its own shape, broadcast down the rows (rowDown_apply); a vector cast to a one-row matrix read at (0, k)
  (rowCast_apply).
-/
import Idealize.ShloMosaic.PureOps.Ideal.Laws
import Idealize.ShloMosaic.Lib.Pipeline.Value
import Idealize.ShloMosaic.Lib.ValueIdx
import Idealize.ShloMosaic.Lib.ValueLayout
import Idealize.ShloMosaic.Lib.KernelVsHost

noncomputable section

namespace Cert.LibLreluRows

open Idealize.ShloMosaic Idealize.ShloMosaic.ValueIdx

/-- lrelu on one value: v where v ≥ 0, and 0.2·v elsewhere (0.2 as its single-precision pattern). -/
def lr (v : EReal) : EReal :=
  Scalar.select (FloatOps.cmpf (F := Ideal) (φ := .f32) .oge v (Ideal.ofBits .f32 0x00000000#32)) v
    (Ideal.ofBits .f32 0x3E4CCCCD#32 * v)

/-- lrelu of a vector as a comparison with a splat zero, a product with a splat 0.2 and a select, at one index. -/
theorem lrelu_splat_apply {s : Shape} (v : FVec Ideal s .f32) (i : s.Idx) :
    select (cmpf .oge v (broadcast s (Scalar.ofBits (F := Ideal) .f32 0x00000000#32))) v
      (mulf (broadcast s (Scalar.ofBits (F := Ideal) .f32 0x3E4CCCCD#32)) v) i = lr (v i) := rfl

/-- The same with the two constants rank-0 arrays broadcast to the shape. -/
theorem lrelu_bcast_apply {s : Shape} (h : (⟨0, ![]⟩ : Shape).BroadcastsInDim s ![]) (v : FVec Ideal s .f32) (i : s.Idx) :
    select (cmpf .oge v (broadcastInDim s ![] h (constant (F := Ideal) ⟨0, ![]⟩ .f32 0x00000000#32))) v
      (mulf (broadcastInDim s ![] h (id (constant (F := Ideal) ⟨0, ![]⟩ .f32 0x3E4CCCCD#32))) v) i = lr (v i) := rfl

/-- lrelu of a vector: a comparison with a splat zero, a product with a splat 0.2 and a select. -/
def lrv {s : Shape} (v : FVec Ideal s .f32) : FVec Ideal s .f32 :=
  select (cmpf .oge v (broadcast s (Scalar.ofBits (F := Ideal) .f32 0x00000000#32))) v
    (mulf (broadcast s (Scalar.ofBits (F := Ideal) .f32 0x3E4CCCCD#32)) v)

theorem lrv_apply {s : Shape} (v : FVec Ideal s .f32) (i : s.Idx) : lrv v i = lr (v i) := rfl

/-- A vector of n entries read as a one-row matrix: entry (0, k) is entry k. -/
theorem rowCast_apply {α : Type} {n : Nat} (h : (⟨1, ![n]⟩ : Shape).ShapeCasts ⟨2, ![1, n]⟩)
    (b : (⟨1, ![n]⟩ : Shape).Idx → α) (k : Fin n) :
    shapeCast ⟨2, ![1, n]⟩ b h (ix2 (0 : Fin 1) k) = b (ix1 k) :=
  (shapeCast_addUnit_apply ![n] b h (ix2 (0 : Fin 1) k)).trans
    (congrArg b (funext fun a => match a with | ⟨0, _⟩ => rfl))

/-- A vector broadcast along axis 1 of a one-row matrix and that row broadcast down m rows: entry (P, k) is entry k. -/
theorem biasRows_apply {α : Type} {m n : Nat} (h1 : (⟨1, ![n]⟩ : Shape).BroadcastsInDim ⟨2, ![1, n]⟩ ![1])
    (h2 : (⟨2, ![1, n]⟩ : Shape).BroadcastsInDim ⟨2, ![m, n]⟩ ![0, 1]) (b : (⟨1, ![n]⟩ : Shape).Idx → α)
    (P : Fin m) (k : Fin n) :
    broadcastInDim ⟨2, ![m, n]⟩ ![0, 1] h2 (broadcastInDim ⟨2, ![1, n]⟩ ![1] h1 b) (ix2 P k) = b (ix1 k) := by
  rw [broadcastInDim_oneRow_apply]
  refine broadcastInDim_apply ![1] h1 b (ix2 (0 : Fin 1) k) (ix1 k) ?_
  intro a
  match a with
  | ⟨0, _⟩ =>
    show k.val = if n = 1 then 0 else k.val
    split
    · have := k.isLt; omega
    · rfl

/-- A one-row matrix (cast to its own shape) broadcast down m rows: entry (p, k) is the row's entry (0, k). -/
theorem rowDown_apply {α : Type} {m n : Nat} (hs : (⟨2, ![1, n]⟩ : Shape).ShapeCasts ⟨2, ![1, n]⟩)
    (hb : (⟨2, ![1, n]⟩ : Shape).Broadcasts ⟨2, ![m, n]⟩) (x : (⟨2, ![1, n]⟩ : Shape).Idx → α) (p : Fin m) (k : Fin n) :
    broadcastTo ⟨2, ![m, n]⟩ (shapeCast ⟨2, ![1, n]⟩ x hs) hb (ix2 p k) = x (ix2 (0 : Fin 1) k) := by
  rw [broadcastTo_1b_ab_apply, shapeCast_self]

end Cert.LibLreluRows

end
-- ==== Proof.Stage1.lean ====
/-
  The second stage of the network, as one function of whole arrays: the aggregated node matrix a (100000 nodes by 64
  features) and a bias laid out as one row b go to the matrix whose entry (p, q) is lr (a[p, q] + b[0, q]), lr the leaky
  rectifier.

  The stage works on five blocks of 20000 consecutive rows. Block t of the output depends on block t of a and on the
  whole bias row only: row r of the block is row 20000 · t + r of the matrix, and its entry in column q is
  lr (a[20000 · t + r, q] + b[0, q]). The five blocks are disjoint and fill the matrix (row r lies in block r / 20000),
  so after the last block is written back the whole output is that one function of a and b.
-/
import proofs.«131320_j68771016343679_1_alg».proof.Proof.Gen.KernelIdeal.Frame
import proofs.«131320_j68771016343679_1_alg».proof.Proof.Spec
import proofs.«131320_j68771016343679_1_alg».proof.Proof.LibLreluRows
import Idealize.ShloMosaic.Lib.Pipeline.Value
import Idealize.ShloMosaic.Lib.ValueIdx
import Idealize.ShloMosaic.Lib.ValueLayout

set_option maxRecDepth 16384

noncomputable section

namespace Cert.KernelIdeal.Stage1

open Cert.KernelIdeal Cert.KernelIdeal.Gen Idealize.ShloMosaic Idealize.ShloMosaic.TcCoe Idealize.SL.Sem
open Idealize.ShloMosaic.ValueIdx
open Idealize.ShloMosaic.Pipeline (Dat)

/-! ## One entry of a block -/

/-- The leaky rectifier of a vector, written as a comparison with a splat zero, a product with the splat slope and a
    select, is lr of the entry at every index. -/
theorem lr_splat_apply {s : Shape} (v : FVec Ideal s .f32) (i : s.Idx) :
    select (cmpf .oge v (broadcast s (Scalar.ofBits (F := Ideal) .f32 0x00000000#32))) v
      (mulf (broadcast s (Scalar.ofBits (F := Ideal) .f32 0x3C23D70A#32)) v) i = Cert.Gcn.lr (v i) := rfl

/-- The zero offsets of a whole block, however they are spelt. -/
theorem zeros : (![0, 0] : Fin 2 → Nat) = fun _ => 0 := funext fun a => by fin_cases a <;> rfl

/-- The block's result is the rectifier of the sum of the matrix block and the bias row laid along every row. -/
theorem pay_eq (x0 : Vec Ideal S20000x64 .f32) (x1 : Vec Ideal S1x64 .f32) :
    k1_pay1 x0 x1
      = select (cmpf .oge (addf (shapeCast S20000x64 x0 shapeCasts_S20000x64_S20000x64)
            (broadcastTo S20000x64 (shapeCast S1x64 x1 shapeCasts_S1x64_S1x64) broadcasts_S1x64_S20000x64))
          (broadcast S20000x64 (Scalar.ofBits (F := Ideal) .f32 0x00000000#32)))
        (addf (shapeCast S20000x64 x0 shapeCasts_S20000x64_S20000x64)
          (broadcastTo S20000x64 (shapeCast S1x64 x1 shapeCasts_S1x64_S1x64) broadcasts_S1x64_S20000x64))
        (mulf (broadcast S20000x64 (Scalar.ofBits (F := Ideal) .f32 0x3C23D70A#32))
          (addf (shapeCast S20000x64 x0 shapeCasts_S20000x64_S20000x64)
            (broadcastTo S20000x64 (shapeCast S1x64 x1 shapeCasts_S1x64_S1x64) broadcasts_S1x64_S20000x64))) := rfl

/-- Entry (p, q) of a block's result: lr (x0[p, q] + x1[0, q]). -/
theorem pay_apply (x0 : Vec Ideal S20000x64 .f32) (x1 : Vec Ideal S1x64 .f32) (p : Fin 20000) (q : Fin 64) :
    k1_pay1 x0 x1 (ix2 p q) = Cert.Gcn.lr (x0 (ix2 p q) + x1 (ix2 (0 : Fin 1) q)) := by
  rw [pay_eq, lr_splat_apply, addf_apply, shapeCast_self, Cert.LibLreluRows.rowDown_apply]

/-- An entry of a block's result is the stage's function at an entry of the whole matrix, as soon as the block's entry
    of x0 is the matrix's entry there and the bias row's entry in the block's column is the row's entry in the matrix's
    column. -/
theorem pay_entry (x0 : Vec Ideal S20000x64 .f32) (x1 : Vec Ideal S1x64 .f32)
    (A : Cert.Gcn.Nodes.Idx → EReal) (B : Cert.Gcn.Row.Idx → EReal) (j : S20000x64.Idx) (i : Cert.Gcn.Nodes.Idx)
    (h0 : x0 j = A i)
    (h1 : x1 (ix2 (0 : Fin 1) (j 1 : Fin 64)) = B (ix2 (0 : Fin 1) (i 1 : Fin 64))) :
    k1_pay1 x0 x1 j = Cert.Gcn.biasAct A B i := by
  obtain ⟨p, q, rfl⟩ : ∃ (p : Fin 20000) (q : Fin 64), j = ix2 p q := ⟨j 0, j 1, eq_ix2 j⟩
  rw [pay_apply]
  show Cert.Gcn.lr (x0 (ix2 p q) + x1 (ix2 (0 : Fin 1) q)) = Cert.Gcn.lr (A i + B (ix2 (0 : Fin 1) (i 1 : Fin 64)))
  rw [h0, ← h1]

/-! ## From the five blocks to the matrix -/

variable (V : (c : Dev nD) → (b : Ref sig .tc) → Buf (Elt Ideal) ((c : Thread nD τ).loc b))

/-- Where the blocks sit, decided over the five points: at point t the matrix block and the output block are block
    (t, 0), the bias row is block (0, 0). -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the stage's function of the two arrays as the region finds them. -/
theorem flushed_eq (c : Dev nD) (t : Fin cfg1.N) :
    (dat1 (F := Ideal) V c).flushed 2 t
      = ((cfg1.win 2).blk t).view.read (Elt Ideal)
          (Cert.Gcn.biasAct (V c (Pipeline.arrRef spec1 0)) (V c (Pipeline.arrRef spec1 1))) := by
  show (cfg1.win 2).cut (grid1.coords t) ((dat1 (F := Ideal) V c).after 2 t) = _
  rw [after1_2]
  unfold out1_2
  rw [View.canon_unit_zero zeros]
  simp only [View.ld_unit_zero (S := S20000x64) zeros, View.ld_unit_zero (S := S1x64) zeros]
  obtain ⟨e0, e1, e2, e3, e4, e5⟩ := block_indices t
  funext j
  refine pay_entry _ _ _ _ j (((cfg1.win 2).blk t).view.emb j) ?_ ?_
  · show V c (Pipeline.arrRef spec1 0) (((cfg1.win 0).blk t).view.emb j)
      = V c (Pipeline.arrRef spec1 0) (((cfg1.win 2).blk t).view.emb j)
    refine congrArg _ (funext fun a => Fin.ext ?_)
    match a with
    | ⟨0, _⟩ =>
      show win1_0.index t (0 : Fin 2) * 20000 + 1 * (j 0).val = win1_2.index t (0 : Fin 2) * 20000 + 1 * (j 0).val
      omega
    | ⟨1, _⟩ =>
      show win1_0.index t (1 : Fin 2) * 64 + 1 * (j 1).val = win1_2.index t (1 : Fin 2) * 64 + 1 * (j 1).val
      omega
  · show V c (Pipeline.arrRef spec1 1) (((cfg1.win 1).blk t).view.emb (ix2 (0 : Fin 1) (j 1 : Fin 64)))
      = V c (Pipeline.arrRef spec1 1) (ix2 (0 : Fin 1) ((((cfg1.win 2).blk t).view.emb j) 1 : Fin 64))
    refine congrArg _ (funext fun a => Fin.ext ?_)
    match a with
    | ⟨0, _⟩ =>
      show win1_1.index t (0 : Fin 2) * 1 + 1 * 0 = 0
      omega
    | ⟨1, _⟩ =>
      show win1_1.index t (1 : Fin 2) * 64 + 1 * (j 1).val = win1_2.index t (1 : Fin 2) * 64 + 1 * (j 1).val
      omega

/-- An entry of the matrix is in point t's block iff each coordinate is in the block's range on its axis. -/
theorem mem_blk (t : Fin cfg1.N) (i : S100000x64.Idx) :
    i ∈ ((cfg1.win 2).blk t).view.set
      ↔ ∀ a : Fin 2, win1_2.index t a * S20000x64.size a ≤ (i a).val
          ∧ (i a).val < win1_2.index t a * S20000x64.size a + S20000x64.size a := by
  show i ∈ ((View.whole main_v46).slice (win1_2.rect t)).set ↔ _
  rw [View.set_slice_whole, Rect.mem_set_unit]
  exact Iff.rfl

/-- Every entry of the matrix is in some point's block: row r is in block r / 20000. -/
theorem cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 5 := N_1
  let t : Fin cfg1.N := ⟨(i 0).val / 20000, by rw [hN]; omega⟩
  have ht : t.val = (i 0).val / 20000 := rfl
  obtain ⟨-, -, -, -, e4, e5⟩ := block_indices t
  refine ⟨t, flush1_2 t, ?_⟩
  rw [mem_blk]
  intro a
  match a with
  | ⟨0, _⟩ =>
    show win1_2.index t (0 : Fin 2) * 20000 ≤ (i 0).val ∧ (i 0).val < win1_2.index t (0 : Fin 2) * 20000 + 20000
    omega
  | ⟨1, _⟩ =>
    show win1_2.index t (1 : Fin 2) * 64 ≤ (i 1).val ∧ (i 1).val < win1_2.index t (1 : Fin 2) * 64 + 64
    omega

/-- After the stage the output matrix is the stage's function of the aggregated matrix and the bias row. -/
theorem final (c : Dev nD) :
    (dat1 (F := Ideal) V c).arrAt 2 cfg1.N
      = Cert.Gcn.biasAct (V c (Pipeline.arrRef spec1 0)) (V c (Pipeline.arrRef spec1 1)) :=
  (dat1 (F := Ideal) V c).arrAt_eq_of_cover 2 _ (fun t _ => flushed_eq V c t) (cover)

end Cert.KernelIdeal.Stage1

end
-- ==== Proof.Stage2.lean ====
/-
  The second dense layer, as one function of whole arrays.

  The matrix x of the first layer's activations has 100000 rows of 64 features and is cut into five blocks of 20000
  rows; the weight W is one 64 by 64 block seen whole at every grid point. At grid point t the body takes rows
  20000·t … 20000·t + 19999 of x (recast to the shape they already have, which changes nothing) and multiplies them by
  all of W, so entry (p, q) of the block it writes back is the sum over k < 64 of x[20000·t + p, k] · W[k, q]: it depends
  on one row of x and on one column of W. The five blocks tile the result, which is therefore the dense layer of x and W.
-/
import proofs.«131320_j68771016343679_1_alg».proof.Proof.Gen.KernelIdeal.Frame
import proofs.«131320_j68771016343679_1_alg».proof.Proof.Spec
import proofs.«131320_j68771016343679_1_alg».proof.Proof.LibPlainContract
import Idealize.ShloMosaic.Lib.Pipeline.Value
import Idealize.ShloMosaic.Lib.ValueIdx
import Idealize.ShloMosaic.Lib.ValueLayout

noncomputable section

namespace Cert.KernelIdeal.Stage2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access. -/
theorem zero_offsets : (![0, 0] : Fin 2 → Nat) = fun _ => 0 := funext fun a => by fin_cases a <;> rfl

/-- One entry of the body's product: a cast to the same shape is the identity, rounding to the narrower format is exact
    at extended reals, and the product into the zero accumulator is the sum over the 64 shared positions. -/
theorem product_entry (x0 : Vec Ideal S20000x64 .f32) (x1 : Vec Ideal S64x64 .f32) (p : Fin 20000) (q : Fin 64) :
    k2_pay1 x0 x1 (ix2 p q) = ∑ k : Fin 64, x0 (ix2 p k) * x1 (ix2 k q) := by
  unfold k2_pay1
  simp only [shapeCast_self]
  exact Cert.LibPlainContract.matmul_plain_apply 20000 64 64 none x0 x1 p q

/-- The printed index maps, decided once over the five grid points: the block of x and the block of the result at point
    t are block (t, 0); the weight's block is block (0, 0) at every point. -/
theorem index_maps : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry (p, k) of the block of x at point t is x[20000·t + p, k]: a block's coordinate is the block index times the
    block size plus the coordinate inside the block. -/
theorem x_block_apply (c : Dev nD) (t : Fin cfg2.N) (y : S20000x64.Idx) (i : S100000x64.Idx)
    (h0 : (i 0).val = 20000 * t.val + (y 0).val) (h1 : (i 1).val = (y 1).val) :
    (iblk2 V c 0 t : Vec Ideal S20000x64 .f32) y = (V c (Pipeline.arrRef spec2 0) : S100000x64.Idx → EReal) i := by
  obtain ⟨e0, e1, -⟩ := index_maps t
  unfold iblk2
  rw [View.read_apply]
  refine congrArg (V c (Pipeline.arrRef spec2 0) : S100000x64.Idx → EReal) ?_
  funext a
  apply Fin.ext
  match a with
  | ⟨0, _⟩ => show win2_0.index t (0 : Fin 2) * 20000 + 1 * (y 0).val = (i 0).val; rw [e0, h0]; omega
  | ⟨1, _⟩ => show win2_0.index t (1 : Fin 2) * 64 + 1 * (y 1).val = (i 1).val; rw [e1, h1]; omega

/-- The block of the weight at every point is the whole weight. -/
theorem w_block_apply (c : Dev nD) (t : Fin cfg2.N) (y : S64x64.Idx) :
    (iblk2 V c 1 t : Vec Ideal S64x64 .f32) y = (V c (Pipeline.arrRef spec2 1) : S64x64.Idx → EReal) y := by
  obtain ⟨-, -, e2, e3, -⟩ := index_maps t
  unfold iblk2
  rw [View.read_apply]
  refine congrArg (V c (Pipeline.arrRef spec2 1) : S64x64.Idx → EReal) ?_
  funext a
  apply Fin.ext
  match a with
  | ⟨0, _⟩ => show win2_1.index t (0 : Fin 2) * 64 + 1 * (y 0).val = (y 0).val; rw [e2]; omega
  | ⟨1, _⟩ => show win2_1.index t (1 : Fin 2) * 64 + 1 * (y 1).val = (y 1).val; rw [e3]; omega

/-- One entry of the block written at a point, from blocks x0 of x and x1 of W that are rows 20000·t … of X and all
    of W: the dense layer's entry at row 20000·t + p. -/
theorem block_entry (X : S100000x64.Idx → EReal) (W : S64x64.Idx → EReal) (x0 : Vec Ideal S20000x64 .f32)
    (x1 : Vec Ideal S64x64 .f32) (tv : Nat)
    (hx : ∀ (y : S20000x64.Idx) (i : S100000x64.Idx), (i 0).val = 20000 * tv + (y 0).val → (i 1).val = (y 1).val →
      x0 y = X i)
    (hw : ∀ y : S64x64.Idx, x1 y = W y)
    (j : S20000x64.Idx) (i : S100000x64.Idx) (hi0 : (i 0).val = 20000 * tv + (j 0).val) (hi1 : (i 1).val = (j 1).val) :
    k2_pay1 x0 x1 j = Cert.Gcn.dense X W i := by
  obtain ⟨p, q, rfl⟩ : ∃ (p : Fin 20000) (q : Fin 64), j = ix2 p q := ⟨j 0, j 1, eq_ix2 j⟩
  obtain ⟨r, s, rfl⟩ : ∃ (r : Fin 100000) (s : Fin 64), i = ix2 r s := ⟨i 0, i 1, eq_ix2 i⟩
  have hs : s = q := Fin.ext hi1
  subst hs
  rw [product_entry, Cert.Gcn.dense_apply]
  refine Finset.sum_congr rfl fun k _ => ?_
  rw [hx (ix2 p k) (ix2 r k) hi0 rfl, hw]

/-- What point t writes back is block t of the dense layer of the arrays as the region finds them. -/
theorem flushed_eq (c : Dev nD) (t : Fin cfg2.N) :
    (dat2 V c).flushed 2 t = ((cfg2.win 2).blk t).view.read (Elt Ideal)
      (Cert.Gcn.dense (V c (Pipeline.arrRef spec2 0)) (V c (Pipeline.arrRef spec2 1))) := by
  show (cfg2.win 2).cut (grid2.coords t) ((dat2 V c).after 2 t) = _
  rw [after2_2]
  unfold out2_2
  rw [View.canon_unit_zero zero_offsets]
  simp only [View.ld_unit_zero (S := S20000x64) zero_offsets, View.ld_unit_zero (S := S64x64) zero_offsets]
  obtain ⟨-, -, -, -, e4, e5⟩ := index_maps t
  funext j
  refine block_entry _ _ _ _ t.val (fun y i h0 h1 => x_block_apply V c t y i h0 h1) (fun y => w_block_apply V c t y) j _ ?_ ?_
  · show win2_2.index t (0 : Fin 2) * 20000 + 1 * (j 0).val = 20000 * t.val + (j 0).val
    rw [e4]; omega
  · show win2_2.index t (1 : Fin 2) * 64 + 1 * (j 1).val = (j 1).val
    rw [e5]; omega

/-- An index of the result is in point t's block iff each coordinate is in the block's range on its axis. -/
theorem mem_block (t : Fin cfg2.N) (i : S100000x64.Idx) :
    i ∈ ((cfg2.win 2).blk t).view.set ↔ ∀ a : Fin 2, win2_2.index t a * S20000x64.size a ≤ (i a).val
      ∧ (i a).val < win2_2.index t a * S20000x64.size a + S20000x64.size a := by
  show i ∈ ((View.whole main_v47).slice (win2_2.rect t)).set ↔ _
  rw [View.set_slice_whole, Rect.mem_set_unit]
  exact Iff.rfl

/-- The five blocks tile the result: row r is in the block of point r / 20000. -/
theorem cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : grid2.N = 5 := N_2
  have ht : (i 0).val / 20000 < cfg2.N := by show (i 0).val / 20000 < grid2.N; rw [hN]; omega
  refine ⟨⟨(i 0).val / 20000, ht⟩, flush2_2 _, ?_⟩
  rw [mem_block]
  obtain ⟨-, -, -, -, e4, e5⟩ := index_maps ⟨(i 0).val / 20000, ht⟩
  intro a
  match a with
  | ⟨0, _⟩ =>
    show win2_2.index ⟨(i 0).val / 20000, ht⟩ (0 : Fin 2) * 20000 ≤ (i 0).val
      ∧ (i 0).val < win2_2.index ⟨(i 0).val / 20000, ht⟩ (0 : Fin 2) * 20000 + 20000
    rw [e4]; show (i 0).val / 20000 * 20000 ≤ (i 0).val ∧ (i 0).val < (i 0).val / 20000 * 20000 + 20000; omega
  | ⟨1, _⟩ =>
    show win2_2.index ⟨(i 0).val / 20000, ht⟩ (1 : Fin 2) * 64 ≤ (i 1).val
      ∧ (i 1).val < win2_2.index ⟨(i 0).val / 20000, ht⟩ (1 : Fin 2) * 64 + 64
    rw [e5]; omega

/-- The result array after the region is the dense layer of the node matrix and the weight as the region finds them. -/
theorem final (c : Dev nD) :
    (dat2 (F := Ideal) V c).arrAt 2 cfg2.N
      = Cert.Gcn.dense (V c (Pipeline.arrRef spec2 0)) (V c (Pipeline.arrRef spec2 1)) :=
  (dat2 V c).arrAt_eq_of_cover 2 _ (fun t _ => flushed_eq V c t) cover

end Cert.KernelIdeal.Stage2

end
-- ==== Proof.Stage3.lean ====
/-
  The fourth stage of the network, as one function of whole arrays: the aggregated node matrix a (100000 nodes by 64
  features), a bias laid out as one row b and a residual matrix r of the same extents as a go to the matrix whose entry
  (p, q) is lr ((a[p, q] + b[0, q]) + r[p, q]), lr the leaky rectifier.

  The stage works on five blocks of 20000 consecutive rows. Block t of the output depends on block t of a, block t of r
  and the whole bias row only: row s of the block is row 20000 · t + s of the matrix, and its entry in column q is
  lr ((a[20000 · t + s, q] + b[0, q]) + r[20000 · t + s, q]). The five blocks are disjoint and fill the matrix (row s
  lies in block s / 20000), so after the last block is written back the whole output is that one function of a, b and r.
-/
import proofs.«131320_j68771016343679_1_alg».proof.Proof.Gen.KernelIdeal.Frame
import proofs.«131320_j68771016343679_1_alg».proof.Proof.Spec
import proofs.«131320_j68771016343679_1_alg».proof.Proof.LibLreluRows
import Idealize.ShloMosaic.Lib.Pipeline.Value
import Idealize.ShloMosaic.Lib.ValueIdx
import Idealize.ShloMosaic.Lib.ValueLayout

set_option maxRecDepth 16384

noncomputable section

namespace Cert.KernelIdeal.Stage3

open Cert.KernelIdeal Cert.KernelIdeal.Gen Idealize.ShloMosaic Idealize.ShloMosaic.TcCoe Idealize.SL.Sem
open Idealize.ShloMosaic.ValueIdx
open Idealize.ShloMosaic.Pipeline (Dat)

/-! ## One entry of a block -/

/-- The leaky rectifier of a vector, written as a comparison with a splat zero, a product with the splat slope and a
    select, is lr of the entry at every index. -/
theorem lr_splat_apply {s : Shape} (v : FVec Ideal s .f32) (i : s.Idx) :
    select (cmpf .oge v (broadcast s (Scalar.ofBits (F := Ideal) .f32 0x00000000#32))) v
      (mulf (broadcast s (Scalar.ofBits (F := Ideal) .f32 0x3C23D70A#32)) v) i = Cert.Gcn.lr (v i) := rfl

/-- The zero offsets of a whole block, however they are spelt. -/
theorem zeros : (![0, 0] : Fin 2 → Nat) = fun _ => 0 := funext fun a => by fin_cases a <;> rfl

/-- The block's result is the rectifier of the sum of the matrix block, the bias row laid along every row, and the
    residual block. -/
theorem pay_eq (x0 : Vec Ideal S20000x64 .f32) (x1 : Vec Ideal S1x64 .f32) (x2 : Vec Ideal S20000x64 .f32) :
    k3_pay1 x0 x1 x2
      = select (cmpf .oge (addf (addf (shapeCast S20000x64 x0 shapeCasts_S20000x64_S20000x64)
              (broadcastTo S20000x64 (shapeCast S1x64 x1 shapeCasts_S1x64_S1x64) broadcasts_S1x64_S20000x64))
            (shapeCast S20000x64 x2 shapeCasts_S20000x64_S20000x64))
          (broadcast S20000x64 (Scalar.ofBits (F := Ideal) .f32 0x00000000#32)))
        (addf (addf (shapeCast S20000x64 x0 shapeCasts_S20000x64_S20000x64)
            (broadcastTo S20000x64 (shapeCast S1x64 x1 shapeCasts_S1x64_S1x64) broadcasts_S1x64_S20000x64))
          (shapeCast S20000x64 x2 shapeCasts_S20000x64_S20000x64))
        (mulf (broadcast S20000x64 (Scalar.ofBits (F := Ideal) .f32 0x3C23D70A#32))
          (addf (addf (shapeCast S20000x64 x0 shapeCasts_S20000x64_S20000x64)
              (broadcastTo S20000x64 (shapeCast S1x64 x1 shapeCasts_S1x64_S1x64) broadcasts_S1x64_S20000x64))
            (shapeCast S20000x64 x2 shapeCasts_S20000x64_S20000x64))) := rfl

/-- Entry (p, q) of a block's result: lr ((x0[p, q] + x1[0, q]) + x2[p, q]). -/
theorem pay_apply (x0 : Vec Ideal S20000x64 .f32) (x1 : Vec Ideal S1x64 .f32) (x2 : Vec Ideal S20000x64 .f32)
    (p : Fin 20000) (q : Fin 64) :
    k3_pay1 x0 x1 x2 (ix2 p q) = Cert.Gcn.lr ((x0 (ix2 p q) + x1 (ix2 (0 : Fin 1) q)) + x2 (ix2 p q)) := by
  rw [pay_eq, lr_splat_apply, addf_apply, addf_apply, Cert.LibLreluRows.rowDown_apply, shapeCast_self,
    shapeCast_self]

/-- An entry of a block's result is the stage's function at an entry of the whole matrix, as soon as the block's
    entries of x0 and x2 are the two matrices' entries there and the bias row's entry in the block's column is the row's
    entry in the matrix's column. -/
theorem pay_entry (x0 : Vec Ideal S20000x64 .f32) (x1 : Vec Ideal S1x64 .f32) (x2 : Vec Ideal S20000x64 .f32)
    (A : Cert.Gcn.Nodes.Idx → EReal) (B : Cert.Gcn.Row.Idx → EReal) (R : Cert.Gcn.Nodes.Idx → EReal)
    (j : S20000x64.Idx) (i : Cert.Gcn.Nodes.Idx)
    (h0 : x0 j = A i)
    (h1 : x1 (ix2 (0 : Fin 1) (j 1 : Fin 64)) = B (ix2 (0 : Fin 1) (i 1 : Fin 64)))
    (h2 : x2 j = R i) :
    k3_pay1 x0 x1 x2 j = Cert.Gcn.biasResidAct A B R i := by
  obtain ⟨p, q, rfl⟩ : ∃ (p : Fin 20000) (q : Fin 64), j = ix2 p q := ⟨j 0, j 1, eq_ix2 j⟩
  rw [pay_apply]
  show Cert.Gcn.lr ((x0 (ix2 p q) + x1 (ix2 (0 : Fin 1) q)) + x2 (ix2 p q))
    = Cert.Gcn.lr ((A i + B (ix2 (0 : Fin 1) (i 1 : Fin 64))) + R i)
  rw [h0, h2, ← h1]

/-! ## From the five blocks to the matrix -/

variable (V : (c : Dev nD) → (b : Ref sig .tc) → Buf (Elt Ideal) ((c : Thread nD τ).loc b))

/-- Where the blocks sit, decided over the five points: at point t the matrix block, the residual block and the output
    block are block (t, 0), the bias row is block (0, 0). -/
theorem block_indices : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- Entry j of the matrix block at point t is the matrix's entry under entry j of the output block: both blocks are
    block (t, 0). -/
theorem matrix_block_entry (c : Dev nD) (t : Fin cfg3.N) (j : S20000x64.Idx) :
    iblk3 V c 0 t j = V c (Pipeline.arrRef spec3 0) (((cfg3.win 3).blk t).view.emb j) := by
  obtain ⟨e0, e1, -, -, -, -, e6, e7⟩ := block_indices t
  show V c (Pipeline.arrRef spec3 0) (((cfg3.win 0).blk t).view.emb j)
    = V c (Pipeline.arrRef spec3 0) (((cfg3.win 3).blk t).view.emb j)
  refine congrArg _ (funext fun a => Fin.ext ?_)
  match a with
  | ⟨0, _⟩ =>
    show win3_0.index t (0 : Fin 2) * 20000 + 1 * (j 0).val = win3_3.index t (0 : Fin 2) * 20000 + 1 * (j 0).val
    omega
  | ⟨1, _⟩ =>
    show win3_0.index t (1 : Fin 2) * 64 + 1 * (j 1).val = win3_3.index t (1 : Fin 2) * 64 + 1 * (j 1).val
    omega

/-- The bias block at every point is the whole row: its entry in the column of entry j of the output block is the
    row's entry in the column of the matrix entry under j (the output block keeps the columns). -/
theorem bias_block_entry (c : Dev nD) (t : Fin cfg3.N) (j : S20000x64.Idx) :
    iblk3 V c 1 t (ix2 (0 : Fin 1) (j 1 : Fin 64))
      = V c (Pipeline.arrRef spec3 1) (ix2 (0 : Fin 1) ((((cfg3.win 3).blk t).view.emb j) 1 : Fin 64)) := by
  obtain ⟨-, -, e2, e3, -, -, e6, e7⟩ := block_indices t
  show V c (Pipeline.arrRef spec3 1) (((cfg3.win 1).blk t).view.emb (ix2 (0 : Fin 1) (j 1 : Fin 64)))
    = V c (Pipeline.arrRef spec3 1) (ix2 (0 : Fin 1) ((((cfg3.win 3).blk t).view.emb j) 1 : Fin 64))
  refine congrArg _ (funext fun a => Fin.ext ?_)
  match a with
  | ⟨0, _⟩ =>
    show win3_1.index t (0 : Fin 2) * 1 + 1 * 0 = 0
    omega
  | ⟨1, _⟩ =>
    show win3_1.index t (1 : Fin 2) * 64 + 1 * (j 1).val = win3_3.index t (1 : Fin 2) * 64 + 1 * (j 1).val
    omega

/-- Entry j of the residual block at point t is the residual's entry under entry j of the output block: both blocks
    are block (t, 0). -/
theorem residual_block_entry (c : Dev nD) (t : Fin cfg3.N) (j : S20000x64.Idx) :
    iblk3 V c 2 t j = V c (Pipeline.arrRef spec3 2) (((cfg3.win 3).blk t).view.emb j) := by
  obtain ⟨-, -, -, -, e4, e5, e6, e7⟩ := block_indices t
  show V c (Pipeline.arrRef spec3 2) (((cfg3.win 2).blk t).view.emb j)
    = V c (Pipeline.arrRef spec3 2) (((cfg3.win 3).blk t).view.emb j)
  refine congrArg _ (funext fun a => Fin.ext ?_)
  match a with
  | ⟨0, _⟩ =>
    show win3_2.index t (0 : Fin 2) * 20000 + 1 * (j 0).val = win3_3.index t (0 : Fin 2) * 20000 + 1 * (j 0).val
    omega
  | ⟨1, _⟩ =>
    show win3_2.index t (1 : Fin 2) * 64 + 1 * (j 1).val = win3_3.index t (1 : Fin 2) * 64 + 1 * (j 1).val
    omega

/-- What point t writes back is block t of the stage's function of the three arrays as the region finds them. -/
theorem flushed_eq (c : Dev nD) (t : Fin cfg3.N) :
    (dat3 (F := Ideal) V c).flushed 3 t
      = ((cfg3.win 3).blk t).view.read (Elt Ideal)
          (Cert.Gcn.biasResidAct (V c (Pipeline.arrRef spec3 0)) (V c (Pipeline.arrRef spec3 1))
            (V c (Pipeline.arrRef spec3 2))) := by
  show (cfg3.win 3).cut (grid3.coords t) ((dat3 (F := Ideal) V c).after 3 t) = _
  rw [after3_3]
  unfold out3_3
  rw [View.canon_unit_zero zeros]
  simp only [View.ld_unit_zero (S := S20000x64) zeros, View.ld_unit_zero (S := S1x64) zeros]
  funext j
  exact pay_entry _ _ _ _ _ _ j (((cfg3.win 3).blk t).view.emb j) (matrix_block_entry V c t j)
    (bias_block_entry V c t j) (residual_block_entry V c t j)

/-- An entry of the matrix is in point t's block iff each coordinate is in the block's range on its axis. -/
theorem mem_blk (t : Fin cfg3.N) (i : S100000x64.Idx) :
    i ∈ ((cfg3.win 3).blk t).view.set
      ↔ ∀ a : Fin 2, win3_3.index t a * S20000x64.size a ≤ (i a).val
          ∧ (i a).val < win3_3.index t a * S20000x64.size a + S20000x64.size a := by
  show i ∈ ((View.whole main_v62).slice (win3_3.rect t)).set ↔ _
  rw [View.set_slice_whole, Rect.mem_set_unit]
  exact Iff.rfl

/-- Every entry of the matrix is in some point's block: row s is in block s / 20000. -/
theorem cover (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  have hN : cfg3.N = 5 := N_3
  let t : Fin cfg3.N := ⟨(i 0).val / 20000, by rw [hN]; omega⟩
  have ht : t.val = (i 0).val / 20000 := rfl
  obtain ⟨-, -, -, -, -, -, e6, e7⟩ := block_indices t
  refine ⟨t, flush3_3 t, ?_⟩
  rw [mem_blk]
  intro a
  match a with
  | ⟨0, _⟩ =>
    show win3_3.index t (0 : Fin 2) * 20000 ≤ (i 0).val ∧ (i 0).val < win3_3.index t (0 : Fin 2) * 20000 + 20000
    omega
  | ⟨1, _⟩ =>
    show win3_3.index t (1 : Fin 2) * 64 ≤ (i 1).val ∧ (i 1).val < win3_3.index t (1 : Fin 2) * 64 + 64
    omega

/-- After the stage the output matrix is the stage's function of the aggregated matrix, the bias row and the
    residual matrix. -/
theorem final (c : Dev nD) :
    (dat3 (F := Ideal) V c).arrAt 3 cfg3.N
      = Cert.Gcn.biasResidAct (V c (Pipeline.arrRef spec3 0)) (V c (Pipeline.arrRef spec3 1))
          (V c (Pipeline.arrRef spec3 2)) :=
  (dat3 (F := Ideal) V c).arrAt_eq_of_cover 3 _ (fun t _ => flushed_eq V c t) (cover)

end Cert.KernelIdeal.Stage3

end
-- ==== Proof.Stage4.lean ====
/-
  The first layer of the perceptron head — a dense layer, a bias and the leaky rectifier — as one function of whole arrays.

  The matrix x has 100000 rows of 64 features and is cut into five blocks of 20000 rows; the weight W (64 by 64) and the
  bias b (one row of 64) are each one block seen whole at every grid point. At grid point t the body multiplies rows
  20000·t … 20000·t + 19999 of x by all of W, lays the bias row along every row, adds, and applies the rectifier, so
  entry (p, q) of the block it writes back is lr ((sum over k < 64 of x[20000·t + p, k] · W[k, q]) + b[0, q]): it depends
  on one row of x, one column of W and one entry of b. The five blocks tile the result.
-/
import proofs.«131320_j68771016343679_1_alg».proof.Proof.Gen.KernelIdeal.Frame
import proofs.«131320_j68771016343679_1_alg».proof.Proof.Spec
import proofs.«131320_j68771016343679_1_alg».proof.Proof.LibPlainContract
import Idealize.ShloMosaic.Lib.Pipeline.Value
import Idealize.ShloMosaic.Lib.ValueIdx
import Idealize.ShloMosaic.Lib.ValueLayout

noncomputable section

namespace Cert.KernelIdeal.Stage4

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access. -/
theorem zero_offsets : (![0, 0] : Fin 2 → Nat) = fun _ => 0 := funext fun a => by fin_cases a <;> rfl

/-- The body's rectifier — compare with a splat zero, multiply by a splat 0.01, select — at one entry is the
    rectifier of that entry. -/
theorem rectifier_apply {s : Shape} (v : FVec Ideal s .f32) (i : s.Idx) :
    select (cmpf .oge v (broadcast s (Scalar.ofBits (F := Ideal) .f32 0x00000000#32))) v
      (mulf (broadcast s (Scalar.ofBits (F := Ideal) .f32 0x3C23D70A#32)) v) i = Cert.Gcn.lr (v i) := rfl

/-- One entry of what the body computes: a cast to the same shape is the identity, rounding to the narrower format is
    exact at extended reals, the product into the zero accumulator is the sum over the 64 shared positions, and the bias
    row laid along the rows reads its entry of the same column. -/
theorem body_entry (x0 : Vec Ideal S20000x64 .f32) (x1 : Vec Ideal S64x64 .f32) (x2 : Vec Ideal S1x64 .f32)
    (p : Fin 20000) (q : Fin 64) :
    k4_pay1 x0 x1 x2 (ix2 p q)
      = Cert.Gcn.lr ((∑ k : Fin 64, x0 (ix2 p k) * x1 (ix2 k q)) + x2 (ix2 (0 : Fin 1) q)) := by
  unfold k4_pay1
  simp only [shapeCast_self]
  refine (rectifier_apply _ (ix2 p q)).trans (congrArg Cert.Gcn.lr ?_)
  rw [addf_apply]
  exact congrArg₂ (· + ·) (Cert.LibPlainContract.matmul_plain_apply 20000 64 64 none x0 x1 p q)
    (broadcastTo_1b_ab_apply x2 broadcasts_S1x64_S20000x64 p q)

/-- The printed index maps, decided once over the five grid points: the block of x and the block of the result at point
    t are block (t, 0); the weight's block and the bias row's block are block (0, 0) at every point. -/
theorem index_maps : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Entry (p, k) of the block of x at point t is x[20000·t + p, k]: a block's coordinate is the block index times the
    block size plus the coordinate inside the block. -/
theorem x_block_apply (c : Dev nD) (t : Fin cfg4.N) (y : S20000x64.Idx) (i : S100000x64.Idx)
    (h0 : (i 0).val = 20000 * t.val + (y 0).val) (h1 : (i 1).val = (y 1).val) :
    (iblk4 V c 0 t : Vec Ideal S20000x64 .f32) y = (V c (Pipeline.arrRef spec4 0) : S100000x64.Idx → EReal) i := by
  obtain ⟨e0, e1, -⟩ := index_maps t
  unfold iblk4
  rw [View.read_apply]
  refine congrArg (V c (Pipeline.arrRef spec4 0) : S100000x64.Idx → EReal) ?_
  funext a
  apply Fin.ext
  match a with
  | ⟨0, _⟩ => show win4_0.index t (0 : Fin 2) * 20000 + 1 * (y 0).val = (i 0).val; rw [e0, h0]; omega
  | ⟨1, _⟩ => show win4_0.index t (1 : Fin 2) * 64 + 1 * (y 1).val = (i 1).val; rw [e1, h1]; omega

/-- The block of the weight at every point is the whole weight. -/
theorem w_block_apply (c : Dev nD) (t : Fin cfg4.N) (y : S64x64.Idx) :
    (iblk4 V c 1 t : Vec Ideal S64x64 .f32) y = (V c (Pipeline.arrRef spec4 1) : S64x64.Idx → EReal) y := by
  obtain ⟨-, -, e2, e3, -⟩ := index_maps t
  unfold iblk4
  rw [View.read_apply]
  refine congrArg (V c (Pipeline.arrRef spec4 1) : S64x64.Idx → EReal) ?_
  funext a
  apply Fin.ext
  match a with
  | ⟨0, _⟩ => show win4_1.index t (0 : Fin 2) * 64 + 1 * (y 0).val = (y 0).val; rw [e2]; omega
  | ⟨1, _⟩ => show win4_1.index t (1 : Fin 2) * 64 + 1 * (y 1).val = (y 1).val; rw [e3]; omega

/-- The block of the bias row at every point is the whole row. -/
theorem b_block_apply (c : Dev nD) (t : Fin cfg4.N) (y : S1x64.Idx) :
    (iblk4 V c 2 t : Vec Ideal S1x64 .f32) y = (V c (Pipeline.arrRef spec4 2) : S1x64.Idx → EReal) y := by
  obtain ⟨-, -, -, -, e4, e5, -⟩ := index_maps t
  unfold iblk4
  rw [View.read_apply]
  refine congrArg (V c (Pipeline.arrRef spec4 2) : S1x64.Idx → EReal) ?_
  funext a
  apply Fin.ext
  match a with
  | ⟨0, _⟩ => show win4_2.index t (0 : Fin 2) * 1 + 1 * (y 0).val = (y 0).val; rw [e4]; omega
  | ⟨1, _⟩ => show win4_2.index t (1 : Fin 2) * 64 + 1 * (y 1).val = (y 1).val; rw [e5]; omega

/-- One entry of the block written at a point, from blocks x0 of x, x1 of W and x2 of b that are rows 20000·t … of X,
    all of W and all of B: the stage's entry at row 20000·t + p. -/
theorem block_entry (X : S100000x64.Idx → EReal) (W : S64x64.Idx → EReal) (B : S1x64.Idx → EReal)
    (x0 : Vec Ideal S20000x64 .f32) (x1 : Vec Ideal S64x64 .f32) (x2 : Vec Ideal S1x64 .f32) (tv : Nat)
    (hx : ∀ (y : S20000x64.Idx) (i : S100000x64.Idx), (i 0).val = 20000 * tv + (y 0).val → (i 1).val = (y 1).val →
      x0 y = X i)
    (hw : ∀ y : S64x64.Idx, x1 y = W y) (hb : ∀ y : S1x64.Idx, x2 y = B y)
    (j : S20000x64.Idx) (i : S100000x64.Idx) (hi0 : (i 0).val = 20000 * tv + (j 0).val) (hi1 : (i 1).val = (j 1).val) :
    k4_pay1 x0 x1 x2 j = Cert.Gcn.biasAct (Cert.Gcn.dense X W) B i := by
  obtain ⟨p, q, rfl⟩ : ∃ (p : Fin 20000) (q : Fin 64), j = ix2 p q := ⟨j 0, j 1, eq_ix2 j⟩
  obtain ⟨r, s, rfl⟩ : ∃ (r : Fin 100000) (s : Fin 64), i = ix2 r s := ⟨i 0, i 1, eq_ix2 i⟩
  have hs : s = q := Fin.ext hi1
  have hsum : ∑ k : Fin 64, x0 (ix2 p k) * x1 (ix2 k q) = ∑ k : Fin 64, X (ix2 r k) * W (ix2 k q) :=
    Finset.sum_congr rfl fun k _ => by rw [hx (ix2 p k) (ix2 r k) hi0 rfl, hw]
  rw [hs, body_entry, hsum, hb, Cert.Gcn.biasAct_apply, Cert.Gcn.dense_apply]

/-- What point t writes back is block t of the stage's function of the arrays as the region finds them. -/
theorem flushed_eq (c : Dev nD) (t : Fin cfg4.N) :
    (dat4 V c).flushed 3 t = ((cfg4.win 3).blk t).view.read (Elt Ideal)
      (Cert.Gcn.biasAct (Cert.Gcn.dense (V c (Pipeline.arrRef spec4 0)) (V c (Pipeline.arrRef spec4 1)))
        (V c (Pipeline.arrRef spec4 2))) := by
  show (cfg4.win 3).cut (grid4.coords t) ((dat4 V c).after 3 t) = _
  rw [after4_3]
  unfold out4_3
  rw [View.canon_unit_zero zero_offsets]
  simp only [View.ld_unit_zero (S := S20000x64) zero_offsets, View.ld_unit_zero (S := S64x64) zero_offsets,
    View.ld_unit_zero (S := S1x64) zero_offsets]
  obtain ⟨-, -, -, -, -, -, e6, e7⟩ := index_maps t
  funext j
  refine block_entry _ _ _ _ _ _ t.val (fun y i h0 h1 => x_block_apply V c t y i h0 h1)
    (fun y => w_block_apply V c t y) (fun y => b_block_apply V c t y) j _ ?_ ?_
  · show win4_3.index t (0 : Fin 2) * 20000 + 1 * (j 0).val = 20000 * t.val + (j 0).val
    rw [e6]; omega
  · show win4_3.index t (1 : Fin 2) * 64 + 1 * (j 1).val = (j 1).val
    rw [e7]; omega

/-- An index of the result is in point t's block iff each coordinate is in the block's range on its axis. -/
theorem mem_block (t : Fin cfg4.N) (i : S100000x64.Idx) :
    i ∈ ((cfg4.win 3).blk t).view.set ↔ ∀ a : Fin 2, win4_3.index t a * S20000x64.size a ≤ (i a).val
      ∧ (i a).val < win4_3.index t a * S20000x64.size a + S20000x64.size a := by
  show i ∈ ((View.whole main_v64).slice (win4_3.rect t)).set ↔ _
  rw [View.set_slice_whole, Rect.mem_set_unit]
  exact Iff.rfl

/-- The five blocks tile the result: row r is in the block of point r / 20000. -/
theorem cover (i : S100000x64.Idx) :
    ∃ t : Fin cfg4.N, (cfg4.win 3).flush t = true ∧ i ∈ ((cfg4.win 3).blk t).view.set := by
  have hi0 : (i 0).val < 100000 := (i 0).isLt
  have hi1 : (i 1).val < 64 := (i 1).isLt
  have hN : grid4.N = 5 := N_4
  have ht : (i 0).val / 20000 < cfg4.N := by show (i 0).val / 20000 < grid4.N; rw [hN]; omega
  refine ⟨⟨(i 0).val / 20000, ht⟩, flush4_3 _, ?_⟩
  rw [mem_block]
  obtain ⟨-, -, -, -, -, -, e6, e7⟩ := index_maps ⟨(i 0).val / 20000, ht⟩
  intro a
  match a with
  | ⟨0, _⟩ =>
    show win4_3.index ⟨(i 0).val / 20000, ht⟩ (0 : Fin 2) * 20000 ≤ (i 0).val
      ∧ (i 0).val < win4_3.index ⟨(i 0).val / 20000, ht⟩ (0 : Fin 2) * 20000 + 20000
    rw [e6]; show (i 0).val / 20000 * 20000 ≤ (i 0).val ∧ (i 0).val < (i 0).val / 20000 * 20000 + 20000; omega
  | ⟨1, _⟩ =>
    show win4_3.index ⟨(i 0).val / 20000, ht⟩ (1 : Fin 2) * 64 ≤ (i 1).val
      ∧ (i 1).val < win4_3.index ⟨(i 0).val / 20000, ht⟩ (1 : Fin 2) * 64 + 64
    rw [e7]; omega

/-- The result array after the region is the rectifier of the dense layer plus the bias, of the arrays as the region
    finds them. -/
theorem final (c : Dev nD) :
    (dat4 (F := Ideal) V c).arrAt 3 cfg4.N
      = Cert.Gcn.biasAct (Cert.Gcn.dense (V c (Pipeline.arrRef spec4 0)) (V c (Pipeline.arrRef spec4 1)))
          (V c (Pipeline.arrRef spec4 2)) :=
  (dat4 V c).arrAt_eq_of_cover 3 _ (fun t _ => flushed_eq V c t) cover

end Cert.KernelIdeal.Stage4

end
-- ==== Proof.Stage5.lean ====
/-
  The second layer of the perceptron head — a dense layer, a bias, a residual and the leaky rectifier — as one function
  of whole arrays.

  The matrix x and the residual matrix r each have 100000 rows of 64 features and are cut into five blocks of 20000 rows;
  the weight W (64 by 64) and the bias b (one row of 64) are each one block seen whole at every grid point. At grid point
  t the body multiplies rows 20000·t … 20000·t + 19999 of x by all of W, lays the bias row along every row and adds it,
  adds the same rows of r, and applies the rectifier, so entry (p, q) of the block it writes back is
  lr (((sum over k < 64 of x[20000·t + p, k] · W[k, q]) + b[0, q]) + r[20000·t + p, q]): it depends on one row of x, one
  column of W, one entry of b and one entry of r. The five blocks tile the result.
-/
import proofs.«131320_j68771016343679_1_alg».proof.Proof.Gen.KernelIdeal.Frame
import proofs.«131320_j68771016343679_1_alg».proof.Proof.Spec
import proofs.«131320_j68771016343679_1_alg».proof.Proof.LibPlainContract
import Idealize.ShloMosaic.Lib.Pipeline.Value
import Idealize.ShloMosaic.Lib.ValueIdx
import Idealize.ShloMosaic.Lib.ValueLayout

noncomputable section

namespace Cert.KernelIdeal.Stage5

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access. -/
theorem zero_offsets : (![0, 0] : Fin 2 → Nat) = fun _ => 0 := funext fun a => by fin_cases a <;> rfl

/-- The body's rectifier — compare with a splat zero, multiply by a splat 0.01, select — at one entry is the
    rectifier of that entry. -/
theorem rectifier_apply {s : Shape} (v : FVec Ideal s .f32) (i : s.Idx) :
    select (cmpf .oge v (broadcast s (Scalar.ofBits (F := Ideal) .f32 0x00000000#32))) v
      (mulf (broadcast s (Scalar.ofBits (F := Ideal) .f32 0x3C23D70A#32)) v) i = Cert.Gcn.lr (v i) := rfl

/-- One entry of what the body computes: casts to the same shape are the identity, rounding to the narrower format is
    exact at extended reals, the product into the zero accumulator is the sum over the 64 shared positions, the bias row
    laid along the rows reads its entry of the same column, and the residual is added entry by entry. -/
theorem body_entry (x0 : Vec Ideal S20000x64 .f32) (x1 : Vec Ideal S64x64 .f32) (x2 : Vec Ideal S1x64 .f32)
    (x3 : Vec Ideal S20000x64 .f32) (p : Fin 20000) (q : Fin 64) :
    k5_pay1 x0 x1 x2 x3 (ix2 p q)
      = Cert.Gcn.lr (((∑ k : Fin 64, x0 (ix2 p k) * x1 (ix2 k q)) + x2 (ix2 (0 : Fin 1) q)) + x3 (ix2 p q)) := by
  unfold k5_pay1
  simp only [shapeCast_self]
  refine (rectifier_apply _ (ix2 p q)).trans (congrArg Cert.Gcn.lr ?_)
  rw [addf_apply, addf_apply]
  exact congrArg₂ (· + ·)
    (congrArg₂ (· + ·) (Cert.LibPlainContract.matmul_plain_apply 20000 64 64 none x0 x1 p q)
      (broadcastTo_1b_ab_apply x2 broadcasts_S1x64_S20000x64 p q)) rfl

/-- The printed index maps, decided once over the five grid points: the blocks of x, of the residual and of the result
    at point t are block (t, 0); the weight's block and the bias row's block are block (0, 0) at every point. -/
theorem index_maps : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0 :=
  (by decide +kernel : ∀ t : Fin grid5.N, _)

/-- Entry (p, k) of the block of x at point t is x[20000·t + p, k]: a block's coordinate is the block index times the
    block size plus the coordinate inside the block. -/
theorem x_block_apply (c : Dev nD) (t : Fin cfg5.N) (y : S20000x64.Idx) (i : S100000x64.Idx)
    (h0 : (i 0).val = 20000 * t.val + (y 0).val) (h1 : (i 1).val = (y 1).val) :
    (iblk5 V c 0 t : Vec Ideal S20000x64 .f32) y = (V c (Pipeline.arrRef spec5 0) : S100000x64.Idx → EReal) i := by
  obtain ⟨e0, e1, -⟩ := index_maps t
  unfold iblk5
  rw [View.read_apply]
  refine congrArg (V c (Pipeline.arrRef spec5 0) : S100000x64.Idx → EReal) ?_
  funext a
  apply Fin.ext
  match a with
  | ⟨0, _⟩ => show win5_0.index t (0 : Fin 2) * 20000 + 1 * (y 0).val = (i 0).val; rw [e0, h0]; omega
  | ⟨1, _⟩ => show win5_0.index t (1 : Fin 2) * 64 + 1 * (y 1).val = (i 1).val; rw [e1, h1]; omega

/-- The block of the weight at every point is the whole weight. -/
theorem w_block_apply (c : Dev nD) (t : Fin cfg5.N) (y : S64x64.Idx) :
    (iblk5 V c 1 t : Vec Ideal S64x64 .f32) y = (V c (Pipeline.arrRef spec5 1) : S64x64.Idx → EReal) y := by
  obtain ⟨-, -, e2, e3, -⟩ := index_maps t
  unfold iblk5
  rw [View.read_apply]
  refine congrArg (V c (Pipeline.arrRef spec5 1) : S64x64.Idx → EReal) ?_
  funext a
  apply Fin.ext
  match a with
  | ⟨0, _⟩ => show win5_1.index t (0 : Fin 2) * 64 + 1 * (y 0).val = (y 0).val; rw [e2]; omega
  | ⟨1, _⟩ => show win5_1.index t (1 : Fin 2) * 64 + 1 * (y 1).val = (y 1).val; rw [e3]; omega

/-- The block of the bias row at every point is the whole row. -/
theorem b_block_apply (c : Dev nD) (t : Fin cfg5.N) (y : S1x64.Idx) :
    (iblk5 V c 2 t : Vec Ideal S1x64 .f32) y = (V c (Pipeline.arrRef spec5 2) : S1x64.Idx → EReal) y := by
  obtain ⟨-, -, -, -, e4, e5, -⟩ := index_maps t
  unfold iblk5
  rw [View.read_apply]
  refine congrArg (V c (Pipeline.arrRef spec5 2) : S1x64.Idx → EReal) ?_
  funext a
  apply Fin.ext
  match a with
  | ⟨0, _⟩ => show win5_2.index t (0 : Fin 2) * 1 + 1 * (y 0).val = (y 0).val; rw [e4]; omega
  | ⟨1, _⟩ => show win5_2.index t (1 : Fin 2) * 64 + 1 * (y 1).val = (y 1).val; rw [e5]; omega

/-- Entry (p, k) of the block of the residual at point t is r[20000·t + p, k]. -/
theorem r_block_apply (c : Dev nD) (t : Fin cfg5.N) (y : S20000x64.Idx) (i : S100000x64.Idx)
    (h0 : (i 0).val = 20000 * t.val + (y 0).val) (h1 : (i 1).val = (y 1).val) :
    (iblk5 V c 3 t : Vec Ideal S20000x64 .f32) y = (V c (Pipeline.arrRef spec5 3) : S100000x64.Idx → EReal) i := by
  obtain ⟨-, -, -, -, -, -, e6, e7, -⟩ := index_maps t
  unfold iblk5
  rw [View.read_apply]
  refine congrArg (V c (Pipeline.arrRef spec5 3) : S100000x64.Idx → EReal) ?_
  funext a
  apply Fin.ext
  match a with
  | ⟨0, _⟩ => show win5_3.index t (0 : Fin 2) * 20000 + 1 * (y 0).val = (i 0).val; rw [e6, h0]; omega
  | ⟨1, _⟩ => show win5_3.index t (1 : Fin 2) * 64 + 1 * (y 1).val = (i 1).val; rw [e7, h1]; omega

/-- One entry of the block written at a point, from blocks x0 of x, x1 of W, x2 of b and x3 of r that are rows
    20000·t … of X, all of W, all of B and rows 20000·t … of R: the stage's entry at row 20000·t + p. -/
theorem block_entry (X : S100000x64.Idx → EReal) (W : S64x64.Idx → EReal) (B : S1x64.Idx → EReal)
    (R : S100000x64.Idx → EReal)
    (x0 : Vec Ideal S20000x64 .f32) (x1 : Vec Ideal S64x64 .f32) (x2 : Vec Ideal S1x64 .f32)
    (x3 : Vec Ideal S20000x64 .f32) (tv : Nat)
    (hx : ∀ (y : S20000x64.Idx) (i : S100000x64.Idx), (i 0).val = 20000 * tv + (y 0).val → (i 1).val = (y 1).val →
      x0 y = X i)
    (hw : ∀ y : S64x64.Idx, x1 y = W y) (hb : ∀ y : S1x64.Idx, x2 y = B y)
    (hr : ∀ (y : S20000x64.Idx) (i : S100000x64.Idx), (i 0).val = 20000 * tv + (y 0).val → (i 1).val = (y 1).val →
      x3 y = R i)
    (j : S20000x64.Idx) (i : S100000x64.Idx) (hi0 : (i 0).val = 20000 * tv + (j 0).val) (hi1 : (i 1).val = (j 1).val) :
    k5_pay1 x0 x1 x2 x3 j = Cert.Gcn.biasResidAct (Cert.Gcn.dense X W) B R i := by
  obtain ⟨p, q, rfl⟩ : ∃ (p : Fin 20000) (q : Fin 64), j = ix2 p q := ⟨j 0, j 1, eq_ix2 j⟩
  obtain ⟨r, s, rfl⟩ : ∃ (r : Fin 100000) (s : Fin 64), i = ix2 r s := ⟨i 0, i 1, eq_ix2 i⟩
  have hs : s = q := Fin.ext hi1
  have hsum : ∑ k : Fin 64, x0 (ix2 p k) * x1 (ix2 k q) = ∑ k : Fin 64, X (ix2 r k) * W (ix2 k q) :=
    Finset.sum_congr rfl fun k _ => by rw [hx (ix2 p k) (ix2 r k) hi0 rfl, hw]
  rw [hs, body_entry, hsum, hb, hr (ix2 p q) (ix2 r q) hi0 rfl, Cert.Gcn.biasResidAct_apply, Cert.Gcn.dense_apply]

/-- What point t writes back is block t of the stage's function of the arrays as the region finds them. -/
theorem flushed_eq (c : Dev nD) (t : Fin cfg5.N) :
    (dat5 V c).flushed 4 t = ((cfg5.win 4).blk t).view.read (Elt Ideal)
      (Cert.Gcn.biasResidAct (Cert.Gcn.dense (V c (Pipeline.arrRef spec5 0)) (V c (Pipeline.arrRef spec5 1)))
        (V c (Pipeline.arrRef spec5 2)) (V c (Pipeline.arrRef spec5 3))) := by
  show (cfg5.win 4).cut (grid5.coords t) ((dat5 V c).after 4 t) = _
  rw [after5_4]
  unfold out5_4
  rw [View.canon_unit_zero zero_offsets]
  simp only [View.ld_unit_zero (S := S20000x64) zero_offsets, View.ld_unit_zero (S := S64x64) zero_offsets,
    View.ld_unit_zero (S := S1x64) zero_offsets]
  obtain ⟨-, -, -, -, -, -, -, -, e8, e9⟩ := index_maps t
  funext j
  refine block_entry _ _ _ _ _ _ _ _ t.val (fun y i h0 h1 => x_block_apply V c t y i h0 h1)
    (fun y => w_block_apply V c t y) (fun y => b_block_apply V c t y)
    (fun y i h0 h1 => r_block_apply V c t y i h0 h1) j _ ?_ ?_
  · show win5_4.index t (0 : Fin 2) * 20000 + 1 * (j 0).val = 20000 * t.val + (j 0).val
    rw [e8]; omega
  · show win5_4.index t (1 : Fin 2) * 64 + 1 * (j 1).val = (j 1).val
    rw [e9]; omega

/-- An index of the result is in point t's block iff each coordinate is in the block's range on its axis. -/
theorem mem_block (t : Fin cfg5.N) (i : S100000x64.Idx) :
    i ∈ ((cfg5.win 4).blk t).view.set ↔ ∀ a : Fin 2, win5_4.index t a * S20000x64.size a ≤ (i a).val
      ∧ (i a).val < win5_4.index t a * S20000x64.size a + S20000x64.size a := by
  show i ∈ ((View.whole main_v66).slice (win5_4.rect t)).set ↔ _
  rw [View.set_slice_whole, Rect.mem_set_unit]
  exact Iff.rfl

/-- The five blocks tile the result: row r is in the block of point r / 20000. -/
theorem cover (i : S100000x64.Idx) :
    ∃ t : Fin cfg5.N, (cfg5.win 4).flush t = true ∧ i ∈ ((cfg5.win 4).blk t).view.set := by
  have hi0 : (i 0).val < 100000 := (i 0).isLt
  have hi1 : (i 1).val < 64 := (i 1).isLt
  have hN : grid5.N = 5 := N_5
  have ht : (i 0).val / 20000 < cfg5.N := by show (i 0).val / 20000 < grid5.N; rw [hN]; omega
  refine ⟨⟨(i 0).val / 20000, ht⟩, flush5_4 _, ?_⟩
  rw [mem_block]
  obtain ⟨-, -, -, -, -, -, -, -, e8, e9⟩ := index_maps ⟨(i 0).val / 20000, ht⟩
  intro a
  match a with
  | ⟨0, _⟩ =>
    show win5_4.index ⟨(i 0).val / 20000, ht⟩ (0 : Fin 2) * 20000 ≤ (i 0).val
      ∧ (i 0).val < win5_4.index ⟨(i 0).val / 20000, ht⟩ (0 : Fin 2) * 20000 + 20000
    rw [e8]; show (i 0).val / 20000 * 20000 ≤ (i 0).val ∧ (i 0).val < (i 0).val / 20000 * 20000 + 20000; omega
  | ⟨1, _⟩ =>
    show win5_4.index ⟨(i 0).val / 20000, ht⟩ (1 : Fin 2) * 64 ≤ (i 1).val
      ∧ (i 1).val < win5_4.index ⟨(i 0).val / 20000, ht⟩ (1 : Fin 2) * 64 + 64
    rw [e9]; omega

/-- The result array after the region is the rectifier of the dense layer plus the bias plus the residual, of the arrays
    as the region finds them. -/
theorem final (c : Dev nD) :
    (dat5 (F := Ideal) V c).arrAt 4 cfg5.N
      = Cert.Gcn.biasResidAct (Cert.Gcn.dense (V c (Pipeline.arrRef spec5 0)) (V c (Pipeline.arrRef spec5 1)))
          (V c (Pipeline.arrRef spec5 2)) (V c (Pipeline.arrRef spec5 3)) :=
  (dat5 V c).arrAt_eq_of_cover 4 _ (fun t _ => flushed_eq V c t) cover

end Cert.KernelIdeal.Stage5

end
-- ==== Proof.KValue.lean ====
/-
  The tiled program's result as one function of its ten arguments, at exact (extended real) values.

  Reading the run's boundary contents from the last region backwards: the result is the sixth stage's function of the
  fifth stage's result, a weight, a bias row and the second layer's activation; and so on down to the first dense layer
  of the node features. Between the stages the two aggregations apply the same edge sources, destinations and weights,
  computed once from the edge list.
-/
import proofs.«131320_j68771016343679_1_alg».proof.Proof.KHost
import proofs.«131320_j68771016343679_1_alg».proof.Proof.Spec
import proofs.«131320_j68771016343679_1_alg».proof.Proof.Stage0
import proofs.«131320_j68771016343679_1_alg».proof.Proof.Stage1
import proofs.«131320_j68771016343679_1_alg».proof.Proof.Stage2
import proofs.«131320_j68771016343679_1_alg».proof.Proof.Stage3
import proofs.«131320_j68771016343679_1_alg».proof.Proof.Stage4
import proofs.«131320_j68771016343679_1_alg».proof.Proof.Stage5

set_option maxRecDepth 16384

noncomputable section

namespace Cert.KernelIdeal.Named

open Cert.KernelIdeal Cert.KernelIdeal.Gen Cert.Gcn
open Idealize.ShloMosaic Idealize.ShloMosaic.TcCoe Idealize.SL.Sem

/-- The first layer: aggregate the dense layer of the node features, add the bias, activate. -/
def layer1 (x : (⟨S100000x64, .f32⟩ : BufTy).Contents (Elt Ideal)) (ei : (⟨S2x1200000, .i32⟩ : BufTy).Contents (Elt Ideal))
    (W1 : (⟨S64x64, .f32⟩ : BufTy).Contents (Elt Ideal)) (b1 : (⟨S64, .f32⟩ : BufTy).Contents (Elt Ideal)) :
    (⟨S100000x64, .f32⟩ : BufTy).Contents (Elt Ideal) :=
  biasAct (Glue.agg (Glue.src ei) (Glue.dst ei) (Glue.norm (Glue.src ei) (Glue.dst ei)) (dense x W1)) (Glue.row b1)

/-- The second layer: the same of the first layer's activation, with that activation added back before activating. -/
def layer2 (h1 : (⟨S100000x64, .f32⟩ : BufTy).Contents (Elt Ideal)) (ei : (⟨S2x1200000, .i32⟩ : BufTy).Contents (Elt Ideal))
    (W2 : (⟨S64x64, .f32⟩ : BufTy).Contents (Elt Ideal)) (b2 : (⟨S64, .f32⟩ : BufTy).Contents (Elt Ideal)) :
    (⟨S100000x64, .f32⟩ : BufTy).Contents (Elt Ideal) :=
  biasResidAct (Glue.agg (Glue.src ei) (Glue.dst ei) (Glue.norm (Glue.src ei) (Glue.dst ei)) (dense h1 W2)) (Glue.row b2) h1

/-- The two dense layers on top, the second layer's activation added back before the last activation. -/
def head (h2 : (⟨S100000x64, .f32⟩ : BufTy).Contents (Elt Ideal))
    (Wm1 : (⟨S64x64, .f32⟩ : BufTy).Contents (Elt Ideal)) (bm1 : (⟨S64, .f32⟩ : BufTy).Contents (Elt Ideal))
    (Wm2 : (⟨S64x64, .f32⟩ : BufTy).Contents (Elt Ideal)) (bm2 : (⟨S64, .f32⟩ : BufTy).Contents (Elt Ideal)) :
    (⟨S100000x64, .f32⟩ : BufTy).Contents (Elt Ideal) :=
  biasResidAct (dense (biasAct (dense h2 Wm1) (Glue.row bm1)) Wm2) (Glue.row bm2) h2

/-- The whole network as the tiled program computes it. -/
def out (x : (⟨S100000x64, .f32⟩ : BufTy).Contents (Elt Ideal)) (ei : (⟨S2x1200000, .i32⟩ : BufTy).Contents (Elt Ideal))
    (W1 : (⟨S64x64, .f32⟩ : BufTy).Contents (Elt Ideal)) (b1 : (⟨S64, .f32⟩ : BufTy).Contents (Elt Ideal))
    (W2 : (⟨S64x64, .f32⟩ : BufTy).Contents (Elt Ideal)) (b2 : (⟨S64, .f32⟩ : BufTy).Contents (Elt Ideal))
    (Wm1 : (⟨S64x64, .f32⟩ : BufTy).Contents (Elt Ideal)) (bm1 : (⟨S64, .f32⟩ : BufTy).Contents (Elt Ideal))
    (Wm2 : (⟨S64x64, .f32⟩ : BufTy).Contents (Elt Ideal)) (bm2 : (⟨S64, .f32⟩ : BufTy).Contents (Elt Ideal)) :
    (⟨S100000x64, .f32⟩ : BufTy).Contents (Elt Ideal) :=
  head (layer2 (layer1 x ei W1 b1) ei W2 b2) Wm1 bm1 Wm2 bm2

variable (m : (ℓ : Loc nD τ sig) → Buf (Elt Ideal) ℓ) (ρ : Dev nD → PrngReg)

/-- After the first region: the dense layer of the node features. -/
theorem W4_v31_val (c : Dev nD) : W4 m ρ c (Proc.devRef .tc main_v31) = dense (m ((c.tc : Thread nD τ).loc main_arg0)) (m ((c.tc : Thread nD τ).loc main_arg2)) := by
  refine (W4_arr m ρ c 2).trans ((Stage0.final (V3 m ρ) c).trans ?_)
  show dense (W3 m ρ c (Proc.devRef .tc main_arg0)) (W3 m ρ c (Proc.devRef .tc main_arg2)) = _
  rw [W3_arg0_from0, W3_arg2_from0]

theorem W5_v44_full (c : Dev nD) : W5 m ρ c (Proc.devRef .tc main_v44)
    = Glue.agg (Glue.src (m ((c.tc : Thread nD τ).loc main_arg1))) (Glue.dst (m ((c.tc : Thread nD τ).loc main_arg1))) (Glue.norm (Glue.src (m ((c.tc : Thread nD τ).loc main_arg1))) (Glue.dst (m ((c.tc : Thread nD τ).loc main_arg1)))) (dense (m ((c.tc : Thread nD τ).loc main_arg0)) (m ((c.tc : Thread nD τ).loc main_arg2))) := by
  rw [W5_v44_val, W4_v5_from1, W4_v6_from1, W4_v30_from3, W1_v5_val, W1_v6_val, W3_v30_val, W4_v31_val]

theorem W5_v45_full (c : Dev nD) : W5 m ρ c (Proc.devRef .tc main_v45) = Glue.row (m ((c.tc : Thread nD τ).loc main_arg3)) := by
  rw [W5_v45_val, W4_arg3_from0]

/-- After the second region: the first layer. -/
theorem W6_v46_val (c : Dev nD) : W6 m ρ c (Proc.devRef .tc main_v46) = layer1 (m ((c.tc : Thread nD τ).loc main_arg0)) (m ((c.tc : Thread nD τ).loc main_arg1)) (m ((c.tc : Thread nD τ).loc main_arg2)) (m ((c.tc : Thread nD τ).loc main_arg3)) := by
  refine (W6_arr m ρ c 2).trans ((Stage1.final (V5 m ρ) c).trans ?_)
  show biasAct (W5 m ρ c (Proc.devRef .tc main_v44)) (W5 m ρ c (Proc.devRef .tc main_v45)) = _
  rw [W5_v44_full, W5_v45_full]; rfl

/-- After the third region: the dense layer of the first layer. -/
theorem W7_v47_val (c : Dev nD) : W7 m ρ c (Proc.devRef .tc main_v47) = dense (layer1 (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) := by
  refine (W7_arr m ρ c 2).trans ((Stage2.final (V6 m ρ) c).trans ?_)
  show dense (W6 m ρ c (Proc.devRef .tc main_v46)) (W6 m ρ c (Proc.devRef .tc main_arg4)) = _
  rw [W6_v46_val, W6_arg4_from0]

theorem W8_v60_full (c : Dev nD) : W8 m ρ c (Proc.devRef .tc main_v60)
    = Glue.agg (Glue.src (m ((c.tc : Thread nD τ).loc main_arg1))) (Glue.dst (m ((c.tc : Thread nD τ).loc main_arg1))) (Glue.norm (Glue.src (m ((c.tc : Thread nD τ).loc main_arg1))) (Glue.dst (m ((c.tc : Thread nD τ).loc main_arg1))))
        (dense (layer1 (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))) := by
  rw [W8_v60_val, W7_v5_from1, W7_v6_from1, W7_v30_from3, W1_v5_val, W1_v6_val, W3_v30_val, W7_v47_val]

theorem W8_v61_full (c : Dev nD) : W8 m ρ c (Proc.devRef .tc main_v61) = Glue.row (m ((c.tc : Thread nD τ).loc main_arg5)) := by
  rw [W8_v61_val, W7_arg5_from0]

/-- After the fourth region: the second layer. -/
theorem W9_v62_val (c : Dev nD) : W9 m ρ c (Proc.devRef .tc main_v62)
    = layer2 (layer1 (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg1)) (m ((c.tc : Thread nD τ).loc main_arg4)) (m ((c.tc : Thread nD τ).loc main_arg5)) := by
  refine (W9_arr m ρ c 3).trans ((Stage3.final (V8 m ρ) c).trans ?_)
  show biasResidAct (W8 m ρ c (Proc.devRef .tc main_v60)) (W8 m ρ c (Proc.devRef .tc main_v61)) (W8 m ρ c (Proc.devRef .tc main_v46)) = _
  rw [W8_v60_full, W8_v61_full, W8_v46_from6, W6_v46_val]; rfl

theorem W10_v63_full (c : Dev nD) : W10 m ρ c (Proc.devRef .tc main_v63) = Glue.row (m ((c.tc : Thread nD τ).loc main_arg7)) := by
  rw [W10_v63_val, W9_arg7_from0]

/-- After the fifth region: the first dense layer on top, with its bias, activated. -/
theorem W11_v64_val (c : Dev nD) : W11 m ρ c (Proc.devRef .tc main_v64)
    = biasAct (dense (layer2 (layer1 (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg1)) (m ((c.tc : Thread nD τ).loc main_arg4)) (m ((c.tc : Thread nD τ).loc main_arg5))) (m ((c.tc : Thread nD τ).loc main_arg6))) (Glue.row (m ((c.tc : Thread nD τ).loc main_arg7))) := by
  refine (W11_arr m ρ c 3).trans ((Stage4.final (V10 m ρ) c).trans ?_)
  show biasAct (dense (W10 m ρ c (Proc.devRef .tc main_v62)) (W10 m ρ c (Proc.devRef .tc main_arg6))) (W10 m ρ c (Proc.devRef .tc main_v63)) = _
  rw [W10_v62_from9, W9_v62_val, W10_arg6_from0, W10_v63_full]

theorem W12_v65_full (c : Dev nD) : W12 m ρ c (Proc.devRef .tc main_v65) = Glue.row (m ((c.tc : Thread nD τ).loc main_arg9)) := by
  rw [W12_v65_val, W11_arg9_from0]

/-- After the last region: the whole network. -/
theorem W13_v66_val (c : Dev nD) : W13 m ρ c (Proc.devRef .tc main_v66) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (W13_arr m ρ c 4).trans ((Stage5.final (V12 m ρ) c).trans ?_)
  show biasResidAct (dense (W12 m ρ c (Proc.devRef .tc main_v64)) (W12 m ρ c (Proc.devRef .tc main_arg8))) (W12 m ρ c (Proc.devRef .tc main_v65)) (W12 m ρ c (Proc.devRef .tc main_v62)) = _
  rw [W12_v64_from11, W11_v64_val, W12_arg8_from0, W12_v65_full, W12_v62_from9, W9_v62_val]; rfl

/-- Every weakly fair execution of the tiled program terminates, nothing faulting, with the result at the network's
    function of the arguments and the arguments unchanged. -/
theorem run : θ_run defs (onTc (τ := τ) (main (F := Ideal))) ⟨m, fun _ => 0, ρ⟩ (fun r => ∀ c : Dev nD,
      r.2.mem ((c.tc : Thread nD τ).loc main_v66) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (W13_v66_val m ρ c), (h c).2⟩) (run_named m ρ)

end Cert.KernelIdeal.Named

end
-- ==== Proof.RefRun.lean ====
/-
  The reference program's run. Its entry function is a straight line of host tensor operations; three of the
  helper functions it calls (an elementwise select at two shapes, and a leaky rectifier that itself calls the
  second select) are substituted at their six call sites, each over that call's own buffers, which is what
  inlining the calls means. The result is one list of 156 operations, in program order. The entry function equals
  the sequencing of that list, every operation touches device buffers only and allocates nothing fresh, and so
  every weakly fair execution from any memory with zero counters terminates with each buffer holding the fold of
  the operations' results over the contents it was launched with.
-/
import proofs.«131320_j68771016343679_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
set_option maxRecDepth 8192 in
/-- The entry function's 156 operations, in order; a called function's operations stand at the call, over the
    buffers of that call (the leaky rectifier: the zero constant, its broadcast, the comparison with it, the slope
    converted and broadcast, the product, then the select; a bare select: the one operation). -/
abbrev ops : List (HloOp τ sig (Elt F)) :=
  [
    StableHlo.unary main_arg1 main_v0 ((extractStridedSlice S1x1200000 ![0, 0] · slices_S2x1200000_S1x1200000_0_0) : (⟨S2x1200000, .i32⟩ : BufTy).Contents (Elt F) → (⟨S1x1200000, .i32⟩ : BufTy).Contents (Elt F)),
    StableHlo.reshape main_v0 main_v1 rfl shapeCasts_S1x1200000_S1200000,
    StableHlo.unary main_arg1 main_v2 ((extractStridedSlice S1x1200000 ![1, 0] · slices_S2x1200000_S1x1200000_1_0) : (⟨S2x1200000, .i32⟩ : BufTy).Contents (Elt F) → (⟨S1x1200000, .i32⟩ : BufTy).Contents (Elt F)),
    StableHlo.reshape main_v2 main_v3 rfl shapeCasts_S1x1200000_S1200000,
    StableHlo.nullary main_v4 (iotaInDim S100000 32 0),
    StableHlo.binary main_v1 main_v4 main_v5 ((fun a b => concatenate S1300000 0 [⟨S1200000, a⟩, ⟨S100000, b⟩] concatenates_S1200000_S100000_S1300000_d0) : (⟨S1200000, .i32⟩ : BufTy).Contents (Elt F) → (⟨S100000, .i32⟩ : BufTy).Contents (Elt F) → (⟨S1300000, .i32⟩ : BufTy).Contents (Elt F)),
    StableHlo.binary main_v3 main_v4 main_v6 ((fun a b => concatenate S1300000 0 [⟨S1200000, a⟩, ⟨S100000, b⟩] concatenates_S1200000_S100000_S1300000_d0) : (⟨S1200000, .i32⟩ : BufTy).Contents (Elt F) → (⟨S100000, .i32⟩ : BufTy).Contents (Elt F) → (⟨S1300000, .i32⟩ : BufTy).Contents (Elt F)),
    StableHlo.nullary main_cst (constant S_ .f32 0x3F800000#32),
    StableHlo.unary main_cst main_v7 (broadcastInDim S1300000 ![] bcast_S_S1300000 : (⟨S_, .f32⟩ : BufTy).Contents (Elt F) → (⟨S1300000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1300000x1 ![0] bcast_S1300000_S1300000x1_0 : (⟨S1300000, .i32⟩ : BufTy).Contents (Elt F) → (⟨S1300000x1, .i32⟩ : BufTy).Contents (Elt F)),
    StableHlo.ternary main_v8 main_v9 main_v7 main_v10 ((fun x i u => Host.scatterAdd scatter_S100000_S1300000x1_S1300000_n_0_0_1 x i u) : (⟨S100000, .f32⟩ : BufTy).Contents (Elt F) → (⟨S1300000x1, .i32⟩ : BufTy).Contents (Elt F) → (⟨S1300000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.unary main_v10 main_v13 (Host.rsqrt : (⟨S100000, .f32⟩ : BufTy).Contents (Elt F) → (⟨S100000, .f32⟩ : BufTy).Contents (Elt F)),
    StableHlo.nullary main_cst_2 (constant S_ .f32 0x00000000#32),
    StableHlo.unary main_cst_2 main_v14 (broadcastInDim S100000 ![] bcast_S_S100000 : (⟨S_, .f32⟩ : BufTy).Contents (Elt F) → (⟨S100000, .f32⟩ : BufTy).Contents (Elt F)),
    StableHlo.TRef.ternary (.of main_v12) (.of main_v13) (.of main_v14) main_call0.v0 select,
    StableHlo.nullary main_c (constantI S_ 32 0#32),
    StableHlo.unary main_c main_v16 (broadcastInDim S1300000 ![] bcast_S_S1300000 : (⟨S_, .i32⟩ : BufTy).Contents (Elt F) → (⟨S1300000, .i32⟩ : BufTy).Contents (Elt F)),
    StableHlo.binary main_v5 main_v16 main_v17 (cmpi .slt : (⟨S1300000, .i32⟩ : BufTy).Contents (Elt F) → (⟨S1300000, .i32⟩ : BufTy).Contents (Elt F) → (⟨S1300000, .i1⟩ : BufTy).Contents (Elt F)),
    StableHlo.nullary main_c_3 (constantI S_ 32 100000#32),
    StableHlo.unary main_c_3 main_v18 (broadcastInDim S1300000 ![] bcast_S_S1300000 : (⟨S_, .i32⟩ : BufTy).Contents (Elt F) → (⟨S1300000, .i32⟩ : BufTy).Contents (Elt F)),
    StableHlo.binary main_v5 main_v18 main_v19 (addi : (⟨S1300000, .i32⟩ : BufTy).Contents (Elt F) → (⟨S1300000, .i32⟩ : BufTy).Contents (Elt F) → (⟨S1300000, .i32⟩ : BufTy).Contents (Elt F)),
    StableHlo.ternary main_v17 main_v19 main_v5 main_v20 (select : (⟨S1300000, .i1⟩ : BufTy).Contents (Elt F) → (⟨S1300000, .i32⟩ : BufTy).Contents (Elt F) → (⟨S1300000, .i32⟩ : BufTy).Contents (Elt F) → (⟨S1300000, .i32⟩ : BufTy).Contents (Elt F)),
    StableHlo.unary main_v20 main_v21 (broadcastInDim S1300000x1 ![0] bcast_S1300000_S1300000x1_0 : (⟨S1300000, .i32⟩ : BufTy).Contents (Elt F) → (⟨S1300000x1, .i32⟩ : BufTy).Contents (Elt F)),
    StableHlo.binary main_v15 main_v21 main_v22 ((fun x i => Host.gather gather_S100000_S1300000x1_S1300000_n_0_n_n_0_1_1 x i) : (⟨S100000, .f32⟩ : BufTy).Contents (Elt F) → (⟨S1300000x1, .i32⟩ : BufTy).Contents (Elt F) → (⟨S1300000, .f32⟩ : BufTy).Contents (Elt F)),
    StableHlo.nullary main_c_4 (constantI S_ 32 0#32),
    StableHlo.unary main_c_4 main_v23 (broadcastInDim S1300000 ![] bcast_S_S1300000 : (⟨S_, .i32⟩ : BufTy).Contents (Elt F) → (⟨S1300000, .i32⟩ : BufTy).Contents (Elt F)),
    StableHlo.binary main_v6 main_v23 main_v24 (cmpi .slt : (⟨S1300000, .i32⟩ : BufTy).Contents (Elt F) → (⟨S1300000, .i32⟩ : BufTy).Contents (Elt F) → (⟨S1300000, .i1⟩ : BufTy).Contents (Elt F)),
    StableHlo.nullary main_c_5 (constantI S_ 32 100000#32),
    StableHlo.unary main_c_5 main_v25 (broadcastInDim S1300000 ![] bcast_S_S1300000 : (⟨S_, .i32⟩ : BufTy).Contents (Elt F) → (⟨S1300000, .i32⟩ : BufTy).Contents (Elt F)),
    StableHlo.binary main_v6 main_v25 main_v26 (addi : (⟨S1300000, .i32⟩ : BufTy).Contents (Elt F) → (⟨S1300000, .i32⟩ : BufTy).Contents (Elt F) → (⟨S1300000, .i32⟩ : BufTy).Contents (Elt F)),
    StableHlo.ternary main_v24 main_v26 main_v6 main_v27 (select : (⟨S1300000, .i1⟩ : BufTy).Contents (Elt F) → (⟨S1300000, .i32⟩ : BufTy).Contents (Elt F) → (⟨S1300000, .i32⟩ : BufTy).Contents (Elt F) → (⟨S1300000, .i32⟩ : BufTy).Contents (Elt F)),
    StableHlo.unary main_v27 main_v28 (broadcastInDim S1300000x1 ![0] bcast_S1300000_S1300000x1_0 : (⟨S1300000, .i32⟩ : BufTy).Contents (Elt F) → (⟨S1300000x1, .i32⟩ : BufTy).Contents (Elt F)),
    StableHlo.binary main_v15 main_v28 main_v29 ((fun x i => Host.gather gather_S100000_S1300000x1_S1300000_n_0_n_n_0_1_1 x i) : (⟨S100000, .f32⟩ : BufTy).Contents (Elt F) → (⟨S1300000x1, .i32⟩ : BufTy).Contents (Elt F) → (⟨S1300000, .f32⟩ : BufTy).Contents (Elt F)),
    StableHlo.binary main_v22 main_v29 main_v30 (mulf : (⟨S1300000, .f32⟩ : BufTy).Contents (Elt F) → (⟨S1300000, .f32⟩ : BufTy).Contents (Elt F) → (⟨S1300000, .f32⟩ : BufTy).Contents (Elt F)),
    StableHlo.binary main_arg0 main_arg2 main_v31 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_6 (constantI S_ 32 0#32),
    StableHlo.unary main_c_6 main_v32 (broadcastInDim S1300000 ![] bcast_S_S1300000 : (⟨S_, .i32⟩ : BufTy).Contents (Elt F) → (⟨S1300000, .i32⟩ : BufTy).Contents (Elt F)),
    StableHlo.binary main_v5 main_v32 main_v33 (cmpi .slt : (⟨S1300000, .i32⟩ : BufTy).Contents (Elt F) → (⟨S1300000, .i32⟩ : BufTy).Contents (Elt F) → (⟨S1300000, .i1⟩ : BufTy).Contents (Elt F)),
    StableHlo.nullary main_c_7 (constantI S_ 32 100000#32),
    StableHlo.unary main_c_7 main_v34 (broadcastInDim S1300000 ![] bcast_S_S1300000 : (⟨S_, .i32⟩ : BufTy).Contents (Elt F) → (⟨S1300000, .i32⟩ : BufTy).Contents (Elt F)),
    StableHlo.binary main_v5 main_v34 main_v35 (addi : (⟨S1300000, .i32⟩ : BufTy).Contents (Elt F) → (⟨S1300000, .i32⟩ : BufTy).Contents (Elt F) → (⟨S1300000, .i32⟩ : BufTy).Contents (Elt F)),
    StableHlo.ternary main_v33 main_v35 main_v5 main_v36 (select : (⟨S1300000, .i1⟩ : BufTy).Contents (Elt F) → (⟨S1300000, .i32⟩ : BufTy).Contents (Elt F) → (⟨S1300000, .i32⟩ : BufTy).Contents (Elt F) → (⟨S1300000, .i32⟩ : BufTy).Contents (Elt F)),
    StableHlo.unary main_v36 main_v37 (broadcastInDim S1300000x1 ![0] bcast_S1300000_S1300000x1_0 : (⟨S1300000, .i32⟩ : BufTy).Contents (Elt F) → (⟨S1300000x1, .i32⟩ : BufTy).Contents (Elt F)),
    StableHlo.binary main_v31 main_v37 main_v38 ((fun x i => Host.gather gather_S100000x64_S1300000x1_S1300000x64_1_0_n_n_0_1_164 x i) : (⟨S100000x64, .f32⟩ : BufTy).Contents (Elt F) → (⟨S1300000x1, .i32⟩ : BufTy).Contents (Elt F) → (⟨S1300000x64, .f32⟩ : BufTy).Contents (Elt F)),
    StableHlo.unary main_v30 main_v39 (broadcastInDim S1300000x1 ![0] bcast_S1300000_S1300000x1_0 : (⟨S1300000, .f32⟩ : BufTy).Contents (Elt F) → (⟨S1300000x1, .f32⟩ : BufTy).Contents (Elt F)),
    StableHlo.unary main_v39 main_v40 (broadcastInDim S1300000x64 ![0, 1] bcast_S1300000x1_S1300000x64_0_1 : (⟨S1300000x1, .f32⟩ : BufTy).Contents (Elt F) → (⟨S1300000x64, .f32⟩ : BufTy).Contents (Elt F)),
    StableHlo.binary main_v38 main_v40 main_v41 (mulf : (⟨S1300000x64, .f32⟩ : BufTy).Contents (Elt F) → (⟨S1300000x64, .f32⟩ : BufTy).Contents (Elt F) → (⟨S1300000x64, .f32⟩ : BufTy).Contents (Elt F)),
    StableHlo.nullary main_cst_8 (constant S_ .f32 0x00000000#32),
    StableHlo.unary main_cst_8 main_v42 (broadcastInDim S100000x64 ![] bcast_S_S100000x64 : (⟨S_, .f32⟩ : BufTy).Contents (Elt F) → (⟨S100000x64, .f32⟩ : BufTy).Contents (Elt F)),
    StableHlo.unary main_v6 main_v43 (broadcastInDim S1300000x1 ![0] bcast_S1300000_S1300000x1_0 : (⟨S1300000, .i32⟩ : BufTy).Contents (Elt F) → (⟨S1300000x1, .i32⟩ : BufTy).Contents (Elt F)),
    StableHlo.ternary main_v42 main_v43 main_v41 main_v44 ((fun x i u => Host.scatterAdd scatter_S100000x64_S1300000x1_S1300000x64_1_0_0_1 x i u) : (⟨S100000x64, .f32⟩ : BufTy).Contents (Elt F) → (⟨S1300000x1, .i32⟩ : BufTy).Contents (Elt F) → (⟨S1300000x64, .f32⟩ : BufTy).Contents (Elt F) → (⟨S100000x64, .f32⟩ : BufTy).Contents (Elt F)),
    StableHlo.unary main_arg3 main_v45 (broadcastInDim S1x64 ![1] bcast_S64_S1x64_1 : (⟨S64, .f32⟩ : BufTy).Contents (Elt F) → (⟨S1x64, .f32⟩ : BufTy).Contents (Elt F)),
    StableHlo.unary main_v45 main_v46 (broadcastInDim S100000x64 ![0, 1] bcast_S1x64_S100000x64_0_1 : (⟨S1x64, .f32⟩ : BufTy).Contents (Elt F) → (⟨S100000x64, .f32⟩ : BufTy).Contents (Elt F)),
    StableHlo.binary main_v44 main_v46 main_v47 (addf : (⟨S100000x64, .f32⟩ : BufTy).Contents (Elt F) → (⟨S100000x64, .f32⟩ : BufTy).Contents (Elt F) → (⟨S100000x64, .f32⟩ : BufTy).Contents (Elt F)),
    StableHlo.nullary main_cst_9 (constant S_ .f32 0x3C23D70A#32),
    StableHlo.TRef.nullary main_call1.cst (constant S_ .f32 0x00000000#32),
    StableHlo.TRef.unary main_call1.cst main_call1.v0 (broadcastInDim S100000x64 ![] bcast_S_S100000x64),
    StableHlo.TRef.binary (.of main_v47) main_call1.v0 main_call1.v1 (cmpf .oge),
    StableHlo.TRef.unary (.of main_cst_9) main_call1.v2 id,
    StableHlo.TRef.unary main_call1.v2 main_call1.v3 (broadcastInDim S100000x64 ![] bcast_S_S100000x64),
    StableHlo.TRef.binary main_call1.v3 (.of main_v47) main_call1.v4 mulf,
    StableHlo.TRef.ternary main_call1.v1 (.of main_v47) main_call1.v4 main_call1.call0.v0 select,
    StableHlo.nullary main_v49 (iotaInDim S100000 32 0),
    StableHlo.binary main_v1 main_v49 main_v50 ((fun a b => concatenate S1300000 0 [⟨S1200000, a⟩, ⟨S100000, b⟩] concatenates_S1200000_S100000_S1300000_d0) : (⟨S1200000, .i32⟩ : BufTy).Contents (Elt F) → (⟨S100000, .i32⟩ : BufTy).Contents (Elt F) → (⟨S1300000, .i32⟩ : BufTy).Contents (Elt F)),
    StableHlo.binary main_v3 main_v49 main_v51 ((fun a b => concatenate S1300000 0 [⟨S1200000, a⟩, ⟨S100000, b⟩] concatenates_S1200000_S100000_S1300000_d0) : (⟨S1200000, .i32⟩ : BufTy).Contents (Elt F) → (⟨S100000, .i32⟩ : BufTy).Contents (Elt F) → (⟨S1300000, .i32⟩ : BufTy).Contents (Elt F)),
    StableHlo.nullary main_cst_10 (constant S_ .f32 0x3F800000#32),
    StableHlo.unary main_cst_10 main_v52 (broadcastInDim S1300000 ![] bcast_S_S1300000 : (⟨S_, .f32⟩ : BufTy).Contents (Elt F) → (⟨S1300000, .f32⟩ : BufTy).Contents (Elt F)),
    StableHlo.nullary main_cst_11 (constant S_ .f32 0x00000000#32),
    StableHlo.unary main_cst_11 main_v53 (broadcastInDim S100000 ![] bcast_S_S100000 : (⟨S_, .f32⟩ : BufTy).Contents (Elt F) → (⟨S100000, .f32⟩ : BufTy).Contents (Elt F)),
    StableHlo.unary main_v51 main_v54 (broadcastInDim S1300000x1 ![0] bcast_S1300000_S1300000x1_0 : (⟨S1300000, .i32⟩ : BufTy).Contents (Elt F) → (⟨S1300000x1, .i32⟩ : BufTy).Contents (Elt F)),
    StableHlo.ternary main_v53 main_v54 main_v52 main_v55 ((fun x i u => Host.scatterAdd scatter_S100000_S1300000x1_S1300000_n_0_0_1 x i u) : (⟨S100000, .f32⟩ : BufTy).Contents (Elt F) → (⟨S1300000x1, .i32⟩ : BufTy).Contents (Elt F) → (⟨S1300000, .f32⟩ : BufTy).Contents (Elt F) → (⟨S100000, .f32⟩ : BufTy).Contents (Elt F)),
    StableHlo.nullary main_cst_12 (constant S_ .f32 0x00000000#32),
    StableHlo.unary main_cst_12 main_v56 (broadcastInDim S100000 ![] bcast_S_S100000 : (⟨S_, .f32⟩ : BufTy).Contents (Elt F) → (⟨S100000, .f32⟩ : BufTy).Contents (Elt F)),
    StableHlo.binary main_v55 main_v56 main_v57 (cmpf .ogt : (⟨S100000, .f32⟩ : BufTy).Contents (Elt F) → (⟨S100000, .f32⟩ : BufTy).Contents (Elt F) → (⟨S100000, .i1⟩ : BufTy).Contents (Elt F)),
    StableHlo.unary main_v55 main_v58 (Host.rsqrt : (⟨S100000, .f32⟩ : BufTy).Contents (Elt F) → (⟨S100000, .f32⟩ : BufTy).Contents (Elt F)),
    StableHlo.nullary main_cst_13 (constant S_ .f32 0x00000000#32),
    StableHlo.unary main_cst_13 main_v59 (broadcastInDim S100000 ![] bcast_S_S100000 : (⟨S_, .f32⟩ : BufTy).Contents (Elt F) → (⟨S100000, .f32⟩ : BufTy).Contents (Elt F)),
    StableHlo.TRef.ternary (.of main_v57) (.of main_v58) (.of main_v59) main_call2.v0 select,
    StableHlo.nullary main_c_14 (constantI S_ 32 0#32),
    StableHlo.unary main_c_14 main_v61 (broadcastInDim S1300000 ![] bcast_S_S1300000 : (⟨S_, .i32⟩ : BufTy).Contents (Elt F) → (⟨S1300000, .i32⟩ : BufTy).Contents (Elt F)),
    StableHlo.binary main_v50 main_v61 main_v62 (cmpi .slt : (⟨S1300000, .i32⟩ : BufTy).Contents (Elt F) → (⟨S1300000, .i32⟩ : BufTy).Contents (Elt F) → (⟨S1300000, .i1⟩ : BufTy).Contents (Elt F)),
    StableHlo.nullary main_c_15 (constantI S_ 32 100000#32),
    StableHlo.unary main_c_15 main_v63 (broadcastInDim S1300000 ![] bcast_S_S1300000 : (⟨S_, .i32⟩ : BufTy).Contents (Elt F) → (⟨S1300000, .i32⟩ : BufTy).Contents (Elt F)),
    StableHlo.binary main_v50 main_v63 main_v64 (addi : (⟨S1300000, .i32⟩ : BufTy).Contents (Elt F) → (⟨S1300000, .i32⟩ : BufTy).Contents (Elt F) → (⟨S1300000, .i32⟩ : BufTy).Contents (Elt F)),
    StableHlo.ternary main_v62 main_v64 main_v50 main_v65 (select : (⟨S1300000, .i1⟩ : BufTy).Contents (Elt F) → (⟨S1300000, .i32⟩ : BufTy).Contents (Elt F) → (⟨S1300000, .i32⟩ : BufTy).Contents (Elt F) → (⟨S1300000, .i32⟩ : BufTy).Contents (Elt F)),
    StableHlo.unary main_v65 main_v66 (broadcastInDim S1300000x1 ![0] bcast_S1300000_S1300000x1_0 : (⟨S1300000, .i32⟩ : BufTy).Contents (Elt F) → (⟨S1300000x1, .i32⟩ : BufTy).Contents (Elt F)),
    StableHlo.binary main_v60 main_v66 main_v67 ((fun x i => Host.gather gather_S100000_S1300000x1_S1300000_n_0_n_n_0_1_1 x i) : (⟨S100000, .f32⟩ : BufTy).Contents (Elt F) → (⟨S1300000x1, .i32⟩ : BufTy).Contents (Elt F) → (⟨S1300000, .f32⟩ : BufTy).Contents (Elt F)),
    StableHlo.nullary main_c_16 (constantI S_ 32 0#32),
    StableHlo.unary main_c_16 main_v68 (broadcastInDim S1300000 ![] bcast_S_S1300000 : (⟨S_, .i32⟩ : BufTy).Contents (Elt F) → (⟨S1300000, .i32⟩ : BufTy).Contents (Elt F)),
    StableHlo.binary main_v51 main_v68 main_v69 (cmpi .slt : (⟨S1300000, .i32⟩ : BufTy).Contents (Elt F) → (⟨S1300000, .i32⟩ : BufTy).Contents (Elt F) → (⟨S1300000, .i1⟩ : BufTy).Contents (Elt F)),
    StableHlo.nullary main_c_17 (constantI S_ 32 100000#32),
    StableHlo.unary main_c_17 main_v70 (broadcastInDim S1300000 ![] bcast_S_S1300000 : (⟨S_, .i32⟩ : BufTy).Contents (Elt F) → (⟨S1300000, .i32⟩ : BufTy).Contents (Elt F)),
    StableHlo.binary main_v51 main_v70 main_v71 (addi : (⟨S1300000, .i32⟩ : BufTy).Contents (Elt F) → (⟨S1300000, .i32⟩ : BufTy).Contents (Elt F) → (⟨S1300000, .i32⟩ : BufTy).Contents (Elt F)),
    StableHlo.ternary main_v69 main_v71 main_v51 main_v72 (select : (⟨S1300000, .i1⟩ : BufTy).Contents (Elt F) → (⟨S1300000, .i32⟩ : BufTy).Contents (Elt F) → (⟨S1300000, .i32⟩ : BufTy).Contents (Elt F) → (⟨S1300000, .i32⟩ : BufTy).Contents (Elt F)),
    StableHlo.unary main_v72 main_v73 (broadcastInDim S1300000x1 ![0] bcast_S1300000_S1300000x1_0 : (⟨S1300000, .i32⟩ : BufTy).Contents (Elt F) → (⟨S1300000x1, .i32⟩ : BufTy).Contents (Elt F)),
    StableHlo.binary main_v60 main_v73 main_v74 ((fun x i => Host.gather gather_S100000_S1300000x1_S1300000_n_0_n_n_0_1_1 x i) : (⟨S100000, .f32⟩ : BufTy).Contents (Elt F) → (⟨S1300000x1, .i32⟩ : BufTy).Contents (Elt F) → (⟨S1300000, .f32⟩ : BufTy).Contents (Elt F)),
    StableHlo.binary main_v67 main_v74 main_v75 (mulf : (⟨S1300000, .f32⟩ : BufTy).Contents (Elt F) → (⟨S1300000, .f32⟩ : BufTy).Contents (Elt F) → (⟨S1300000, .f32⟩ : BufTy).Contents (Elt F)),
    StableHlo.binary main_v48 main_arg4 main_v76 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_18 (constantI S_ 32 0#32),
    StableHlo.unary main_c_18 main_v77 (broadcastInDim S1300000 ![] bcast_S_S1300000 : (⟨S_, .i32⟩ : BufTy).Contents (Elt F) → (⟨S1300000, .i32⟩ : BufTy).Contents (Elt F)),
    StableHlo.binary main_v50 main_v77 main_v78 (cmpi .slt : (⟨S1300000, .i32⟩ : BufTy).Contents (Elt F) → (⟨S1300000, .i32⟩ : BufTy).Contents (Elt F) → (⟨S1300000, .i1⟩ : BufTy).Contents (Elt F)),
    StableHlo.nullary main_c_19 (constantI S_ 32 100000#32),
    StableHlo.unary main_c_19 main_v79 (broadcastInDim S1300000 ![] bcast_S_S1300000 : (⟨S_, .i32⟩ : BufTy).Contents (Elt F) → (⟨S1300000, .i32⟩ : BufTy).Contents (Elt F)),
    StableHlo.binary main_v50 main_v79 main_v80 (addi : (⟨S1300000, .i32⟩ : BufTy).Contents (Elt F) → (⟨S1300000, .i32⟩ : BufTy).Contents (Elt F) → (⟨S1300000, .i32⟩ : BufTy).Contents (Elt F)),
    StableHlo.ternary main_v78 main_v80 main_v50 main_v81 (select : (⟨S1300000, .i1⟩ : BufTy).Contents (Elt F) → (⟨S1300000, .i32⟩ : BufTy).Contents (Elt F) → (⟨S1300000, .i32⟩ : BufTy).Contents (Elt F) → (⟨S1300000, .i32⟩ : BufTy).Contents (Elt F)),
    StableHlo.unary main_v81 main_v82 (broadcastInDim S1300000x1 ![0] bcast_S1300000_S1300000x1_0 : (⟨S1300000, .i32⟩ : BufTy).Contents (Elt F) → (⟨S1300000x1, .i32⟩ : BufTy).Contents (Elt F)),
    StableHlo.binary main_v76 main_v82 main_v83 ((fun x i => Host.gather gather_S100000x64_S1300000x1_S1300000x64_1_0_n_n_0_1_164 x i) : (⟨S100000x64, .f32⟩ : BufTy).Contents (Elt F) → (⟨S1300000x1, .i32⟩ : BufTy).Contents (Elt F) → (⟨S1300000x64, .f32⟩ : BufTy).Contents (Elt F)),
    StableHlo.unary main_v75 main_v84 (broadcastInDim S1300000x1 ![0] bcast_S1300000_S1300000x1_0 : (⟨S1300000, .f32⟩ : BufTy).Contents (Elt F) → (⟨S1300000x1, .f32⟩ : BufTy).Contents (Elt F)),
    StableHlo.unary main_v84 main_v85 (broadcastInDim S1300000x64 ![0, 1] bcast_S1300000x1_S1300000x64_0_1 : (⟨S1300000x1, .f32⟩ : BufTy).Contents (Elt F) → (⟨S1300000x64, .f32⟩ : BufTy).Contents (Elt F)),
    StableHlo.binary main_v83 main_v85 main_v86 (mulf : (⟨S1300000x64, .f32⟩ : BufTy).Contents (Elt F) → (⟨S1300000x64, .f32⟩ : BufTy).Contents (Elt F) → (⟨S1300000x64, .f32⟩ : BufTy).Contents (Elt F)),
    StableHlo.nullary main_cst_20 (constant S_ .f32 0x00000000#32),
    StableHlo.unary main_cst_20 main_v87 (broadcastInDim S100000x64 ![] bcast_S_S100000x64 : (⟨S_, .f32⟩ : BufTy).Contents (Elt F) → (⟨S100000x64, .f32⟩ : BufTy).Contents (Elt F)),
    StableHlo.unary main_v51 main_v88 (broadcastInDim S1300000x1 ![0] bcast_S1300000_S1300000x1_0 : (⟨S1300000, .i32⟩ : BufTy).Contents (Elt F) → (⟨S1300000x1, .i32⟩ : BufTy).Contents (Elt F)),
    StableHlo.ternary main_v87 main_v88 main_v86 main_v89 ((fun x i u => Host.scatterAdd scatter_S100000x64_S1300000x1_S1300000x64_1_0_0_1 x i u) : (⟨S100000x64, .f32⟩ : BufTy).Contents (Elt F) → (⟨S1300000x1, .i32⟩ : BufTy).Contents (Elt F) → (⟨S1300000x64, .f32⟩ : BufTy).Contents (Elt F) → (⟨S100000x64, .f32⟩ : BufTy).Contents (Elt F)),
    StableHlo.unary main_arg5 main_v90 (broadcastInDim S1x64 ![1] bcast_S64_S1x64_1 : (⟨S64, .f32⟩ : BufTy).Contents (Elt F) → (⟨S1x64, .f32⟩ : BufTy).Contents (Elt F)),
    StableHlo.unary main_v90 main_v91 (broadcastInDim S100000x64 ![0, 1] bcast_S1x64_S100000x64_0_1 : (⟨S1x64, .f32⟩ : BufTy).Contents (Elt F) → (⟨S100000x64, .f32⟩ : BufTy).Contents (Elt F)),
    StableHlo.binary main_v89 main_v91 main_v92 (addf : (⟨S100000x64, .f32⟩ : BufTy).Contents (Elt F) → (⟨S100000x64, .f32⟩ : BufTy).Contents (Elt F) → (⟨S100000x64, .f32⟩ : BufTy).Contents (Elt F)),
    StableHlo.binary main_v92 main_v48 main_v93 (addf : (⟨S100000x64, .f32⟩ : BufTy).Contents (Elt F) → (⟨S100000x64, .f32⟩ : BufTy).Contents (Elt F) → (⟨S100000x64, .f32⟩ : BufTy).Contents (Elt F)),
    StableHlo.nullary main_cst_21 (constant S_ .f32 0x3C23D70A#32),
    StableHlo.TRef.nullary main_call3.cst (constant S_ .f32 0x00000000#32),
    StableHlo.TRef.unary main_call3.cst main_call3.v0 (broadcastInDim S100000x64 ![] bcast_S_S100000x64),
    StableHlo.TRef.binary (.of main_v93) main_call3.v0 main_call3.v1 (cmpf .oge),
    StableHlo.TRef.unary (.of main_cst_21) main_call3.v2 id,
    StableHlo.TRef.unary main_call3.v2 main_call3.v3 (broadcastInDim S100000x64 ![] bcast_S_S100000x64),
    StableHlo.TRef.binary main_call3.v3 (.of main_v93) main_call3.v4 mulf,
    StableHlo.TRef.ternary main_call3.v1 (.of main_v93) main_call3.v4 main_call3.call0.v0 select,
    StableHlo.binary main_v94 main_arg6 main_v95 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg7 main_v96 (broadcastInDim S1x64 ![1] bcast_S64_S1x64_1 : (⟨S64, .f32⟩ : BufTy).Contents (Elt F) → (⟨S1x64, .f32⟩ : BufTy).Contents (Elt F)),
    StableHlo.unary main_v96 main_v97 (broadcastInDim S100000x64 ![0, 1] bcast_S1x64_S100000x64_0_1 : (⟨S1x64, .f32⟩ : BufTy).Contents (Elt F) → (⟨S100000x64, .f32⟩ : BufTy).Contents (Elt F)),
    StableHlo.binary main_v95 main_v97 main_v98 (addf : (⟨S100000x64, .f32⟩ : BufTy).Contents (Elt F) → (⟨S100000x64, .f32⟩ : BufTy).Contents (Elt F) → (⟨S100000x64, .f32⟩ : BufTy).Contents (Elt F)),
    StableHlo.nullary main_cst_22 (constant S_ .f32 0x3C23D70A#32),
    StableHlo.TRef.nullary main_call4.cst (constant S_ .f32 0x00000000#32),
    StableHlo.TRef.unary main_call4.cst main_call4.v0 (broadcastInDim S100000x64 ![] bcast_S_S100000x64),
    StableHlo.TRef.binary (.of main_v98) main_call4.v0 main_call4.v1 (cmpf .oge),
    StableHlo.TRef.unary (.of main_cst_22) main_call4.v2 id,
    StableHlo.TRef.unary main_call4.v2 main_call4.v3 (broadcastInDim S100000x64 ![] bcast_S_S100000x64),
    StableHlo.TRef.binary main_call4.v3 (.of main_v98) main_call4.v4 mulf,
    StableHlo.TRef.ternary main_call4.v1 (.of main_v98) main_call4.v4 main_call4.call0.v0 select,
    StableHlo.binary main_v99 main_arg8 main_v100 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg9 main_v101 (broadcastInDim S1x64 ![1] bcast_S64_S1x64_1 : (⟨S64, .f32⟩ : BufTy).Contents (Elt F) → (⟨S1x64, .f32⟩ : BufTy).Contents (Elt F)),
    StableHlo.unary main_v101 main_v102 (broadcastInDim S100000x64 ![0, 1] bcast_S1x64_S100000x64_0_1 : (⟨S1x64, .f32⟩ : BufTy).Contents (Elt F) → (⟨S100000x64, .f32⟩ : BufTy).Contents (Elt F)),
    StableHlo.binary main_v100 main_v102 main_v103 (addf : (⟨S100000x64, .f32⟩ : BufTy).Contents (Elt F) → (⟨S100000x64, .f32⟩ : BufTy).Contents (Elt F) → (⟨S100000x64, .f32⟩ : BufTy).Contents (Elt F)),
    StableHlo.binary main_v103 main_v94 main_v104 (addf : (⟨S100000x64, .f32⟩ : BufTy).Contents (Elt F) → (⟨S100000x64, .f32⟩ : BufTy).Contents (Elt F) → (⟨S100000x64, .f32⟩ : BufTy).Contents (Elt F)),
    StableHlo.nullary main_cst_23 (constant S_ .f32 0x3C23D70A#32),
    StableHlo.TRef.nullary main_call5.cst (constant S_ .f32 0x00000000#32),
    StableHlo.TRef.unary main_call5.cst main_call5.v0 (broadcastInDim S100000x64 ![] bcast_S_S100000x64),
    StableHlo.TRef.binary (.of main_v104) main_call5.v0 main_call5.v1 (cmpf .oge),
    StableHlo.TRef.unary (.of main_cst_23) main_call5.v2 id,
    StableHlo.TRef.unary main_call5.v2 main_call5.v3 (broadcastInDim S100000x64 ![] bcast_S_S100000x64),
    StableHlo.TRef.binary main_call5.v3 (.of main_v104) main_call5.v4 mulf,
    StableHlo.TRef.ternary main_call5.v1 (.of main_v104) main_call5.v4 main_call5.call0.v0 select ]

set_option maxHeartbeats 40000000 in
set_option maxRecDepth 65536 in
/-- The entry function is that straight line: with the called functions' definitions unfolded at their calls,
    both sides are one chain of operation steps once sequencing is reassociated. -/
theorem main_eq (c : Dev nD) : main (F := F) c = seq ops := by
  simp only [main, main_part0, main_part1, main_part2, fn_where.body, fn_where_0.body, fn_leaky_relu.body, seq,
    bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore references only. -/
theorem ops_sub : (ops : List (HloOp τ sig (Elt F))).Forall fun op => op.bufs ⊆ tcRefs τ sig :=
  ⟨
    unary_bufs_sub .., reshape_bufs_sub .., unary_bufs_sub .., reshape_bufs_sub .., nullary_bufs_sub .., binary_bufs_sub ..,
    binary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., nullary_bufs_sub ..,
    unary_bufs_sub .., ternary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., nullary_bufs_sub .., unary_bufs_sub ..,
    unary_bufs_sub .., ternary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub .., nullary_bufs_sub .., binary_bufs_sub .., binary_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., nullary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    unary_bufs_sub .., binary_bufs_sub .., binary_bufs_sub .., nullary_bufs_sub .., nullary_bufs_sub .., unary_bufs_sub ..,
    binary_bufs_sub .., unary_bufs_sub .., unary_bufs_sub .., binary_bufs_sub .., ternary_bufs_sub .., binary_bufs_sub ..,
    unary_bufs_sub .., unary_bufs_sub .., binary_bufs_sub .., nullary_bufs_sub .., nullary_bufs_sub .., unary_bufs_sub ..,
    binary_bufs_sub .., unary_bufs_sub .., unary_bufs_sub .., binary_bufs_sub .., ternary_bufs_sub .., binary_bufs_sub ..,
    unary_bufs_sub .., unary_bufs_sub .., binary_bufs_sub .., binary_bufs_sub .., nullary_bufs_sub .., nullary_bufs_sub ..,
    unary_bufs_sub .., binary_bufs_sub .., unary_bufs_sub .., unary_bufs_sub .., binary_bufs_sub .., ternary_bufs_sub ..⟩

set_option maxRecDepth 8192 in
/-- No operation allocates: each determines the contents of what it writes. -/
theorem ops_fresh : ∀ op ∈ (ops : List (HloOp τ sig (Elt F))), op.fresh = ∅ :=
  List.forall_iff_forall_mem.1 (show (ops : List (HloOp τ sig (Elt F))).Forall fun op => op.fresh = ∅ from
  ⟨
    rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl⟩)

/-- On every device, for any float values, from any memory with zero counters: every weakly fair execution of the
    entry function terminates, and every final state has each TensorCore buffer at the fold of the operations'
    results over the launch contents. -/
theorem run_after (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = StableHlo.after ops (StableHlo.launchContents m c) (Proc.devRef .tc b) :=
  StableHlo.run_seq scopedRefs_eq scopedSems_eq defs main (fun _ => ops) main_eq (fun _ => ops_sub) m ρ
    (fun _ => ops_fresh)

end Cert.ReferenceIdeal.RefRun

end
-- ==== Proof.RefGlue.lean ====
/-
  The reference program's function, as named whole-array functions of its arguments' contents. The program is a
  two-layer graph convolution followed by a two-layer perceptron with residual connections. Its edge list is a
  2 × 1200000 integer array (row 0 the sources, row 1 the destinations); every node gets a self loop, so both rows
  are extended by the identity numbering of the 100000 nodes. A node's degree is the number of edges arriving at it,
  each edge is weighted by the product of the inverse square roots of its two ends' degrees, and one aggregation
  gathers the projected features at the edges' sources, scales each row by the edge's weight and sums the rows
  arriving at each destination. Each definition below is the composition of the program's own array operations, in
  the program's spelling, so that reading a buffer of the program's run gives these terms by unfolding alone.
-/
import proofs.«131320_j68771016343679_1_alg».proof.ReferenceIdeal
import proofs.«131320_j68771016343679_1_alg».proof.Proof.Gen.ReferenceIdeal

noncomputable section

namespace Cert.ReferenceIdeal.Glue

open Cert.ReferenceIdeal Cert.ReferenceIdeal.Gen Idealize.ShloMosaic

variable {F : FTy → Type} [FloatOps F]

/-- A 32-bit float array of shape `S`, as the program's buffers hold it. -/
abbrev FA (F : FTy → Type) (S : Shape) : Type := (⟨S, .f32⟩ : BufTy).Contents (Elt F)
/-- A 32-bit integer array of shape `S`, as the program's buffers hold it. -/
abbrev IA (F : FTy → Type) (S : Shape) : Type := (⟨S, .i32⟩ : BufTy).Contents (Elt F)

/-- Row 0 of the edge list, flattened: the edges' sources. -/
def row0 (ei : IA F S2x1200000) : IA F S1200000 :=
  shapeCast S1200000 (extractStridedSlice S1x1200000 ![0, 0] ei slices_S2x1200000_S1x1200000_0_0)
    shapeCasts_S1x1200000_S1200000

/-- Row 1 of the edge list, flattened: the edges' destinations. -/
def row1 (ei : IA F S2x1200000) : IA F S1200000 :=
  shapeCast S1200000 (extractStridedSlice S1x1200000 ![1, 0] ei slices_S2x1200000_S1x1200000_1_0)
    shapeCasts_S1x1200000_S1200000

/-- One end of every edge with the self loops appended: the given ends, then the nodes `0 … 99999`. -/
def withLoops (r : IA F S1200000) : IA F S1300000 :=
  concatenate S1300000 0 [⟨S1200000, r⟩, ⟨S100000, iotaInDim S100000 32 0⟩] concatenates_S1200000_S100000_S1300000_d0

/-- The edge sources with the self loops appended. -/
def src (ei : IA F S2x1200000) : IA F S1300000 := withLoops (row0 ei)

/-- The edge destinations with the self loops appended. -/
def dst (ei : IA F S2x1200000) : IA F S1300000 := withLoops (row1 ei)

/-- An index array with its negative entries moved up by the number of nodes (indexing from the end). -/
def wrap (i : IA F S1300000) : IA F S1300000 :=
  select (cmpi .slt i (broadcastInDim S1300000 ![] bcast_S_S1300000 (constantI S_ 32 0#32)))
    (addi i (broadcastInDim S1300000 ![] bcast_S_S1300000 (constantI S_ 32 100000#32))) i

/-- An index array as a column: one index vector of length one per edge. -/
def col (i : IA F S1300000) : IA F S1300000x1 :=
  broadcastInDim S1300000x1 ![0] bcast_S1300000_S1300000x1_0 i

/-- The nodes' degrees: a one added at each edge's destination, from zeros. -/
def deg (d : IA F S1300000) : FA F S100000 :=
  Host.scatterAdd scatter_S100000_S1300000x1_S1300000_n_0_0_1
    (broadcastInDim S100000 ![] bcast_S_S100000 (constant S_ .f32 0x00000000#32)) (col d)
    (broadcastInDim S1300000 ![] bcast_S_S1300000 (constant S_ .f32 0x3F800000#32))

/-- The inverse square root of the degree where it is positive, zero elsewhere. -/
def dinv (d : IA F S1300000) : FA F S100000 :=
  select (cmpf .ogt (deg d) (broadcastInDim S100000 ![] bcast_S_S100000 (constant S_ .f32 0x00000000#32)))
    (Host.rsqrt (deg d)) (broadcastInDim S100000 ![] bcast_S_S100000 (constant S_ .f32 0x00000000#32))

/-- The symmetric normalisation, per edge: the inverse root degree at its source times that at its destination. -/
def norm (s d : IA F S1300000) : FA F S1300000 :=
  mulf (Host.gather gather_S100000_S1300000x1_S1300000_n_0_n_n_0_1_1 (dinv d) (col (wrap s)))
    (Host.gather gather_S100000_S1300000x1_S1300000_n_0_n_n_0_1_1 (dinv d) (col (wrap d)))

/-- One aggregation: the rows of `h` at the edges' sources, each scaled by its edge's weight, summed at the edges'
    destinations into zeros. -/
def agg (s d : IA F S1300000) (n : FA F S1300000) (h : FA F S100000x64) : FA F S100000x64 :=
  Host.scatterAdd scatter_S100000x64_S1300000x1_S1300000x64_1_0_0_1
    (broadcastInDim S100000x64 ![] bcast_S_S100000x64 (constant S_ .f32 0x00000000#32)) (col d)
    (mulf (Host.gather gather_S100000x64_S1300000x1_S1300000x64_1_0_n_n_0_1_164 h (col (wrap s)))
      (broadcastInDim S1300000x64 ![0, 1] bcast_S1300000x1_S1300000x64_0_1
        (broadcastInDim S1300000x1 ![0] bcast_S1300000_S1300000x1_0 n)))

/-- The features times a weight matrix. -/
def dot (x : FA F S100000x64) (W : FA F S64x64) : FA F S100000x64 :=
  Host.dotGeneral dot_S100000x64_S64x64_S100000x64_1_0_0_1_n_n none x W

/-- A bias vector repeated down the rows. -/
def biasRows (b : FA F S64) : FA F S100000x64 :=
  broadcastInDim S100000x64 ![0, 1] bcast_S1x64_S100000x64_0_1 (broadcastInDim S1x64 ![1] bcast_S64_S1x64_1 b)

/-- The leaky rectifier of slope 0.01 (the float `0x3C23D70A`): `v` where it is at least zero, the slope times `v`
    elsewhere. -/
def lrelu (v : FA F S100000x64) : FA F S100000x64 :=
  select (cmpf .oge v (broadcastInDim S100000x64 ![] bcast_S_S100000x64 (constant S_ .f32 0x00000000#32))) v
    (mulf (broadcastInDim S100000x64 ![] bcast_S_S100000x64 (id (constant S_ .f32 0x3C23D70A#32))) v)

/-- The whole reference: two graph convolutions (the second with a residual connection), then two dense layers (the
    second with a residual connection), a leaky rectifier after each. -/
def out (x : FA F S100000x64) (ei : IA F S2x1200000) (W1 : FA F S64x64) (b1 : FA F S64) (W2 : FA F S64x64) (b2 : FA F S64)
    (Wm1 : FA F S64x64) (bm1 : FA F S64) (Wm2 : FA F S64x64) (bm2 : FA F S64) : FA F S100000x64 :=
  let s := src ei
  let d := dst ei
  let n := norm s d
  let h1 := lrelu (addf (agg s d n (dot x W1)) (biasRows b1))
  let h2 := lrelu (addf (addf (agg s d n (dot h1 W2)) (biasRows b2)) h1)
  lrelu (addf (addf (dot (lrelu (addf (dot h2 Wm1) (biasRows bm1))) Wm2) (biasRows bm2)) h2)

end Cert.ReferenceIdeal.Glue

end
-- ==== Proof.RefValue.lean ====
/-
  What the reference program's run leaves in its result buffer, as the named function of its arguments. The line of
  operations is cut into seven consecutive stretches; what each stretch leaves in the buffers later stretches read is
  computed from an arbitrary valuation before it (each operation's result at its own buffer is its function of its
  operands' contents, and any other buffer keeps what it held), and is one of the named whole-array functions by
  unfolding. The fold over the whole line is the stretches' folds composed, which gives the result buffer as the
  composition of the named functions, and each argument buffer unchanged.
-/
import proofs.«131320_j68771016343679_1_alg».proof.Proof.RefRun
import proofs.«131320_j68771016343679_1_alg».proof.Proof.RefGlue

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The fold over two stretches run one after the other is the second's fold over the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- Each operation's result read at its own buffer is its function's value, and at another buffer what was there. -/
macro "results_rw" : tactic => `(tactic| (repeat (first
  | rw [nullary_result] | rw [unary_result] | rw [binary_result] | rw [ternary_result] | rw [reshape_result]
  | (rw [nullary_result_ne]; rotate_left; decide) | (rw [unary_result_ne]; rotate_left; decide)
  | (rw [binary_result_ne]; rotate_left; decide) | (rw [ternary_result_ne]; rotate_left; decide)
  | (rw [reshape_result_ne]; rotate_left; decide))))

set_option maxHeartbeats 40000000 in
set_option maxRecDepth 8192 in
/-- Operations 1 … 7 of the line. The edge list's two rows, flattened, and each with the self loops appended. -/
abbrev opsA : List (HloOp τ sig (Elt F)) :=
  [
    StableHlo.unary main_arg1 main_v0 ((extractStridedSlice S1x1200000 ![0, 0] · slices_S2x1200000_S1x1200000_0_0) : (⟨S2x1200000, .i32⟩ : BufTy).Contents (Elt F) → (⟨S1x1200000, .i32⟩ : BufTy).Contents (Elt F)),
    StableHlo.reshape main_v0 main_v1 rfl shapeCasts_S1x1200000_S1200000,
    StableHlo.unary main_arg1 main_v2 ((extractStridedSlice S1x1200000 ![1, 0] · slices_S2x1200000_S1x1200000_1_0) : (⟨S2x1200000, .i32⟩ : BufTy).Contents (Elt F) → (⟨S1x1200000, .i32⟩ : BufTy).Contents (Elt F)),
    StableHlo.reshape main_v2 main_v3 rfl shapeCasts_S1x1200000_S1200000,
    StableHlo.nullary main_v4 (iotaInDim S100000 32 0),
    StableHlo.binary main_v1 main_v4 main_v5 ((fun a b => concatenate S1300000 0 [⟨S1200000, a⟩, ⟨S100000, b⟩] concatenates_S1200000_S100000_S1300000_d0) : (⟨S1200000, .i32⟩ : BufTy).Contents (Elt F) → (⟨S100000, .i32⟩ : BufTy).Contents (Elt F) → (⟨S1300000, .i32⟩ : BufTy).Contents (Elt F)),
    StableHlo.binary main_v3 main_v4 main_v6 ((fun a b => concatenate S1300000 0 [⟨S1200000, a⟩, ⟨S100000, b⟩] concatenates_S1200000_S100000_S1300000_d0) : (⟨S1200000, .i32⟩ : BufTy).Contents (Elt F) → (⟨S100000, .i32⟩ : BufTy).Contents (Elt F) → (⟨S1300000, .i32⟩ : BufTy).Contents (Elt F)) ]

set_option maxHeartbeats 40000000 in
set_option maxRecDepth 8192 in
/-- Operations 8 … 39 of the line. The first layer's degrees, their inverse roots, and the per-edge normalisation. -/
abbrev opsB : List (HloOp τ sig (Elt F)) :=
  [
    StableHlo.nullary main_cst (constant S_ .f32 0x3F800000#32),
    StableHlo.unary main_cst main_v7 (broadcastInDim S1300000 ![] bcast_S_S1300000 : (⟨S_, .f32⟩ : BufTy).Contents (Elt F) → (⟨S1300000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1300000x1 ![0] bcast_S1300000_S1300000x1_0 : (⟨S1300000, .i32⟩ : BufTy).Contents (Elt F) → (⟨S1300000x1, .i32⟩ : BufTy).Contents (Elt F)),
    StableHlo.ternary main_v8 main_v9 main_v7 main_v10 ((fun x i u => Host.scatterAdd scatter_S100000_S1300000x1_S1300000_n_0_0_1 x i u) : (⟨S100000, .f32⟩ : BufTy).Contents (Elt F) → (⟨S1300000x1, .i32⟩ : BufTy).Contents (Elt F) → (⟨S1300000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.unary main_v10 main_v13 (Host.rsqrt : (⟨S100000, .f32⟩ : BufTy).Contents (Elt F) → (⟨S100000, .f32⟩ : BufTy).Contents (Elt F)),
    StableHlo.nullary main_cst_2 (constant S_ .f32 0x00000000#32),
    StableHlo.unary main_cst_2 main_v14 (broadcastInDim S100000 ![] bcast_S_S100000 : (⟨S_, .f32⟩ : BufTy).Contents (Elt F) → (⟨S100000, .f32⟩ : BufTy).Contents (Elt F)),
    StableHlo.TRef.ternary (.of main_v12) (.of main_v13) (.of main_v14) main_call0.v0 select,
    StableHlo.nullary main_c (constantI S_ 32 0#32),
    StableHlo.unary main_c main_v16 (broadcastInDim S1300000 ![] bcast_S_S1300000 : (⟨S_, .i32⟩ : BufTy).Contents (Elt F) → (⟨S1300000, .i32⟩ : BufTy).Contents (Elt F)),
    StableHlo.binary main_v5 main_v16 main_v17 (cmpi .slt : (⟨S1300000, .i32⟩ : BufTy).Contents (Elt F) → (⟨S1300000, .i32⟩ : BufTy).Contents (Elt F) → (⟨S1300000, .i1⟩ : BufTy).Contents (Elt F)),
    StableHlo.nullary main_c_3 (constantI S_ 32 100000#32),
    StableHlo.unary main_c_3 main_v18 (broadcastInDim S1300000 ![] bcast_S_S1300000 : (⟨S_, .i32⟩ : BufTy).Contents (Elt F) → (⟨S1300000, .i32⟩ : BufTy).Contents (Elt F)),
    StableHlo.binary main_v5 main_v18 main_v19 (addi : (⟨S1300000, .i32⟩ : BufTy).Contents (Elt F) → (⟨S1300000, .i32⟩ : BufTy).Contents (Elt F) → (⟨S1300000, .i32⟩ : BufTy).Contents (Elt F)),
    StableHlo.ternary main_v17 main_v19 main_v5 main_v20 (select : (⟨S1300000, .i1⟩ : BufTy).Contents (Elt F) → (⟨S1300000, .i32⟩ : BufTy).Contents (Elt F) → (⟨S1300000, .i32⟩ : BufTy).Contents (Elt F) → (⟨S1300000, .i32⟩ : BufTy).Contents (Elt F)),
    StableHlo.unary main_v20 main_v21 (broadcastInDim S1300000x1 ![0] bcast_S1300000_S1300000x1_0 : (⟨S1300000, .i32⟩ : BufTy).Contents (Elt F) → (⟨S1300000x1, .i32⟩ : BufTy).Contents (Elt F)),
    StableHlo.binary main_v15 main_v21 main_v22 ((fun x i => Host.gather gather_S100000_S1300000x1_S1300000_n_0_n_n_0_1_1 x i) : (⟨S100000, .f32⟩ : BufTy).Contents (Elt F) → (⟨S1300000x1, .i32⟩ : BufTy).Contents (Elt F) → (⟨S1300000, .f32⟩ : BufTy).Contents (Elt F)),
    StableHlo.nullary main_c_4 (constantI S_ 32 0#32),
    StableHlo.unary main_c_4 main_v23 (broadcastInDim S1300000 ![] bcast_S_S1300000 : (⟨S_, .i32⟩ : BufTy).Contents (Elt F) → (⟨S1300000, .i32⟩ : BufTy).Contents (Elt F)),
    StableHlo.binary main_v6 main_v23 main_v24 (cmpi .slt : (⟨S1300000, .i32⟩ : BufTy).Contents (Elt F) → (⟨S1300000, .i32⟩ : BufTy).Contents (Elt F) → (⟨S1300000, .i1⟩ : BufTy).Contents (Elt F)),
    StableHlo.nullary main_c_5 (constantI S_ 32 100000#32),
    StableHlo.unary main_c_5 main_v25 (broadcastInDim S1300000 ![] bcast_S_S1300000 : (⟨S_, .i32⟩ : BufTy).Contents (Elt F) → (⟨S1300000, .i32⟩ : BufTy).Contents (Elt F)),
    StableHlo.binary main_v6 main_v25 main_v26 (addi : (⟨S1300000, .i32⟩ : BufTy).Contents (Elt F) → (⟨S1300000, .i32⟩ : BufTy).Contents (Elt F) → (⟨S1300000, .i32⟩ : BufTy).Contents (Elt F)),
    StableHlo.ternary main_v24 main_v26 main_v6 main_v27 (select : (⟨S1300000, .i1⟩ : BufTy).Contents (Elt F) → (⟨S1300000, .i32⟩ : BufTy).Contents (Elt F) → (⟨S1300000, .i32⟩ : BufTy).Contents (Elt F) → (⟨S1300000, .i32⟩ : BufTy).Contents (Elt F)),
    StableHlo.unary main_v27 main_v28 (broadcastInDim S1300000x1 ![0] bcast_S1300000_S1300000x1_0 : (⟨S1300000, .i32⟩ : BufTy).Contents (Elt F) → (⟨S1300000x1, .i32⟩ : BufTy).Contents (Elt F)),
    StableHlo.binary main_v15 main_v28 main_v29 ((fun x i => Host.gather gather_S100000_S1300000x1_S1300000_n_0_n_n_0_1_1 x i) : (⟨S100000, .f32⟩ : BufTy).Contents (Elt F) → (⟨S1300000x1, .i32⟩ : BufTy).Contents (Elt F) → (⟨S1300000, .f32⟩ : BufTy).Contents (Elt F)),
    StableHlo.binary main_v22 main_v29 main_v30 (mulf : (⟨S1300000, .f32⟩ : BufTy).Contents (Elt F) → (⟨S1300000, .f32⟩ : BufTy).Contents (Elt F) → (⟨S1300000, .f32⟩ : BufTy).Contents (Elt F)) ]

set_option maxHeartbeats 40000000 in
set_option maxRecDepth 8192 in
/-- Operations 40 … 67 of the line. The first layer: projection, aggregation, bias, leaky rectifier. -/
abbrev opsC : List (HloOp τ sig (Elt F)) :=
  [
    StableHlo.binary main_arg0 main_arg2 main_v31 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_6 (constantI S_ 32 0#32),
    StableHlo.unary main_c_6 main_v32 (broadcastInDim S1300000 ![] bcast_S_S1300000 : (⟨S_, .i32⟩ : BufTy).Contents (Elt F) → (⟨S1300000, .i32⟩ : BufTy).Contents (Elt F)),
    StableHlo.binary main_v5 main_v32 main_v33 (cmpi .slt : (⟨S1300000, .i32⟩ : BufTy).Contents (Elt F) → (⟨S1300000, .i32⟩ : BufTy).Contents (Elt F) → (⟨S1300000, .i1⟩ : BufTy).Contents (Elt F)),
    StableHlo.nullary main_c_7 (constantI S_ 32 100000#32),
    StableHlo.unary main_c_7 main_v34 (broadcastInDim S1300000 ![] bcast_S_S1300000 : (⟨S_, .i32⟩ : BufTy).Contents (Elt F) → (⟨S1300000, .i32⟩ : BufTy).Contents (Elt F)),
    StableHlo.binary main_v5 main_v34 main_v35 (addi : (⟨S1300000, .i32⟩ : BufTy).Contents (Elt F) → (⟨S1300000, .i32⟩ : BufTy).Contents (Elt F) → (⟨S1300000, .i32⟩ : BufTy).Contents (Elt F)),
    StableHlo.ternary main_v33 main_v35 main_v5 main_v36 (select : (⟨S1300000, .i1⟩ : BufTy).Contents (Elt F) → (⟨S1300000, .i32⟩ : BufTy).Contents (Elt F) → (⟨S1300000, .i32⟩ : BufTy).Contents (Elt F) → (⟨S1300000, .i32⟩ : BufTy).Contents (Elt F)),
    StableHlo.unary main_v36 main_v37 (broadcastInDim S1300000x1 ![0] bcast_S1300000_S1300000x1_0 : (⟨S1300000, .i32⟩ : BufTy).Contents (Elt F) → (⟨S1300000x1, .i32⟩ : BufTy).Contents (Elt F)),
    StableHlo.binary main_v31 main_v37 main_v38 ((fun x i => Host.gather gather_S100000x64_S1300000x1_S1300000x64_1_0_n_n_0_1_164 x i) : (⟨S100000x64, .f32⟩ : BufTy).Contents (Elt F) → (⟨S1300000x1, .i32⟩ : BufTy).Contents (Elt F) → (⟨S1300000x64, .f32⟩ : BufTy).Contents (Elt F)),
    StableHlo.unary main_v30 main_v39 (broadcastInDim S1300000x1 ![0] bcast_S1300000_S1300000x1_0 : (⟨S1300000, .f32⟩ : BufTy).Contents (Elt F) → (⟨S1300000x1, .f32⟩ : BufTy).Contents (Elt F)),
    StableHlo.unary main_v39 main_v40 (broadcastInDim S1300000x64 ![0, 1] bcast_S1300000x1_S1300000x64_0_1 : (⟨S1300000x1, .f32⟩ : BufTy).Contents (Elt F) → (⟨S1300000x64, .f32⟩ : BufTy).Contents (Elt F)),
    StableHlo.binary main_v38 main_v40 main_v41 (mulf : (⟨S1300000x64, .f32⟩ : BufTy).Contents (Elt F) → (⟨S1300000x64, .f32⟩ : BufTy).Contents (Elt F) → (⟨S1300000x64, .f32⟩ : BufTy).Contents (Elt F)),
    StableHlo.nullary main_cst_8 (constant S_ .f32 0x00000000#32),
    StableHlo.unary main_cst_8 main_v42 (broadcastInDim S100000x64 ![] bcast_S_S100000x64 : (⟨S_, .f32⟩ : BufTy).Contents (Elt F) → (⟨S100000x64, .f32⟩ : BufTy).Contents (Elt F)),
    StableHlo.unary main_v6 main_v43 (broadcastInDim S1300000x1 ![0] bcast_S1300000_S1300000x1_0 : (⟨S1300000, .i32⟩ : BufTy).Contents (Elt F) → (⟨S1300000x1, .i32⟩ : BufTy).Contents (Elt F)),
    StableHlo.ternary main_v42 main_v43 main_v41 main_v44 ((fun x i u => Host.scatterAdd scatter_S100000x64_S1300000x1_S1300000x64_1_0_0_1 x i u) : (⟨S100000x64, .f32⟩ : BufTy).Contents (Elt F) → (⟨S1300000x1, .i32⟩ : BufTy).Contents (Elt F) → (⟨S1300000x64, .f32⟩ : BufTy).Contents (Elt F) → (⟨S100000x64, .f32⟩ : BufTy).Contents (Elt F)),
    StableHlo.unary main_arg3 main_v45 (broadcastInDim S1x64 ![1] bcast_S64_S1x64_1 : (⟨S64, .f32⟩ : BufTy).Contents (Elt F) → (⟨S1x64, .f32⟩ : BufTy).Contents (Elt F)),
    StableHlo.unary main_v45 main_v46 (broadcastInDim S100000x64 ![0, 1] bcast_S1x64_S100000x64_0_1 : (⟨S1x64, .f32⟩ : BufTy).Contents (Elt F) → (⟨S100000x64, .f32⟩ : BufTy).Contents (Elt F)),
    StableHlo.binary main_v44 main_v46 main_v47 (addf : (⟨S100000x64, .f32⟩ : BufTy).Contents (Elt F) → (⟨S100000x64, .f32⟩ : BufTy).Contents (Elt F) → (⟨S100000x64, .f32⟩ : BufTy).Contents (Elt F)),
    StableHlo.nullary main_cst_9 (constant S_ .f32 0x3C23D70A#32),
    StableHlo.TRef.nullary main_call1.cst (constant S_ .f32 0x00000000#32),
    StableHlo.TRef.unary main_call1.cst main_call1.v0 (broadcastInDim S100000x64 ![] bcast_S_S100000x64),
    StableHlo.TRef.binary (.of main_v47) main_call1.v0 main_call1.v1 (cmpf .oge),
    StableHlo.TRef.unary (.of main_cst_9) main_call1.v2 id,
    StableHlo.TRef.unary main_call1.v2 main_call1.v3 (broadcastInDim S100000x64 ![] bcast_S_S100000x64),
    StableHlo.TRef.binary main_call1.v3 (.of main_v47) main_call1.v4 mulf,
    StableHlo.TRef.ternary main_call1.v1 (.of main_v47) main_call1.v4 main_call1.call0.v0 select ]

set_option maxHeartbeats 40000000 in
set_option maxRecDepth 8192 in
/-- Operations 68 … 70 of the line. The second layer's copy of the two index arrays with the self loops appended. -/
abbrev opsD : List (HloOp τ sig (Elt F)) :=
  [
    StableHlo.nullary main_v49 (iotaInDim S100000 32 0),
    StableHlo.binary main_v1 main_v49 main_v50 ((fun a b => concatenate S1300000 0 [⟨S1200000, a⟩, ⟨S100000, b⟩] concatenates_S1200000_S100000_S1300000_d0) : (⟨S1200000, .i32⟩ : BufTy).Contents (Elt F) → (⟨S100000, .i32⟩ : BufTy).Contents (Elt F) → (⟨S1300000, .i32⟩ : BufTy).Contents (Elt F)),
    StableHlo.binary main_v3 main_v49 main_v51 ((fun a b => concatenate S1300000 0 [⟨S1200000, a⟩, ⟨S100000, b⟩] concatenates_S1200000_S100000_S1300000_d0) : (⟨S1200000, .i32⟩ : BufTy).Contents (Elt F) → (⟨S100000, .i32⟩ : BufTy).Contents (Elt F) → (⟨S1300000, .i32⟩ : BufTy).Contents (Elt F)) ]

set_option maxHeartbeats 40000000 in
set_option maxRecDepth 8192 in
/-- Operations 71 … 102 of the line. The second layer's degrees, their inverse roots, and the per-edge normalisation. -/
abbrev opsE : List (HloOp τ sig (Elt F)) :=
  [
    StableHlo.nullary main_cst_10 (constant S_ .f32 0x3F800000#32),
    StableHlo.unary main_cst_10 main_v52 (broadcastInDim S1300000 ![] bcast_S_S1300000 : (⟨S_, .f32⟩ : BufTy).Contents (Elt F) → (⟨S1300000, .f32⟩ : BufTy).Contents (Elt F)),
    StableHlo.nullary main_cst_11 (constant S_ .f32 0x00000000#32),
    StableHlo.unary main_cst_11 main_v53 (broadcastInDim S100000 ![] bcast_S_S100000 : (⟨S_, .f32⟩ : BufTy).Contents (Elt F) → (⟨S100000, .f32⟩ : BufTy).Contents (Elt F)),
    StableHlo.unary main_v51 main_v54 (broadcastInDim S1300000x1 ![0] bcast_S1300000_S1300000x1_0 : (⟨S1300000, .i32⟩ : BufTy).Contents (Elt F) → (⟨S1300000x1, .i32⟩ : BufTy).Contents (Elt F)),
    StableHlo.ternary main_v53 main_v54 main_v52 main_v55 ((fun x i u => Host.scatterAdd scatter_S100000_S1300000x1_S1300000_n_0_0_1 x i u) : (⟨S100000, .f32⟩ : BufTy).Contents (Elt F) → (⟨S1300000x1, .i32⟩ : BufTy).Contents (Elt F) → (⟨S1300000, .f32⟩ : BufTy).Contents (Elt F) → (⟨S100000, .f32⟩ : BufTy).Contents (Elt F)),
    StableHlo.nullary main_cst_12 (constant S_ .f32 0x00000000#32),
    StableHlo.unary main_cst_12 main_v56 (broadcastInDim S100000 ![] bcast_S_S100000 : (⟨S_, .f32⟩ : BufTy).Contents (Elt F) → (⟨S100000, .f32⟩ : BufTy).Contents (Elt F)),
    StableHlo.binary main_v55 main_v56 main_v57 (cmpf .ogt : (⟨S100000, .f32⟩ : BufTy).Contents (Elt F) → (⟨S100000, .f32⟩ : BufTy).Contents (Elt F) → (⟨S100000, .i1⟩ : BufTy).Contents (Elt F)),
    StableHlo.unary main_v55 main_v58 (Host.rsqrt : (⟨S100000, .f32⟩ : BufTy).Contents (Elt F) → (⟨S100000, .f32⟩ : BufTy).Contents (Elt F)),
    StableHlo.nullary main_cst_13 (constant S_ .f32 0x00000000#32),
    StableHlo.unary main_cst_13 main_v59 (broadcastInDim S100000 ![] bcast_S_S100000 : (⟨S_, .f32⟩ : BufTy).Contents (Elt F) → (⟨S100000, .f32⟩ : BufTy).Contents (Elt F)),
    StableHlo.TRef.ternary (.of main_v57) (.of main_v58) (.of main_v59) main_call2.v0 select,
    StableHlo.nullary main_c_14 (constantI S_ 32 0#32),
    StableHlo.unary main_c_14 main_v61 (broadcastInDim S1300000 ![] bcast_S_S1300000 : (⟨S_, .i32⟩ : BufTy).Contents (Elt F) → (⟨S1300000, .i32⟩ : BufTy).Contents (Elt F)),
    StableHlo.binary main_v50 main_v61 main_v62 (cmpi .slt : (⟨S1300000, .i32⟩ : BufTy).Contents (Elt F) → (⟨S1300000, .i32⟩ : BufTy).Contents (Elt F) → (⟨S1300000, .i1⟩ : BufTy).Contents (Elt F)),
    StableHlo.nullary main_c_15 (constantI S_ 32 100000#32),
    StableHlo.unary main_c_15 main_v63 (broadcastInDim S1300000 ![] bcast_S_S1300000 : (⟨S_, .i32⟩ : BufTy).Contents (Elt F) → (⟨S1300000, .i32⟩ : BufTy).Contents (Elt F)),
    StableHlo.binary main_v50 main_v63 main_v64 (addi : (⟨S1300000, .i32⟩ : BufTy).Contents (Elt F) → (⟨S1300000, .i32⟩ : BufTy).Contents (Elt F) → (⟨S1300000, .i32⟩ : BufTy).Contents (Elt F)),
    StableHlo.ternary main_v62 main_v64 main_v50 main_v65 (select : (⟨S1300000, .i1⟩ : BufTy).Contents (Elt F) → (⟨S1300000, .i32⟩ : BufTy).Contents (Elt F) → (⟨S1300000, .i32⟩ : BufTy).Contents (Elt F) → (⟨S1300000, .i32⟩ : BufTy).Contents (Elt F)),
    StableHlo.unary main_v65 main_v66 (broadcastInDim S1300000x1 ![0] bcast_S1300000_S1300000x1_0 : (⟨S1300000, .i32⟩ : BufTy).Contents (Elt F) → (⟨S1300000x1, .i32⟩ : BufTy).Contents (Elt F)),
    StableHlo.binary main_v60 main_v66 main_v67 ((fun x i => Host.gather gather_S100000_S1300000x1_S1300000_n_0_n_n_0_1_1 x i) : (⟨S100000, .f32⟩ : BufTy).Contents (Elt F) → (⟨S1300000x1, .i32⟩ : BufTy).Contents (Elt F) → (⟨S1300000, .f32⟩ : BufTy).Contents (Elt F)),
    StableHlo.nullary main_c_16 (constantI S_ 32 0#32),
    StableHlo.unary main_c_16 main_v68 (broadcastInDim S1300000 ![] bcast_S_S1300000 : (⟨S_, .i32⟩ : BufTy).Contents (Elt F) → (⟨S1300000, .i32⟩ : BufTy).Contents (Elt F)),
    StableHlo.binary main_v51 main_v68 main_v69 (cmpi .slt : (⟨S1300000, .i32⟩ : BufTy).Contents (Elt F) → (⟨S1300000, .i32⟩ : BufTy).Contents (Elt F) → (⟨S1300000, .i1⟩ : BufTy).Contents (Elt F)),
    StableHlo.nullary main_c_17 (constantI S_ 32 100000#32),
    StableHlo.unary main_c_17 main_v70 (broadcastInDim S1300000 ![] bcast_S_S1300000 : (⟨S_, .i32⟩ : BufTy).Contents (Elt F) → (⟨S1300000, .i32⟩ : BufTy).Contents (Elt F)),
    StableHlo.binary main_v51 main_v70 main_v71 (addi : (⟨S1300000, .i32⟩ : BufTy).Contents (Elt F) → (⟨S1300000, .i32⟩ : BufTy).Contents (Elt F) → (⟨S1300000, .i32⟩ : BufTy).Contents (Elt F)),
    StableHlo.ternary main_v69 main_v71 main_v51 main_v72 (select : (⟨S1300000, .i1⟩ : BufTy).Contents (Elt F) → (⟨S1300000, .i32⟩ : BufTy).Contents (Elt F) → (⟨S1300000, .i32⟩ : BufTy).Contents (Elt F) → (⟨S1300000, .i32⟩ : BufTy).Contents (Elt F)),
    StableHlo.unary main_v72 main_v73 (broadcastInDim S1300000x1 ![0] bcast_S1300000_S1300000x1_0 : (⟨S1300000, .i32⟩ : BufTy).Contents (Elt F) → (⟨S1300000x1, .i32⟩ : BufTy).Contents (Elt F)),
    StableHlo.binary main_v60 main_v73 main_v74 ((fun x i => Host.gather gather_S100000_S1300000x1_S1300000_n_0_n_n_0_1_1 x i) : (⟨S100000, .f32⟩ : BufTy).Contents (Elt F) → (⟨S1300000x1, .i32⟩ : BufTy).Contents (Elt F) → (⟨S1300000, .f32⟩ : BufTy).Contents (Elt F)),
    StableHlo.binary main_v67 main_v74 main_v75 (mulf : (⟨S1300000, .f32⟩ : BufTy).Contents (Elt F) → (⟨S1300000, .f32⟩ : BufTy).Contents (Elt F) → (⟨S1300000, .f32⟩ : BufTy).Contents (Elt F)) ]

set_option maxHeartbeats 40000000 in
set_option maxRecDepth 8192 in
/-- Operations 103 … 131 of the line. The second layer: projection, aggregation, bias, residual, leaky rectifier. -/
abbrev opsF : List (HloOp τ sig (Elt F)) :=
  [
    StableHlo.binary main_v48 main_arg4 main_v76 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_18 (constantI S_ 32 0#32),
    StableHlo.unary main_c_18 main_v77 (broadcastInDim S1300000 ![] bcast_S_S1300000 : (⟨S_, .i32⟩ : BufTy).Contents (Elt F) → (⟨S1300000, .i32⟩ : BufTy).Contents (Elt F)),
    StableHlo.binary main_v50 main_v77 main_v78 (cmpi .slt : (⟨S1300000, .i32⟩ : BufTy).Contents (Elt F) → (⟨S1300000, .i32⟩ : BufTy).Contents (Elt F) → (⟨S1300000, .i1⟩ : BufTy).Contents (Elt F)),
    StableHlo.nullary main_c_19 (constantI S_ 32 100000#32),
    StableHlo.unary main_c_19 main_v79 (broadcastInDim S1300000 ![] bcast_S_S1300000 : (⟨S_, .i32⟩ : BufTy).Contents (Elt F) → (⟨S1300000, .i32⟩ : BufTy).Contents (Elt F)),
    StableHlo.binary main_v50 main_v79 main_v80 (addi : (⟨S1300000, .i32⟩ : BufTy).Contents (Elt F) → (⟨S1300000, .i32⟩ : BufTy).Contents (Elt F) → (⟨S1300000, .i32⟩ : BufTy).Contents (Elt F)),
    StableHlo.ternary main_v78 main_v80 main_v50 main_v81 (select : (⟨S1300000, .i1⟩ : BufTy).Contents (Elt F) → (⟨S1300000, .i32⟩ : BufTy).Contents (Elt F) → (⟨S1300000, .i32⟩ : BufTy).Contents (Elt F) → (⟨S1300000, .i32⟩ : BufTy).Contents (Elt F)),
    StableHlo.unary main_v81 main_v82 (broadcastInDim S1300000x1 ![0] bcast_S1300000_S1300000x1_0 : (⟨S1300000, .i32⟩ : BufTy).Contents (Elt F) → (⟨S1300000x1, .i32⟩ : BufTy).Contents (Elt F)),
    StableHlo.binary main_v76 main_v82 main_v83 ((fun x i => Host.gather gather_S100000x64_S1300000x1_S1300000x64_1_0_n_n_0_1_164 x i) : (⟨S100000x64, .f32⟩ : BufTy).Contents (Elt F) → (⟨S1300000x1, .i32⟩ : BufTy).Contents (Elt F) → (⟨S1300000x64, .f32⟩ : BufTy).Contents (Elt F)),
    StableHlo.unary main_v75 main_v84 (broadcastInDim S1300000x1 ![0] bcast_S1300000_S1300000x1_0 : (⟨S1300000, .f32⟩ : BufTy).Contents (Elt F) → (⟨S1300000x1, .f32⟩ : BufTy).Contents (Elt F)),
    StableHlo.unary main_v84 main_v85 (broadcastInDim S1300000x64 ![0, 1] bcast_S1300000x1_S1300000x64_0_1 : (⟨S1300000x1, .f32⟩ : BufTy).Contents (Elt F) → (⟨S1300000x64, .f32⟩ : BufTy).Contents (Elt F)),
    StableHlo.binary main_v83 main_v85 main_v86 (mulf : (⟨S1300000x64, .f32⟩ : BufTy).Contents (Elt F) → (⟨S1300000x64, .f32⟩ : BufTy).Contents (Elt F) → (⟨S1300000x64, .f32⟩ : BufTy).Contents (Elt F)),
    StableHlo.nullary main_cst_20 (constant S_ .f32 0x00000000#32),
    StableHlo.unary main_cst_20 main_v87 (broadcastInDim S100000x64 ![] bcast_S_S100000x64 : (⟨S_, .f32⟩ : BufTy).Contents (Elt F) → (⟨S100000x64, .f32⟩ : BufTy).Contents (Elt F)),
    StableHlo.unary main_v51 main_v88 (broadcastInDim S1300000x1 ![0] bcast_S1300000_S1300000x1_0 : (⟨S1300000, .i32⟩ : BufTy).Contents (Elt F) → (⟨S1300000x1, .i32⟩ : BufTy).Contents (Elt F)),
    StableHlo.ternary main_v87 main_v88 main_v86 main_v89 ((fun x i u => Host.scatterAdd scatter_S100000x64_S1300000x1_S1300000x64_1_0_0_1 x i u) : (⟨S100000x64, .f32⟩ : BufTy).Contents (Elt F) → (⟨S1300000x1, .i32⟩ : BufTy).Contents (Elt F) → (⟨S1300000x64, .f32⟩ : BufTy).Contents (Elt F) → (⟨S100000x64, .f32⟩ : BufTy).Contents (Elt F)),
    StableHlo.unary main_arg5 main_v90 (broadcastInDim S1x64 ![1] bcast_S64_S1x64_1 : (⟨S64, .f32⟩ : BufTy).Contents (Elt F) → (⟨S1x64, .f32⟩ : BufTy).Contents (Elt F)),
    StableHlo.unary main_v90 main_v91 (broadcastInDim S100000x64 ![0, 1] bcast_S1x64_S100000x64_0_1 : (⟨S1x64, .f32⟩ : BufTy).Contents (Elt F) → (⟨S100000x64, .f32⟩ : BufTy).Contents (Elt F)),
    StableHlo.binary main_v89 main_v91 main_v92 (addf : (⟨S100000x64, .f32⟩ : BufTy).Contents (Elt F) → (⟨S100000x64, .f32⟩ : BufTy).Contents (Elt F) → (⟨S100000x64, .f32⟩ : BufTy).Contents (Elt F)),
    StableHlo.binary main_v92 main_v48 main_v93 (addf : (⟨S100000x64, .f32⟩ : BufTy).Contents (Elt F) → (⟨S100000x64, .f32⟩ : BufTy).Contents (Elt F) → (⟨S100000x64, .f32⟩ : BufTy).Contents (Elt F)),
    StableHlo.nullary main_cst_21 (constant S_ .f32 0x3C23D70A#32),
    StableHlo.TRef.nullary main_call3.cst (constant S_ .f32 0x00000000#32),
    StableHlo.TRef.unary main_call3.cst main_call3.v0 (broadcastInDim S100000x64 ![] bcast_S_S100000x64),
    StableHlo.TRef.binary (.of main_v93) main_call3.v0 main_call3.v1 (cmpf .oge),
    StableHlo.TRef.unary (.of main_cst_21) main_call3.v2 id,
    StableHlo.TRef.unary main_call3.v2 main_call3.v3 (broadcastInDim S100000x64 ![] bcast_S_S100000x64),
    StableHlo.TRef.binary main_call3.v3 (.of main_v93) main_call3.v4 mulf,
    StableHlo.TRef.ternary main_call3.v1 (.of main_v93) main_call3.v4 main_call3.call0.v0 select ]

set_option maxHeartbeats 40000000 in
set_option maxRecDepth 8192 in
/-- Operations 132 … 156 of the line. The two dense layers, the second with its residual, a leaky rectifier after each. -/
abbrev opsG : List (HloOp τ sig (Elt F)) :=
  [
    StableHlo.binary main_v94 main_arg6 main_v95 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg7 main_v96 (broadcastInDim S1x64 ![1] bcast_S64_S1x64_1 : (⟨S64, .f32⟩ : BufTy).Contents (Elt F) → (⟨S1x64, .f32⟩ : BufTy).Contents (Elt F)),
    StableHlo.unary main_v96 main_v97 (broadcastInDim S100000x64 ![0, 1] bcast_S1x64_S100000x64_0_1 : (⟨S1x64, .f32⟩ : BufTy).Contents (Elt F) → (⟨S100000x64, .f32⟩ : BufTy).Contents (Elt F)),
    StableHlo.binary main_v95 main_v97 main_v98 (addf : (⟨S100000x64, .f32⟩ : BufTy).Contents (Elt F) → (⟨S100000x64, .f32⟩ : BufTy).Contents (Elt F) → (⟨S100000x64, .f32⟩ : BufTy).Contents (Elt F)),
    StableHlo.nullary main_cst_22 (constant S_ .f32 0x3C23D70A#32),
    StableHlo.TRef.nullary main_call4.cst (constant S_ .f32 0x00000000#32),
    StableHlo.TRef.unary main_call4.cst main_call4.v0 (broadcastInDim S100000x64 ![] bcast_S_S100000x64),
    StableHlo.TRef.binary (.of main_v98) main_call4.v0 main_call4.v1 (cmpf .oge),
    StableHlo.TRef.unary (.of main_cst_22) main_call4.v2 id,
    StableHlo.TRef.unary main_call4.v2 main_call4.v3 (broadcastInDim S100000x64 ![] bcast_S_S100000x64),
    StableHlo.TRef.binary main_call4.v3 (.of main_v98) main_call4.v4 mulf,
    StableHlo.TRef.ternary main_call4.v1 (.of main_v98) main_call4.v4 main_call4.call0.v0 select,
    StableHlo.binary main_v99 main_arg8 main_v100 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg9 main_v101 (broadcastInDim S1x64 ![1] bcast_S64_S1x64_1 : (⟨S64, .f32⟩ : BufTy).Contents (Elt F) → (⟨S1x64, .f32⟩ : BufTy).Contents (Elt F)),
    StableHlo.unary main_v101 main_v102 (broadcastInDim S100000x64 ![0, 1] bcast_S1x64_S100000x64_0_1 : (⟨S1x64, .f32⟩ : BufTy).Contents (Elt F) → (⟨S100000x64, .f32⟩ : BufTy).Contents (Elt F)),
    StableHlo.binary main_v100 main_v102 main_v103 (addf : (⟨S100000x64, .f32⟩ : BufTy).Contents (Elt F) → (⟨S100000x64, .f32⟩ : BufTy).Contents (Elt F) → (⟨S100000x64, .f32⟩ : BufTy).Contents (Elt F)),
    StableHlo.binary main_v103 main_v94 main_v104 (addf : (⟨S100000x64, .f32⟩ : BufTy).Contents (Elt F) → (⟨S100000x64, .f32⟩ : BufTy).Contents (Elt F) → (⟨S100000x64, .f32⟩ : BufTy).Contents (Elt F)),
    StableHlo.nullary main_cst_23 (constant S_ .f32 0x3C23D70A#32),
    StableHlo.TRef.nullary main_call5.cst (constant S_ .f32 0x00000000#32),
    StableHlo.TRef.unary main_call5.cst main_call5.v0 (broadcastInDim S100000x64 ![] bcast_S_S100000x64),
    StableHlo.TRef.binary (.of main_v104) main_call5.v0 main_call5.v1 (cmpf .oge),
    StableHlo.TRef.unary (.of main_cst_23) main_call5.v2 id,
    StableHlo.TRef.unary main_call5.v2 main_call5.v3 (broadcastInDim S100000x64 ![] bcast_S_S100000x64),
    StableHlo.TRef.binary main_call5.v3 (.of main_v104) main_call5.v4 mulf,
    StableHlo.TRef.ternary main_call5.v1 (.of main_v104) main_call5.v4 main_call5.call0.v0 select ]

set_option maxHeartbeats 40000000 in
set_option maxRecDepth 65536 in
theorem A_v1 (W : Valuation τ sig (Elt F)) :
    after opsA W (Proc.devRef .tc main_v1) = Glue.row0 (W (Proc.devRef .tc main_arg1)) := by
  after_results_simp
  results_rw
  rfl

set_option maxHeartbeats 40000000 in
set_option maxRecDepth 65536 in
theorem A_v3 (W : Valuation τ sig (Elt F)) :
    after opsA W (Proc.devRef .tc main_v3) = Glue.row1 (W (Proc.devRef .tc main_arg1)) := by
  after_results_simp
  results_rw
  rfl

set_option maxHeartbeats 40000000 in
set_option maxRecDepth 65536 in
theorem A_v5 (W : Valuation τ sig (Elt F)) :
    after opsA W (Proc.devRef .tc main_v5) = Glue.src (W (Proc.devRef .tc main_arg1)) := by
  after_results_simp
  results_rw
  rfl

set_option maxHeartbeats 40000000 in
set_option maxRecDepth 65536 in
theorem A_v6 (W : Valuation τ sig (Elt F)) :
    after opsA W (Proc.devRef .tc main_v6) = Glue.dst (W (Proc.devRef .tc main_arg1)) := by
  after_results_simp
  results_rw
  rfl

set_option maxHeartbeats 4000000 in
set_option maxRecDepth 65536 in
theorem A_arg0 (W : Valuation τ sig (Elt F)) : after opsA W (Proc.devRef .tc main_arg0) = W (Proc.devRef .tc main_arg0) := by
  after_results_simp

set_option maxHeartbeats 4000000 in
set_option maxRecDepth 65536 in
theorem A_arg2 (W : Valuation τ sig (Elt F)) : after opsA W (Proc.devRef .tc main_arg2) = W (Proc.devRef .tc main_arg2) := by
  after_results_simp

set_option maxHeartbeats 4000000 in
set_option maxRecDepth 65536 in
theorem A_arg3 (W : Valuation τ sig (Elt F)) : after opsA W (Proc.devRef .tc main_arg3) = W (Proc.devRef .tc main_arg3) := by
  after_results_simp

set_option maxHeartbeats 4000000 in
set_option maxRecDepth 65536 in
theorem A_arg4 (W : Valuation τ sig (Elt F)) : after opsA W (Proc.devRef .tc main_arg4) = W (Proc.devRef .tc main_arg4) := by
  after_results_simp

set_option maxHeartbeats 4000000 in
set_option maxRecDepth 65536 in
theorem A_arg5 (W : Valuation τ sig (Elt F)) : after opsA W (Proc.devRef .tc main_arg5) = W (Proc.devRef .tc main_arg5) := by
  after_results_simp

set_option maxHeartbeats 4000000 in
set_option maxRecDepth 65536 in
theorem A_arg6 (W : Valuation τ sig (Elt F)) : after opsA W (Proc.devRef .tc main_arg6) = W (Proc.devRef .tc main_arg6) := by
  after_results_simp

set_option maxHeartbeats 4000000 in
set_option maxRecDepth 65536 in
theorem A_arg7 (W : Valuation τ sig (Elt F)) : after opsA W (Proc.devRef .tc main_arg7) = W (Proc.devRef .tc main_arg7) := by
  after_results_simp

set_option maxHeartbeats 4000000 in
set_option maxRecDepth 65536 in
theorem A_arg8 (W : Valuation τ sig (Elt F)) : after opsA W (Proc.devRef .tc main_arg8) = W (Proc.devRef .tc main_arg8) := by
  after_results_simp

set_option maxHeartbeats 4000000 in
set_option maxRecDepth 65536 in
theorem A_arg9 (W : Valuation τ sig (Elt F)) : after opsA W (Proc.devRef .tc main_arg9) = W (Proc.devRef .tc main_arg9) := by
  after_results_simp

set_option maxHeartbeats 40000000 in
set_option maxRecDepth 65536 in
theorem B_v30 (W : Valuation τ sig (Elt F)) :
    after opsB W (Proc.devRef .tc main_v30) = Glue.norm (W (Proc.devRef .tc main_v5)) (W (Proc.devRef .tc main_v6)) := by
  after_results_simp
  results_rw
  rfl

set_option maxHeartbeats 4000000 in
set_option maxRecDepth 65536 in
theorem B_v1 (W : Valuation τ sig (Elt F)) : after opsB W (Proc.devRef .tc main_v1) = W (Proc.devRef .tc main_v1) := by
  after_results_simp

set_option maxHeartbeats 4000000 in
set_option maxRecDepth 65536 in
theorem B_v3 (W : Valuation τ sig (Elt F)) : after opsB W (Proc.devRef .tc main_v3) = W (Proc.devRef .tc main_v3) := by
  after_results_simp

set_option maxHeartbeats 4000000 in
set_option maxRecDepth 65536 in
theorem B_v5 (W : Valuation τ sig (Elt F)) : after opsB W (Proc.devRef .tc main_v5) = W (Proc.devRef .tc main_v5) := by
  after_results_simp

set_option maxHeartbeats 4000000 in
set_option maxRecDepth 65536 in
theorem B_v6 (W : Valuation τ sig (Elt F)) : after opsB W (Proc.devRef .tc main_v6) = W (Proc.devRef .tc main_v6) := by
  after_results_simp

set_option maxHeartbeats 4000000 in
set_option maxRecDepth 65536 in
theorem B_arg0 (W : Valuation τ sig (Elt F)) : after opsB W (Proc.devRef .tc main_arg0) = W (Proc.devRef .tc main_arg0) := by
  after_results_simp

set_option maxHeartbeats 4000000 in
set_option maxRecDepth 65536 in
theorem B_arg2 (W : Valuation τ sig (Elt F)) : after opsB W (Proc.devRef .tc main_arg2) = W (Proc.devRef .tc main_arg2) := by
  after_results_simp

set_option maxHeartbeats 4000000 in
set_option maxRecDepth 65536 in
theorem B_arg3 (W : Valuation τ sig (Elt F)) : after opsB W (Proc.devRef .tc main_arg3) = W (Proc.devRef .tc main_arg3) := by
  after_results_simp

set_option maxHeartbeats 4000000 in
set_option maxRecDepth 65536 in
theorem B_arg4 (W : Valuation τ sig (Elt F)) : after opsB W (Proc.devRef .tc main_arg4) = W (Proc.devRef .tc main_arg4) := by
  after_results_simp

set_option maxHeartbeats 4000000 in
set_option maxRecDepth 65536 in
theorem B_arg5 (W : Valuation τ sig (Elt F)) : after opsB W (Proc.devRef .tc main_arg5) = W (Proc.devRef .tc main_arg5) := by
  after_results_simp

set_option maxHeartbeats 4000000 in
set_option maxRecDepth 65536 in
theorem B_arg6 (W : Valuation τ sig (Elt F)) : after opsB W (Proc.devRef .tc main_arg6) = W (Proc.devRef .tc main_arg6) := by
  after_results_simp

set_option maxHeartbeats 4000000 in
set_option maxRecDepth 65536 in
theorem B_arg7 (W : Valuation τ sig (Elt F)) : after opsB W (Proc.devRef .tc main_arg7) = W (Proc.devRef .tc main_arg7) := by
  after_results_simp

set_option maxHeartbeats 4000000 in
set_option maxRecDepth 65536 in
theorem B_arg8 (W : Valuation τ sig (Elt F)) : after opsB W (Proc.devRef .tc main_arg8) = W (Proc.devRef .tc main_arg8) := by
  after_results_simp

set_option maxHeartbeats 4000000 in
set_option maxRecDepth 65536 in
theorem B_arg9 (W : Valuation τ sig (Elt F)) : after opsB W (Proc.devRef .tc main_arg9) = W (Proc.devRef .tc main_arg9) := by
  after_results_simp

set_option maxHeartbeats 40000000 in
set_option maxRecDepth 65536 in
theorem C_v48 (W : Valuation τ sig (Elt F)) :
    after opsC W (Proc.devRef .tc main_v48) = Glue.lrelu (addf (Glue.agg (W (Proc.devRef .tc main_v5)) (W (Proc.devRef .tc main_v6)) (W (Proc.devRef .tc main_v30)) (Glue.dot (W (Proc.devRef .tc main_arg0)) (W (Proc.devRef .tc main_arg2)))) (Glue.biasRows (W (Proc.devRef .tc main_arg3)))) := by
  after_results_simp
  results_rw
  rfl

set_option maxHeartbeats 4000000 in
set_option maxRecDepth 65536 in
theorem C_v1 (W : Valuation τ sig (Elt F)) : after opsC W (Proc.devRef .tc main_v1) = W (Proc.devRef .tc main_v1) := by
  after_results_simp

set_option maxHeartbeats 4000000 in
set_option maxRecDepth 65536 in
theorem C_v3 (W : Valuation τ sig (Elt F)) : after opsC W (Proc.devRef .tc main_v3) = W (Proc.devRef .tc main_v3) := by
  after_results_simp

set_option maxHeartbeats 4000000 in
set_option maxRecDepth 65536 in
theorem C_arg4 (W : Valuation τ sig (Elt F)) : after opsC W (Proc.devRef .tc main_arg4) = W (Proc.devRef .tc main_arg4) := by
  after_results_simp

set_option maxHeartbeats 4000000 in
set_option maxRecDepth 65536 in
theorem C_arg5 (W : Valuation τ sig (Elt F)) : after opsC W (Proc.devRef .tc main_arg5) = W (Proc.devRef .tc main_arg5) := by
  after_results_simp

set_option maxHeartbeats 4000000 in
set_option maxRecDepth 65536 in
theorem C_arg6 (W : Valuation τ sig (Elt F)) : after opsC W (Proc.devRef .tc main_arg6) = W (Proc.devRef .tc main_arg6) := by
  after_results_simp

set_option maxHeartbeats 4000000 in
set_option maxRecDepth 65536 in
theorem C_arg7 (W : Valuation τ sig (Elt F)) : after opsC W (Proc.devRef .tc main_arg7) = W (Proc.devRef .tc main_arg7) := by
  after_results_simp

set_option maxHeartbeats 4000000 in
set_option maxRecDepth 65536 in
theorem C_arg8 (W : Valuation τ sig (Elt F)) : after opsC W (Proc.devRef .tc main_arg8) = W (Proc.devRef .tc main_arg8) := by
  after_results_simp

set_option maxHeartbeats 4000000 in
set_option maxRecDepth 65536 in
theorem C_arg9 (W : Valuation τ sig (Elt F)) : after opsC W (Proc.devRef .tc main_arg9) = W (Proc.devRef .tc main_arg9) := by
  after_results_simp

set_option maxHeartbeats 40000000 in
set_option maxRecDepth 65536 in
theorem D_v50 (W : Valuation τ sig (Elt F)) :
    after opsD W (Proc.devRef .tc main_v50) = Glue.withLoops (W (Proc.devRef .tc main_v1)) := by
  after_results_simp
  results_rw
  rfl

set_option maxHeartbeats 40000000 in
set_option maxRecDepth 65536 in
theorem D_v51 (W : Valuation τ sig (Elt F)) :
    after opsD W (Proc.devRef .tc main_v51) = Glue.withLoops (W (Proc.devRef .tc main_v3)) := by
  after_results_simp
  results_rw
  rfl

set_option maxHeartbeats 4000000 in
set_option maxRecDepth 65536 in
theorem D_v48 (W : Valuation τ sig (Elt F)) : after opsD W (Proc.devRef .tc main_v48) = W (Proc.devRef .tc main_v48) := by
  after_results_simp

set_option maxHeartbeats 4000000 in
set_option maxRecDepth 65536 in
theorem D_arg4 (W : Valuation τ sig (Elt F)) : after opsD W (Proc.devRef .tc main_arg4) = W (Proc.devRef .tc main_arg4) := by
  after_results_simp

set_option maxHeartbeats 4000000 in
set_option maxRecDepth 65536 in
theorem D_arg5 (W : Valuation τ sig (Elt F)) : after opsD W (Proc.devRef .tc main_arg5) = W (Proc.devRef .tc main_arg5) := by
  after_results_simp

set_option maxHeartbeats 4000000 in
set_option maxRecDepth 65536 in
theorem D_arg6 (W : Valuation τ sig (Elt F)) : after opsD W (Proc.devRef .tc main_arg6) = W (Proc.devRef .tc main_arg6) := by
  after_results_simp

set_option maxHeartbeats 4000000 in
set_option maxRecDepth 65536 in
theorem D_arg7 (W : Valuation τ sig (Elt F)) : after opsD W (Proc.devRef .tc main_arg7) = W (Proc.devRef .tc main_arg7) := by
  after_results_simp

set_option maxHeartbeats 4000000 in
set_option maxRecDepth 65536 in
theorem D_arg8 (W : Valuation τ sig (Elt F)) : after opsD W (Proc.devRef .tc main_arg8) = W (Proc.devRef .tc main_arg8) := by
  after_results_simp

set_option maxHeartbeats 4000000 in
set_option maxRecDepth 65536 in
theorem D_arg9 (W : Valuation τ sig (Elt F)) : after opsD W (Proc.devRef .tc main_arg9) = W (Proc.devRef .tc main_arg9) := by
  after_results_simp

set_option maxHeartbeats 40000000 in
set_option maxRecDepth 65536 in
theorem E_v75 (W : Valuation τ sig (Elt F)) :
    after opsE W (Proc.devRef .tc main_v75) = Glue.norm (W (Proc.devRef .tc main_v50)) (W (Proc.devRef .tc main_v51)) := by
  after_results_simp
  results_rw
  rfl

set_option maxHeartbeats 4000000 in
set_option maxRecDepth 65536 in
theorem E_v48 (W : Valuation τ sig (Elt F)) : after opsE W (Proc.devRef .tc main_v48) = W (Proc.devRef .tc main_v48) := by
  after_results_simp

set_option maxHeartbeats 4000000 in
set_option maxRecDepth 65536 in
theorem E_v50 (W : Valuation τ sig (Elt F)) : after opsE W (Proc.devRef .tc main_v50) = W (Proc.devRef .tc main_v50) := by
  after_results_simp

set_option maxHeartbeats 4000000 in
set_option maxRecDepth 65536 in
theorem E_v51 (W : Valuation τ sig (Elt F)) : after opsE W (Proc.devRef .tc main_v51) = W (Proc.devRef .tc main_v51) := by
  after_results_simp

set_option maxHeartbeats 4000000 in
set_option maxRecDepth 65536 in
theorem E_arg4 (W : Valuation τ sig (Elt F)) : after opsE W (Proc.devRef .tc main_arg4) = W (Proc.devRef .tc main_arg4) := by
  after_results_simp

set_option maxHeartbeats 4000000 in
set_option maxRecDepth 65536 in
theorem E_arg5 (W : Valuation τ sig (Elt F)) : after opsE W (Proc.devRef .tc main_arg5) = W (Proc.devRef .tc main_arg5) := by
  after_results_simp

set_option maxHeartbeats 4000000 in
set_option maxRecDepth 65536 in
theorem E_arg6 (W : Valuation τ sig (Elt F)) : after opsE W (Proc.devRef .tc main_arg6) = W (Proc.devRef .tc main_arg6) := by
  after_results_simp

set_option maxHeartbeats 4000000 in
set_option maxRecDepth 65536 in
theorem E_arg7 (W : Valuation τ sig (Elt F)) : after opsE W (Proc.devRef .tc main_arg7) = W (Proc.devRef .tc main_arg7) := by
  after_results_simp

set_option maxHeartbeats 4000000 in
set_option maxRecDepth 65536 in
theorem E_arg8 (W : Valuation τ sig (Elt F)) : after opsE W (Proc.devRef .tc main_arg8) = W (Proc.devRef .tc main_arg8) := by
  after_results_simp

set_option maxHeartbeats 4000000 in
set_option maxRecDepth 65536 in
theorem E_arg9 (W : Valuation τ sig (Elt F)) : after opsE W (Proc.devRef .tc main_arg9) = W (Proc.devRef .tc main_arg9) := by
  after_results_simp

set_option maxHeartbeats 40000000 in
set_option maxRecDepth 65536 in
theorem F_v94 (W : Valuation τ sig (Elt F)) :
    after opsF W (Proc.devRef .tc main_v94) = Glue.lrelu (addf (addf (Glue.agg (W (Proc.devRef .tc main_v50)) (W (Proc.devRef .tc main_v51)) (W (Proc.devRef .tc main_v75)) (Glue.dot (W (Proc.devRef .tc main_v48)) (W (Proc.devRef .tc main_arg4)))) (Glue.biasRows (W (Proc.devRef .tc main_arg5)))) (W (Proc.devRef .tc main_v48))) := by
  after_results_simp
  results_rw
  rfl

set_option maxHeartbeats 4000000 in
set_option maxRecDepth 65536 in
theorem F_arg6 (W : Valuation τ sig (Elt F)) : after opsF W (Proc.devRef .tc main_arg6) = W (Proc.devRef .tc main_arg6) := by
  after_results_simp

set_option maxHeartbeats 4000000 in
set_option maxRecDepth 65536 in
theorem F_arg7 (W : Valuation τ sig (Elt F)) : after opsF W (Proc.devRef .tc main_arg7) = W (Proc.devRef .tc main_arg7) := by
  after_results_simp

set_option maxHeartbeats 4000000 in
set_option maxRecDepth 65536 in
theorem F_arg8 (W : Valuation τ sig (Elt F)) : after opsF W (Proc.devRef .tc main_arg8) = W (Proc.devRef .tc main_arg8) := by
  after_results_simp

set_option maxHeartbeats 4000000 in
set_option maxRecDepth 65536 in
theorem F_arg9 (W : Valuation τ sig (Elt F)) : after opsF W (Proc.devRef .tc main_arg9) = W (Proc.devRef .tc main_arg9) := by
  after_results_simp

set_option maxHeartbeats 40000000 in
set_option maxRecDepth 65536 in
theorem G_v105 (W : Valuation τ sig (Elt F)) :
    after opsG W (Proc.devRef .tc main_v105) = Glue.lrelu (addf (addf (Glue.dot (Glue.lrelu (addf (Glue.dot (W (Proc.devRef .tc main_v94)) (W (Proc.devRef .tc main_arg6))) (Glue.biasRows (W (Proc.devRef .tc main_arg7))))) (W (Proc.devRef .tc main_arg8))) (Glue.biasRows (W (Proc.devRef .tc main_arg9)))) (W (Proc.devRef .tc main_v94))) := by
  after_results_simp
  results_rw
  rfl

set_option maxRecDepth 65536 in
/-- The line is its seven stretches in order. -/
theorem ops_split : (RefRun.ops : List (HloOp τ sig (Elt F))) = opsA ++ (opsB ++ (opsC ++ (opsD ++ (opsE ++ (opsF ++ opsG))))) := rfl

set_option maxHeartbeats 4000000 in
/-- The result buffer after the whole line is the reference function of the arguments' contents before it. -/
theorem value (V : Valuation τ sig (Elt F)) :
    after RefRun.ops V (Proc.devRef .tc main_v105)
      = Glue.out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rw [ops_split, after_app, after_app, after_app, after_app, after_app, after_app]
  rw [G_v105,
    F_v94, F_arg6, F_arg7, F_arg8, F_arg9,
    E_v75, E_v48, E_v50, E_v51, E_arg4, E_arg5, E_arg6, E_arg7, E_arg8, E_arg9,
    D_v50, D_v51, D_v48, D_arg4, D_arg5, D_arg6, D_arg7, D_arg8, D_arg9,
    C_v48, C_v1, C_v3, C_arg4, C_arg5, C_arg6, C_arg7, C_arg8, C_arg9,
    B_v30, B_v1, B_v3, B_v5, B_v6, B_arg0, B_arg2, B_arg3, B_arg4, B_arg5, B_arg6, B_arg7, B_arg8, B_arg9,
    A_v1, A_v3, A_v5, A_v6, A_arg0, A_arg2, A_arg3, A_arg4, A_arg5, A_arg6, A_arg7, A_arg8, A_arg9]
  rfl

set_option maxHeartbeats 4000000 in
set_option maxRecDepth 65536 in
/-- Argument 0 is written by no operation. -/
theorem arg0_eq (V : Valuation τ sig (Elt F)) : after RefRun.ops V (Proc.devRef .tc main_arg0) = V (Proc.devRef .tc main_arg0) := by
  after_results_simp

set_option maxHeartbeats 4000000 in
set_option maxRecDepth 65536 in
/-- Argument 1 is written by no operation. -/
theorem arg1_eq (V : Valuation τ sig (Elt F)) : after RefRun.ops V (Proc.devRef .tc main_arg1) = V (Proc.devRef .tc main_arg1) := by
  after_results_simp

set_option maxHeartbeats 4000000 in
set_option maxRecDepth 65536 in
/-- Argument 2 is written by no operation. -/
theorem arg2_eq (V : Valuation τ sig (Elt F)) : after RefRun.ops V (Proc.devRef .tc main_arg2) = V (Proc.devRef .tc main_arg2) := by
  after_results_simp

set_option maxHeartbeats 4000000 in
set_option maxRecDepth 65536 in
/-- Argument 3 is written by no operation. -/
theorem arg3_eq (V : Valuation τ sig (Elt F)) : after RefRun.ops V (Proc.devRef .tc main_arg3) = V (Proc.devRef .tc main_arg3) := by
  after_results_simp

set_option maxHeartbeats 4000000 in
set_option maxRecDepth 65536 in
/-- Argument 4 is written by no operation. -/
theorem arg4_eq (V : Valuation τ sig (Elt F)) : after RefRun.ops V (Proc.devRef .tc main_arg4) = V (Proc.devRef .tc main_arg4) := by
  after_results_simp

set_option maxHeartbeats 4000000 in
set_option maxRecDepth 65536 in
/-- Argument 5 is written by no operation. -/
theorem arg5_eq (V : Valuation τ sig (Elt F)) : after RefRun.ops V (Proc.devRef .tc main_arg5) = V (Proc.devRef .tc main_arg5) := by
  after_results_simp

set_option maxHeartbeats 4000000 in
set_option maxRecDepth 65536 in
/-- Argument 6 is written by no operation. -/
theorem arg6_eq (V : Valuation τ sig (Elt F)) : after RefRun.ops V (Proc.devRef .tc main_arg6) = V (Proc.devRef .tc main_arg6) := by
  after_results_simp

set_option maxHeartbeats 4000000 in
set_option maxRecDepth 65536 in
/-- Argument 7 is written by no operation. -/
theorem arg7_eq (V : Valuation τ sig (Elt F)) : after RefRun.ops V (Proc.devRef .tc main_arg7) = V (Proc.devRef .tc main_arg7) := by
  after_results_simp

set_option maxHeartbeats 4000000 in
set_option maxRecDepth 65536 in
/-- Argument 8 is written by no operation. -/
theorem arg8_eq (V : Valuation τ sig (Elt F)) : after RefRun.ops V (Proc.devRef .tc main_arg8) = V (Proc.devRef .tc main_arg8) := by
  after_results_simp

set_option maxHeartbeats 4000000 in
set_option maxRecDepth 65536 in
/-- Argument 9 is written by no operation. -/
theorem arg9_eq (V : Valuation τ sig (Elt F)) : after RefRun.ops V (Proc.devRef .tc main_arg9) = V (Proc.devRef .tc main_arg9) := by
  after_results_simp

/-- On every device, for any float values, from any memory with zero counters: every weakly fair execution of the
    entry function terminates with the result buffer at the reference function of the arguments' launch contents and
    every argument buffer unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v105)
        = Glue.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v105).trans (value _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _)⟩)
    (RefRun.run_after m ρ)

end Cert.ReferenceIdeal.RefValue

end
-- ==== Proof.Bridge.lean ====
/-
  The three whole-array operations of the network as a host program spells them, and as the specification states them,
  at exact (extended real) values.

  A host dot product of the node matrix x (100000 by 64) with a 64 by 64 weight W, contracting the columns of x with the
  rows of W, is the dense layer: entry (p, q) is the sum over k < 64 of x[p, k] · W[k, q]. A bias vector b of 64 entries
  laid along axis 1 of a one-row matrix, and that row laid down all 100000 rows, reads b[q] at entry (p, q); the same
  vector cast to a one-row matrix reads b[q] at entry (0, q), so the two layouts of the bias agree entry by entry. The
  leaky rectifier of a matrix — a comparison with a rank-0 zero laid over the matrix, a product with a rank-0 slope laid
  over the matrix, and a select — is lr of each entry. Hence bias then rectifier, and bias, residual, then rectifier, are
  the specification's two pointwise stages with the bias as a one-row matrix.
-/
import proofs.«131320_j68771016343679_1_alg».proof.ReferenceIdeal
import proofs.«131320_j68771016343679_1_alg».proof.Proof.Gen.ReferenceIdeal
import proofs.«131320_j68771016343679_1_alg».proof.Proof.Spec
import proofs.«131320_j68771016343679_1_alg».proof.Proof.KGlue
import proofs.«131320_j68771016343679_1_alg».proof.Proof.LibPlainContract
import proofs.«131320_j68771016343679_1_alg».proof.Proof.LibLreluRows
import Idealize.ShloMosaic.Lib.ValueIdx

noncomputable section

namespace Cert.Bridge

open Cert.ReferenceIdeal Cert.ReferenceIdeal.Facts₀ Idealize.ShloMosaic Idealize.ShloMosaic.ValueIdx

/-! ## The dense layer -/

/-- The host dot product of the node matrix and a weight is the dense layer. -/
theorem dot_eq (x : FVec Ideal S100000x64 .f32) (W : FVec Ideal S64x64 .f32) :
    Host.dotGeneral (F := Ideal) dot_S100000x64_S64x64_S100000x64_1_0_0_1_n_n none x W = Cert.Gcn.dense x W := by
  funext i
  obtain ⟨p, q, rfl⟩ : ∃ (p : Fin 100000) (q : Fin 64), i = ix2 p q := ⟨i 0, i 1, eq_ix2 i⟩
  rw [Cert.Gcn.dense_apply]
  exact Cert.LibPlainContract.dotGeneral_plain_apply 100000 64 64 none .single x W p q

/-! ## The rectifier and the bias, as the host spells them -/

/-- The leaky rectifier of a matrix: a comparison with a rank-0 zero laid over the matrix, a product with the rank-0
    slope laid over the matrix, and a select. -/
def lreluH (v : FVec Ideal S100000x64 .f32) : FVec Ideal S100000x64 .f32 :=
  select (cmpf .oge v (broadcastInDim S100000x64 ![] bcast_S_S100000x64 (constant (F := Ideal) S_ .f32 0x00000000#32))) v
    (mulf (broadcastInDim S100000x64 ![] bcast_S_S100000x64 (id (constant (F := Ideal) S_ .f32 0x3C23D70A#32))) v)

/-- A bias vector laid along axis 1 of a one-row matrix, and that row laid down every row of the matrix. -/
def biasRowsH (b : FVec Ideal S64 .f32) : FVec Ideal S100000x64 .f32 :=
  broadcastInDim S100000x64 ![0, 1] bcast_S1x64_S100000x64_0_1 (broadcastInDim S1x64 ![1] bcast_S64_S1x64_1 b)

/-- The rectifier of a matrix at an entry is lr of the entry. -/
theorem lreluH_apply (v : FVec Ideal S100000x64 .f32) (i : S100000x64.Idx) : lreluH v i = Cert.Gcn.lr (v i) := rfl

/-- The bias laid over the matrix reads b[q] at entry (p, q). -/
theorem biasRowsH_apply (b : FVec Ideal S64 .f32) (p : Fin 100000) (q : Fin 64) : biasRowsH b (ix2 p q) = b (ix1 q) :=
  Cert.LibLreluRows.biasRows_apply bcast_S64_S1x64_1 bcast_S1x64_S100000x64_0_1 b p q

/-- The bias cast to a one-row matrix reads b[q] at entry (0, q). -/
theorem row_apply (b : FVec Ideal S64 .f32) (q : Fin 64) :
    Cert.KernelIdeal.Glue.row (F := Ideal) b (ix2 (0 : Fin 1) q) = b (ix1 q) := by
  unfold Cert.KernelIdeal.Glue.row
  exact Cert.LibLreluRows.rowCast_apply _ b q

/-! ## The two pointwise stages -/

/-- Bias then rectifier, as the host spells it, is the specification's stage with the bias as a one-row matrix. -/
theorem biasAct_eq (a : FVec Ideal S100000x64 .f32) (b : FVec Ideal S64 .f32) :
    lreluH (addf a (biasRowsH b)) = Cert.Gcn.biasAct a (Cert.KernelIdeal.Glue.row (F := Ideal) b) := by
  funext i
  obtain ⟨p, q, rfl⟩ : ∃ (p : Fin 100000) (q : Fin 64), i = ix2 p q := ⟨i 0, i 1, eq_ix2 i⟩
  rw [lreluH_apply, addf_apply, biasRowsH_apply, Cert.Gcn.biasAct_apply, row_apply]

/-- Bias, residual, then rectifier, as the host spells it, is the specification's stage with the bias as a one-row
    matrix. -/
theorem biasResidAct_eq (a : FVec Ideal S100000x64 .f32) (b : FVec Ideal S64 .f32) (r : FVec Ideal S100000x64 .f32) :
    lreluH (addf (addf a (biasRowsH b)) r)
      = Cert.Gcn.biasResidAct a (Cert.KernelIdeal.Glue.row (F := Ideal) b) r := by
  funext i
  obtain ⟨p, q, rfl⟩ : ∃ (p : Fin 100000) (q : Fin 64), i = ix2 p q := ⟨i 0, i 1, eq_ix2 i⟩
  rw [lreluH_apply, addf_apply, addf_apply, biasRowsH_apply, Cert.Gcn.biasResidAct_apply, row_apply]

end Cert.Bridge

end
-- ==== Proof.Equal.lean ====
/-
  The tiled program and the reference compute one function.

  Both apply the same host operations to the edge list and between the layers (the same gathers, scaling and
  scatter-additions, written once per program), so those agree by their definitions. A tiled dense stage is the
  reference's matrix product, entry by entry the same sum over 64 terms; a tiled bias-and-activation stage is the
  reference's broadcast bias, addition and leaky rectifier, entry by entry the same expression, the residual added in
  the same place. Composing the stages gives the reference's whole function. No law of arithmetic beyond these
  identities of expressions is used, so nothing is asked of the inputs.
-/
import proofs.«131320_j68771016343679_1_alg».proof.Proof.KValue
import proofs.«131320_j68771016343679_1_alg».proof.Proof.RefGlue
import proofs.«131320_j68771016343679_1_alg».proof.Proof.Bridge

set_option maxRecDepth 16384

noncomputable section

namespace Cert.Equal

open Idealize.ShloMosaic
open Cert.KernelIdeal (S100000x64 S2x1200000 S64x64 S64 S1300000)

/-- The two programs' host operations are the same operations. -/
theorem src_eq (ei : (⟨S2x1200000, .i32⟩ : BufTy).Contents (Elt Ideal)) : Cert.KernelIdeal.Glue.src ei = Cert.ReferenceIdeal.Glue.src ei := rfl
theorem dst_eq (ei : (⟨S2x1200000, .i32⟩ : BufTy).Contents (Elt Ideal)) : Cert.KernelIdeal.Glue.dst ei = Cert.ReferenceIdeal.Glue.dst ei := rfl
theorem norm_eq (s d : (⟨S1300000, .i32⟩ : BufTy).Contents (Elt Ideal)) : Cert.KernelIdeal.Glue.norm s d = Cert.ReferenceIdeal.Glue.norm s d := rfl
theorem agg_eq (s d : (⟨S1300000, .i32⟩ : BufTy).Contents (Elt Ideal)) (n : (⟨S1300000, .f32⟩ : BufTy).Contents (Elt Ideal)) (h : (⟨S100000x64, .f32⟩ : BufTy).Contents (Elt Ideal)) :
    Cert.KernelIdeal.Glue.agg s d n h = Cert.ReferenceIdeal.Glue.agg s d n h := rfl

/-- The first layer. -/
theorem layer1_eq (x : (⟨S100000x64, .f32⟩ : BufTy).Contents (Elt Ideal)) (ei : (⟨S2x1200000, .i32⟩ : BufTy).Contents (Elt Ideal)) (W1 : (⟨S64x64, .f32⟩ : BufTy).Contents (Elt Ideal)) (b1 : (⟨S64, .f32⟩ : BufTy).Contents (Elt Ideal)) :
    Cert.KernelIdeal.Named.layer1 x ei W1 b1
      = Cert.ReferenceIdeal.Glue.lrelu (addf (Cert.ReferenceIdeal.Glue.agg (Cert.ReferenceIdeal.Glue.src ei) (Cert.ReferenceIdeal.Glue.dst ei)
          (Cert.ReferenceIdeal.Glue.norm (Cert.ReferenceIdeal.Glue.src ei) (Cert.ReferenceIdeal.Glue.dst ei)) (Cert.ReferenceIdeal.Glue.dot x W1))
          (Cert.ReferenceIdeal.Glue.biasRows b1)) := by
  unfold Cert.KernelIdeal.Named.layer1
  rw [src_eq, dst_eq, norm_eq, agg_eq, ← Cert.Bridge.dot_eq]
  exact (Cert.Bridge.biasAct_eq _ _).symm

/-- The second layer. -/
theorem layer2_eq (h1 : (⟨S100000x64, .f32⟩ : BufTy).Contents (Elt Ideal)) (ei : (⟨S2x1200000, .i32⟩ : BufTy).Contents (Elt Ideal)) (W2 : (⟨S64x64, .f32⟩ : BufTy).Contents (Elt Ideal)) (b2 : (⟨S64, .f32⟩ : BufTy).Contents (Elt Ideal)) :
    Cert.KernelIdeal.Named.layer2 h1 ei W2 b2
      = Cert.ReferenceIdeal.Glue.lrelu (addf (addf (Cert.ReferenceIdeal.Glue.agg (Cert.ReferenceIdeal.Glue.src ei) (Cert.ReferenceIdeal.Glue.dst ei)
          (Cert.ReferenceIdeal.Glue.norm (Cert.ReferenceIdeal.Glue.src ei) (Cert.ReferenceIdeal.Glue.dst ei)) (Cert.ReferenceIdeal.Glue.dot h1 W2))
          (Cert.ReferenceIdeal.Glue.biasRows b2)) h1) := by
  unfold Cert.KernelIdeal.Named.layer2
  rw [src_eq, dst_eq, norm_eq, agg_eq, ← Cert.Bridge.dot_eq]
  exact (Cert.Bridge.biasResidAct_eq _ _ _).symm

/-- The two dense layers on top. -/
theorem head_eq (h2 : (⟨S100000x64, .f32⟩ : BufTy).Contents (Elt Ideal)) (Wm1 : (⟨S64x64, .f32⟩ : BufTy).Contents (Elt Ideal)) (bm1 : (⟨S64, .f32⟩ : BufTy).Contents (Elt Ideal)) (Wm2 : (⟨S64x64, .f32⟩ : BufTy).Contents (Elt Ideal)) (bm2 : (⟨S64, .f32⟩ : BufTy).Contents (Elt Ideal)) :
    Cert.KernelIdeal.Named.head h2 Wm1 bm1 Wm2 bm2
      = Cert.ReferenceIdeal.Glue.lrelu (addf (addf (Cert.ReferenceIdeal.Glue.dot
          (Cert.ReferenceIdeal.Glue.lrelu (addf (Cert.ReferenceIdeal.Glue.dot h2 Wm1) (Cert.ReferenceIdeal.Glue.biasRows bm1))) Wm2)
          (Cert.ReferenceIdeal.Glue.biasRows bm2)) h2) := by
  unfold Cert.KernelIdeal.Named.head
  rw [← Cert.Bridge.dot_eq h2 Wm1, ← Cert.Bridge.biasAct_eq, ← Cert.Bridge.dot_eq _ Wm2]
  exact (Cert.Bridge.biasResidAct_eq _ _ _).symm

/-- The whole network. -/
theorem out_eq (x : (⟨S100000x64, .f32⟩ : BufTy).Contents (Elt Ideal)) (ei : (⟨S2x1200000, .i32⟩ : BufTy).Contents (Elt Ideal)) (W1 : (⟨S64x64, .f32⟩ : BufTy).Contents (Elt Ideal)) (b1 : (⟨S64, .f32⟩ : BufTy).Contents (Elt Ideal))
    (W2 : (⟨S64x64, .f32⟩ : BufTy).Contents (Elt Ideal)) (b2 : (⟨S64, .f32⟩ : BufTy).Contents (Elt Ideal)) (Wm1 : (⟨S64x64, .f32⟩ : BufTy).Contents (Elt Ideal)) (bm1 : (⟨S64, .f32⟩ : BufTy).Contents (Elt Ideal)) (Wm2 : (⟨S64x64, .f32⟩ : BufTy).Contents (Elt Ideal)) (bm2 : (⟨S64, .f32⟩ : BufTy).Contents (Elt Ideal)) :
    Cert.KernelIdeal.Named.out x ei W1 b1 W2 b2 Wm1 bm1 Wm2 bm2 = Cert.ReferenceIdeal.Glue.out x ei W1 b1 W2 b2 Wm1 bm1 Wm2 bm2 := by
  unfold Cert.KernelIdeal.Named.out
  rw [head_eq, layer2_eq, layer1_eq]
  rfl

end Cert.Equal

end
-- ==== Proof.lean ====
/-
  The proof of the certificate's claim: a two-layer graph convolution followed by two dense layers, computed by six
  tiled stages with whole-array gather, scaling and scatter-addition between them, equals its reference at exact
  (extended real) values.

  Frames. The tiled program's run, at the word-level reading and at the exact reading, terminates without a fault and
  leaves its arguments unchanged: the run is carried segment by segment, each region's arrays ending at what its blocks'
  write-backs leave. The reference is a list of whole-array operations; its run ends with every buffer at the
  operations' composed value of the arguments, which are never written.

  Values. Each tiled stage writes five row blocks of 20000 nodes that tile the 100000 by 64 result; block t of a dense
  stage holds, at (p, q), the sum over k < 64 of x[20000 t + p, k] · W[k, q], which is entry (20000 t + p, q) of the
  whole product; block t of a bias-and-activation stage holds lr (a + b[q] (+ r)) at the same entry. So each stage's
  array is one whole-array function of its inputs, and the program's result is their composition with the host
  operations between them. The reference's matrix product is the same sum, its broadcast bias the same b[q], its
  leaky rectifier the same expression with the same slope constant, its residual additions associated the same way,
  and its host operations are the same operations; so the two results are equal whatever the arguments hold.

  The idealized program is the printed program read at exact values: the ideal pass rewrote nothing.
-/
import proofs.«131320_j68771016343679_1_alg».proof.Defs
import proofs.«131320_j68771016343679_1_alg».proof.Proof.Gen.Kernel
import proofs.«131320_j68771016343679_1_alg».proof.Proof.Gen.Kernel.Frame
import proofs.«131320_j68771016343679_1_alg».proof.Proof.Gen.KernelIdeal
import proofs.«131320_j68771016343679_1_alg».proof.Proof.Gen.KernelIdeal.Frame
import proofs.«131320_j68771016343679_1_alg».proof.Proof.Gen.ReferenceIdeal
import proofs.«131320_j68771016343679_1_alg».proof.Proof.Gen.Pre_finite_inputs
import proofs.«131320_j68771016343679_1_alg».proof.Proof.KValue
import proofs.«131320_j68771016343679_1_alg».proof.Proof.RefValue
import proofs.«131320_j68771016343679_1_alg».proof.Proof.Equal
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with the result dropped. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- Both programs run, from memories agreeing on the arguments, to the same result: the tiled program's at its stages'
    composition, the reference's at its operations' composition, which are one function. -/
theorem algebraic : Cert.algebraic_KernelIdeal_ReferenceIdeal := by
  intro m ρ m' ρ' _ hagree
  refine ⟨fun c => Cert.KernelIdeal.Named.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.KernelIdeal.Named.run m ρ, ?_⟩
  refine (θ_run Cert.ReferenceIdeal.defs _ _).mono (fun r h c => ⟨(h c).1.trans ?_, (h c).2⟩)
    (Cert.ReferenceIdeal.RefValue.run (F := Ideal) m' ρ')
  obtain ⟨e0, e1, e2, e3, e4, e5, e6, e7, e8, e9⟩ := hagree c
  rw [e0, e1, e2, e3, e4, e5, e6, e7, e8, e9]
  exact (Cert.Equal.out_eq _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
